-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x8x8 : Shape := ⟨4, ![64, 64, 8, 8]⟩
abbrev S64x256 : Shape := ⟨2, ![64, 256]⟩
abbrev S388x256 : Shape := ⟨2, ![388, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S64x64x8x8 : S_.BroadcastsInDim S64x64x8x8 (![] : Fin 0 → Fin S64x64x8x8.rank)
  reducesTo_S64x64x8x8_S_d0_1_2_3 : S64x64x8x8.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S388x256 : S_.BroadcastsInDim S388x256 (![] : Fin 0 → Fin S388x256.rank)
  reducesTo_S388x256_S_d0_1 : S388x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S256x2 .f32) (main_arg15 : FVec F S2 .f32) (main_v63 : IVec S_ 1) (main_v67 : IVec S_ 1) : IVec S_ 1 :=
  let main_v68 : IVec S_ 1 := andi main_v63 main_v67
  let main_v69 : FVec F S256x2 .f32 := Host.absf main_arg14
  let main_cst_26 : FVec F S_ .f32 := constant S_ .f32 0x7F800000#32
  let main_v70 : FVec F S256x2 .f32 := broadcastInDim S256x2 ![] bcast_S_S256x2 main_cst_26
  let main_v71 : IVec S256x2 1 := cmpf .olt main_v69 main_v70
  let main_c_27 : IVec S_ 1 := constantI S_ 1 1#1
  let main_v72 : IVec S_ 1 := (fun x v => Host.reduce IntOp.andi x v reducesTo_S256x2_S_d0_1 h_S_) main_v71 main_c_27
  let main_v73 : IVec S_ 1 := andi main_v68 main_v72
  let main_v74 : FVec F S2 .f32 := Host.absf main_arg15
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg11 : FVec F S256 .f32) (main_arg12 : FVec F S256x256 .f32) (main_arg13 : FVec F S256 .f32) (main_arg14 : FVec F S256x2 .f32) (main_arg15 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S64x64x8x8 .f32) (main_arg1 : FVec F S64x256 .f32) (main_arg2 : FVec F S388x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x2 .f32) (main_arg15 : FVec F S2 .f32) : IVec S_ 1 :=
  let main_v0 : FVec F S64x64x8x8 .f32 := Host.absf main_arg0
  let main_cst : FVec F S_ .f32 := constant S_ .f32 0x7F800000#32
  let main_v1 : FVec F S64x64x8x8 .f32 := broadcastInDim S64x64x8x8 ![] bcast_S_S64x64x8x8 main_cst
  let main_v2 : IVec S64x64x8x8 1 := cmpf .olt main_v0 main_v1
  let main_c : IVec S_ 1 := constantI S_ 1 1#1
  let main_v3 : IVec S_ 1 := (fun x v => Host.reduce IntOp.andi x v reducesTo_S64x64x8x8_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S388x256 .f32 := Host.absf main_arg2
  let main_cst_2 : FVec F S_ .f32 := constant S_ .f32 0x7F800000#32
  let main_v10 : FVec F S388x256 .f32 := broadcastInDim S388x256 ![] bcast_S_S388x256 main_cst_2
  let main_v11 : IVec S388x256 1 := cmpf .olt main_v9 main_v10
  let main_c_3 : IVec S_ 1 := constantI S_ 1 1#1
  let main_v12 : IVec S_ 1 := (fun x v => Host.reduce IntOp.andi x v reducesTo_S388x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x64x8x8 : Shape := ⟨4, ![64, 64, 8, 8]⟩
abbrev S64x256 : Shape := ⟨2, ![64, 256]⟩
abbrev S388x256 : Shape := ⟨2, ![388, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S64x64x64 : Shape := ⟨3, ![64, 64, 64]⟩
abbrev S64 : Shape := ⟨1, ![64]⟩
abbrev S_ : Shape := ⟨0, ![]⟩
abbrev S1x64 : Shape := ⟨2, ![1, 64]⟩
abbrev S2x64 : Shape := ⟨2, ![2, 64]⟩
abbrev S64x2x64 : Shape := ⟨3, ![64, 2, 64]⟩
abbrev S64x66x64 : Shape := ⟨3, ![64, 66, 64]⟩
abbrev S64x64x66 : Shape := ⟨3, ![64, 64, 66]⟩
abbrev S64x1x256 : Shape := ⟨3, ![64, 1, 256]⟩
abbrev S66x256 : Shape := ⟨2, ![66, 256]⟩
abbrev S4096 : Shape := ⟨1, ![4096]⟩
abbrev S4096x1 : Shape := ⟨2, ![4096, 1]⟩
abbrev S4096x64 : Shape := ⟨2, ![4096, 64]⟩
abbrev S1x64x66 : Shape := ⟨3, ![1, 64, 66]⟩
abbrev S1x1x256 : Shape := ⟨3, ![1, 1, 256]⟩
abbrev S64x66 : Shape := ⟨2, ![64, 66]⟩
abbrev S1x256 : Shape := ⟨2, ![1, 256]⟩
abbrev S4096x256 : Shape := ⟨2, ![4096, 256]⟩
abbrev S64x2 : Shape := ⟨2, ![64, 2]⟩
abbrev S1x2 : Shape := ⟨2, ![1, 2]⟩
abbrev S64x1 : Shape := ⟨2, ![64, 1]⟩

abbrev nBuf : Space → Nat
  | .hbm => 165
  | .vmem => 18
  | .smem => 0
  | _ => 0

abbrev hbmTy0_0 (i : Nat) : BufTy := match i % 128 with
  | 0 => ⟨S64x64x8x8, .f32⟩
  | 1 => ⟨S64x256, .f32⟩
  | 2 => ⟨S388x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x2, .f32⟩
  | 15 => ⟨S2, .f32⟩
  | 16 => ⟨S64x64x64, .f32⟩
  | 17 => ⟨S64, .i32⟩
  | 18 => ⟨S_, .i32⟩
  | 19 => ⟨S_, .i32⟩
  | 20 => ⟨S64, .i32⟩
  | 21 => ⟨S64, .i32⟩
  | 22 => ⟨S64, .i32⟩
  | 23 => ⟨S_, .i32⟩
  | 24 => ⟨S64, .i32⟩
  | 25 => ⟨S64, .i1⟩
  | 26 => ⟨S64, .i32⟩
  | 27 => ⟨S64, .i32⟩
  | 28 => ⟨S_, .i32⟩
  | 29 => ⟨S64, .i32⟩
  | 30 => ⟨S64, .i1⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i1⟩
  | 47 => ⟨S_, .i32⟩
  | 48 => ⟨S64, .i32⟩
  | 49 => ⟨S64, .i1⟩
  | 50 => ⟨S_, .i32⟩
  | 51 => ⟨S_, .i1⟩
  | 52 => ⟨S64, .i1⟩
  | 53 => ⟨S64, .i1⟩
  | 54 => ⟨S64, .i1⟩
  | 55 => ⟨S64, .i32⟩
  | 56 => ⟨S64, .i32⟩
  | 57 => ⟨S64, .i32⟩
  | 58 => ⟨S1x64, .i32⟩
  | 59 => ⟨S1x64, .i32⟩
  | 60 => ⟨S2x64, .i32⟩
  | 61 => ⟨S2x64, .f32⟩
  | 62 => ⟨S64x2x64, .f32⟩
  | 63 => ⟨S64x66x64, .f32⟩
  | 64 => ⟨S64x64x66, .f32⟩
  | 65 => ⟨S64x64x66, .bf16⟩
  | 66 => ⟨S64x256, .bf16⟩
  | 67 => ⟨S64x1x256, .bf16⟩
  | 68 => ⟨S66x256, .f32⟩
  | 69 => ⟨S66x256, .bf16⟩
  | 70 => ⟨S66x256, .f32⟩
  | 71 => ⟨S66x256, .bf16⟩
  | 72 => ⟨S256x256, .f32⟩
  | 73 => ⟨S256x256, .bf16⟩
  | 74 => ⟨S256x256, .bf16⟩
  | 75 => ⟨S256x256, .bf16⟩
  | 76 => ⟨S256x256, .bf16⟩
  | 77 => ⟨S4096, .i32⟩
  | 78 => ⟨S_, .i32⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S4096, .i32⟩
  | 87 => ⟨S4096, .i32⟩
  | 88 => ⟨S_, .i32⟩
  | 89 => ⟨S4096, .i32⟩
  | 90 => ⟨S4096, .i1⟩
  | 91 => ⟨S4096, .i1⟩
  | 92 => ⟨S_, .i32⟩
  | 93 => ⟨S4096, .i32⟩
  | 94 => ⟨S4096, .i32⟩
  | 95 => ⟨S4096, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i1⟩
  | 110 => ⟨S_, .i32⟩
  | 111 => ⟨S_, .i1⟩
  | 112 => ⟨S4096, .i1⟩
  | 113 => ⟨S4096, .i1⟩
  | 114 => ⟨S4096, .i1⟩
  | 115 => ⟨S4096, .i32⟩
  | 116 => ⟨S4096, .i32⟩
  | 117 => ⟨S4096, .i32⟩
  | 118 => ⟨S4096x1, .i32⟩
  | 119 => ⟨S1x64, .i32⟩
  | 120 => ⟨S4096x64, .i32⟩
  | 121 => ⟨S4096x64, .i32⟩
  | 122 => ⟨S4096x64, .i1⟩
  | 123 => ⟨S4096x64, .bf16⟩
  | 124 => ⟨S4096x1, .i32⟩
  | 125 => ⟨S1x64, .i32⟩
  | 126 => ⟨S4096x64, .i32⟩
  | 127 => ⟨S4096x64, .i32⟩
  | _ => ⟨S64x64x8x8, .f32⟩

abbrev hbmTy0_1 (i : Nat) : BufTy := match i % 128 with
  | 0 => ⟨S4096x64, .i1⟩
  | 1 => ⟨S4096x64, .bf16⟩
  | 2 => ⟨S64x1x256, .f32⟩
  | 3 => ⟨S64x256, .f32⟩
  | 4 => ⟨S64x256, .f32⟩
  | 5 => ⟨S1x256, .f32⟩
  | 6 => ⟨S64x256, .f32⟩
  | 7 => ⟨S64x256, .f32⟩
  | 8 => ⟨S_, .f32⟩
  | 9 => ⟨S64x256, .f32⟩
  | 10 => ⟨S64x256, .f32⟩
  | 11 => ⟨S64x256, .f32⟩
  | 12 => ⟨S1x256, .f32⟩
  | 13 => ⟨S64x256, .f32⟩
  | 14 => ⟨S64x256, .f32⟩
  | 15 => ⟨S_, .f32⟩
  | 16 => ⟨S64x256, .f32⟩
  | 17 => ⟨S64x256, .f32⟩
  | 18 => ⟨S64x2, .f32⟩
  | 19 => ⟨S1x2, .f32⟩
  | 20 => ⟨S64x2, .f32⟩
  | 21 => ⟨S64x2, .f32⟩
  | 22 => ⟨S_, .f32⟩
  | 23 => ⟨S64, .f32⟩
  | 24 => ⟨S_, .f32⟩
  | 25 => ⟨S64, .f32⟩
  | 26 => ⟨S64, .f32⟩
  | 27 => ⟨S64x1, .f32⟩
  | 28 => ⟨S64x2, .f32⟩
  | 29 => ⟨S64x2, .f32⟩
  | 30 => ⟨S64x2, .f32⟩
  | 31 => ⟨S_, .f32⟩
  | 32 => ⟨S64, .f32⟩
  | 33 => ⟨S64x1, .f32⟩
  | 34 => ⟨S64x1, .f32⟩
  | 35 => ⟨S64x2, .f32⟩
  | 36 => ⟨S64x2, .f32⟩
  | _ => ⟨S64x64x8x8, .f32⟩

abbrev hbmTy (i : Nat) : BufTy := match i / 128 with
  | 0 => hbmTy0_0 i
  | 1 => hbmTy0_1 i
  | _ => ⟨S64x64x8x8, .f32⟩

abbrev bufTy : (tb : Table) → Fin (tcTables nBuf tb) → BufTy
  | .hbm, ⟨i, _⟩ => hbmTy i
  | .local _ .vmem, ⟨0, _⟩ => ⟨S1x64x66, .bf16⟩
  | .local _ .vmem, ⟨1, _⟩ => ⟨S1x64x66, .bf16⟩
  | .local _ .vmem, ⟨2, _⟩ => ⟨S1x1x256, .bf16⟩
  | .local _ .vmem, ⟨3, _⟩ => ⟨S1x1x256, .bf16⟩
  | .local _ .vmem, ⟨4, _⟩ => ⟨S4096x64, .bf16⟩
  | .local _ .vmem, ⟨5, _⟩ => ⟨S4096x64, .bf16⟩
  | .local _ .vmem, ⟨6, _⟩ => ⟨S66x256, .bf16⟩
  | .local _ .vmem, ⟨7, _⟩ => ⟨S66x256, .bf16⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S1x1x256, .f32⟩
  | .local _ .vmem, ⟨17, _⟩ => ⟨S1x1x256, .f32⟩
  | _, _ => ⟨S64x64x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_c_1 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_c : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_0 : Ref sig .tc := ⟨.hbm, 92, rfl⟩
abbrev main_call2_v12 : Ref sig .tc := ⟨.hbm, 93, rfl⟩
abbrev main_call2_v13 : Ref sig .tc := ⟨.hbm, 94, rfl⟩
abbrev main_v24 : Ref sig .tc := ⟨.hbm, 95, rfl⟩
abbrev main_c_2 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_1 : Ref sig .tc := ⟨.hbm, 104, rfl⟩
abbrev main_call3_v5 : Ref sig .tc := ⟨.hbm, 105, rfl⟩
abbrev main_call3_v6 : Ref sig .tc := ⟨.hbm, 106, rfl⟩
abbrev main_call3_c_2 : Ref sig .tc := ⟨.hbm, 107, rfl⟩
abbrev main_call3_v7 : Ref sig .tc := ⟨.hbm, 108, rfl⟩
abbrev main_call3_v8 : Ref sig .tc := ⟨.hbm, 109, rfl⟩
abbrev main_call3_c_3 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_v25 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v26 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_call6_cst : Ref sig .tc := ⟨.hbm, 136, rfl⟩
abbrev main_call6_v0 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_call7_cst : Ref sig .tc := ⟨.hbm, 143, rfl⟩
abbrev main_call7_v0 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_call8_cst : Ref sig .tc := ⟨.hbm, 150, rfl⟩
abbrev main_call8_v0 : Ref sig .tc := ⟨.hbm, 151, rfl⟩
abbrev main_call8_cst_0 : Ref sig .tc := ⟨.hbm, 152, rfl⟩
abbrev main_call8_v1 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_v5 : Ref sig .tc := ⟨.hbm, 157, rfl⟩
abbrev main_call8_v6 : Ref sig .tc := ⟨.hbm, 158, rfl⟩
abbrev main_call8_cst_1 : Ref sig .tc := ⟨.hbm, 159, rfl⟩
abbrev main_call8_v7 : Ref sig .tc := ⟨.hbm, 160, rfl⟩
abbrev main_call8_v8 : Ref sig .tc := ⟨.hbm, 161, rfl⟩
abbrev main_call8_v9 : Ref sig .tc := ⟨.hbm, 162, rfl⟩
abbrev main_call8_v10 : Ref sig .tc := ⟨.hbm, 163, rfl⟩
abbrev main_v44 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x66 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S66x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S66x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S64x64x8x8_S64x64x64 : S64x64x8x8.ShapeCasts S64x64x64
  bcast_S_S64 : S_.BroadcastsInDim S64 (![] : Fin 0 → Fin S64.rank)
  bcast_S64_S1x64_1 : S64.BroadcastsInDim S1x64 (![1] : Fin 1 → Fin S1x64.rank)
  concatenates_S1x64_S1x64_S2x64_d0 : Shape.Concatenates [S1x64, S1x64] S2x64 0
  bcast_S2x64_S64x2x64_1_2 : S2x64.BroadcastsInDim S64x2x64 (![1, 2] : Fin 2 → Fin S64x2x64.rank)
  concatenates_S64x64x64_S64x2x64_S64x66x64_d1 : Shape.Concatenates [S64x64x64, S64x2x64] S64x66x64 1
  transposes_S64x66x64_S64x64x66_0_2_1 : S64x66x64.Transposes [0, 2, 1] S64x64x66
  bitsLt_bf16_f32 : FTy.bits .bf16 < FTy.bits .f32
  shapeCasts_S64x256_S64x1x256 : S64x256.ShapeCasts S64x1x256
  slices_S388x256_S66x256_0_0 : S388x256.Slices ![0, 0] S66x256
  slices_S388x256_S66x256_66_0 : S388x256.Slices ![66, 0] S66x256
  slices_S388x256_S256x256_132_0 : S388x256.Slices ![132, 0] S256x256
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  inb_S1x64x66_S1x64x66_0_0_0 : ∀ a, (![0, 0, 0] : Fin 3 → Nat) a + S1x64x66.size a ≤ S1x64x66.size a
  h_S1x64x66 : 0 < S1x64x66.numel
  shapeCasts_S1x64x66_S64x66 : S1x64x66.ShapeCasts S64x66
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S66x256_S66x256_0_0 : ∀ a, (![0, 0] : Fin 2 → Nat) a + S66x256.size a ≤ S66x256.size a
  h_S66x256 : 0 < S66x256.numel
  shapeCasts_S66x256_S66x256 : S66x256.ShapeCasts S66x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  reduces_S4096x256_S256 : S4096x256.Reduces [0] S256
  shapeCasts_S1x256_S1x1x256 : S1x256.ShapeCasts S1x1x256
  shapeCasts_S64x1x256_S64x256 : S64x1x256.ShapeCasts S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S64x66_S66x256_S64x256_1_0_0_1_n_n_wf : DotDims.WF S64x66 S66x256 S64x256 [1] [0] [0] [1] [] []
  dot_S1x256_S256x256_S1x256_1_0_0_1_n_n_wf : DotDims.WF S1x256 S256x256 S1x256 [1] [0] [0] [1] [] []
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S64x256_S256x256_S64x256_1_0_0_1_n_n_wf : DotDims.WF S64x256 S256x256 S64x256 [1] [0] [0] [1] [] []
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x66.size a ≤ S64x64x66.size a
  hwx0_0 : ∀ i : grid0.Coords, EltTy.bits .bf16 = 32 ∨ (Rect.block (s := S64x64x66) S1x64x66.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S64x1x256.size a
  hwx0_1 : ∀ i : grid0.Coords, EltTy.bits .bf16 = 32 ∨ (Rect.block (s := S64x1x256) S1x1x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .bf16 = 32 ∨ (Rect.block (s := S4096x64) S4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S66x256.size a ≤ S66x256.size a
  hwx0_4 : ∀ i : grid0.Coords, EltTy.bits .bf16 = 32 ∨ (Rect.block (s := S66x256) S66x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S66x256.size a ≤ S66x256.size a
  hwx0_5 : ∀ i : grid0.Coords, EltTy.bits .bf16 = 32 ∨ (Rect.block (s := S66x256) S66x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x256.size a ≤ S64x1x256.size a
  hwx0_14 : ∀ i : grid0.Coords, EltTy.bits .f32 = 32 ∨ (Rect.block (s := S64x1x256) S1x1x256.size (cc0_transform_14 i) (hinb0_14 i)).WholeWords (EltTy.packing .f32)

variable [Facts₀]

def dot_S64x66_S66x256_S64x256_1_0_0_1_n_n : DotDims S64x66 S66x256 S64x256 where
  lhsContracting := [1]
  rhsContracting := [0]
  lhsNonContracting := [0]
  rhsNonContracting := [1]
  lhsBatch := []
  rhsBatch := []
  wf := dot_S64x66_S66x256_S64x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v11) S1x64x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S66x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S66x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x1x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S64x64x8x8 : Shape := ⟨4, ![64, 64, 8, 8]⟩
abbrev S64x256 : Shape := ⟨2, ![64, 256]⟩
abbrev S388x256 : Shape := ⟨2, ![388, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S64x64x64 : Shape := ⟨3, ![64, 64, 64]⟩
abbrev S64 : Shape := ⟨1, ![64]⟩
abbrev S_ : Shape := ⟨0, ![]⟩
abbrev S1x64 : Shape := ⟨2, ![1, 64]⟩
abbrev S2x64 : Shape := ⟨2, ![2, 64]⟩
abbrev S64x2x64 : Shape := ⟨3, ![64, 2, 64]⟩
abbrev S64x66x64 : Shape := ⟨3, ![64, 66, 64]⟩
abbrev S64x64x66 : Shape := ⟨3, ![64, 64, 66]⟩
abbrev S64x64x1x66 : Shape := ⟨4, ![64, 64, 1, 66]⟩
abbrev S64x64x64x66 : Shape := ⟨4, ![64, 64, 64, 66]⟩
abbrev S64x1x64x66 : Shape := ⟨4, ![64, 1, 64, 66]⟩
abbrev S64x1x1x256 : Shape := ⟨4, ![64, 1, 1, 256]⟩
abbrev S64x64x64x256 : Shape := ⟨4, ![64, 64, 64, 256]⟩
abbrev S64x64x64x388 : Shape := ⟨4, ![64, 64, 64, 388]⟩
abbrev S64x4096x388 : Shape := ⟨3, ![64, 4096, 388]⟩
abbrev S262144x388 : Shape := ⟨2, ![262144, 388]⟩
abbrev S262144x256 : Shape := ⟨2, ![262144, 256]⟩
abbrev S1x256 : Shape := ⟨2, ![1, 256]⟩
abbrev S64x4096x256 : Shape := ⟨3, ![64, 4096, 256]⟩
abbrev S64x2 : Shape := ⟨2, ![64, 2]⟩
abbrev S1x2 : Shape := ⟨2, ![1, 2]⟩
abbrev S64x1 : Shape := ⟨2, ![64, 1]⟩

abbrev nBuf : Space → Nat
  | .hbm => 141
  | .vmem => 0
  | .smem => 0
  | _ => 0

abbrev hbmTy0_0 (i : Nat) : BufTy := match i % 128 with
  | 0 => ⟨S64x64x8x8, .f32⟩
  | 1 => ⟨S64x256, .f32⟩
  | 2 => ⟨S388x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x2, .f32⟩
  | 15 => ⟨S2, .f32⟩
  | 16 => ⟨S64x64x64, .f32⟩
  | 17 => ⟨S64, .i32⟩
  | 18 => ⟨S_, .i32⟩
  | 19 => ⟨S_, .i32⟩
  | 20 => ⟨S64, .i32⟩
  | 21 => ⟨S64, .i32⟩
  | 22 => ⟨S64, .i32⟩
  | 23 => ⟨S_, .i32⟩
  | 24 => ⟨S64, .i32⟩
  | 25 => ⟨S64, .i1⟩
  | 26 => ⟨S64, .i32⟩
  | 27 => ⟨S64, .i32⟩
  | 28 => ⟨S_, .i32⟩
  | 29 => ⟨S64, .i32⟩
  | 30 => ⟨S64, .i1⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i1⟩
  | 47 => ⟨S_, .i32⟩
  | 48 => ⟨S64, .i32⟩
  | 49 => ⟨S64, .i1⟩
  | 50 => ⟨S_, .i32⟩
  | 51 => ⟨S_, .i1⟩
  | 52 => ⟨S64, .i1⟩
  | 53 => ⟨S64, .i1⟩
  | 54 => ⟨S64, .i1⟩
  | 55 => ⟨S64, .i32⟩
  | 56 => ⟨S64, .i32⟩
  | 57 => ⟨S64, .i32⟩
  | 58 => ⟨S1x64, .i32⟩
  | 59 => ⟨S1x64, .i32⟩
  | 60 => ⟨S2x64, .i32⟩
  | 61 => ⟨S2x64, .f32⟩
  | 62 => ⟨S64x2x64, .f32⟩
  | 63 => ⟨S64x66x64, .f32⟩
  | 64 => ⟨S64x64x66, .f32⟩
  | 65 => ⟨S64x64x1x66, .f32⟩
  | 66 => ⟨S64x64x64x66, .f32⟩
  | 67 => ⟨S64x1x64x66, .f32⟩
  | 68 => ⟨S64x64x64x66, .f32⟩
  | 69 => ⟨S64x1x1x256, .f32⟩
  | 70 => ⟨S64x64x64x256, .f32⟩
  | 71 => ⟨S64x64x64x388, .f32⟩
  | 72 => ⟨S64x4096x388, .f32⟩
  | 73 => ⟨S262144x388, .f32⟩
  | 74 => ⟨S262144x256, .f32⟩
  | 75 => ⟨S1x256, .f32⟩
  | 76 => ⟨S262144x256, .f32⟩
  | 77 => ⟨S262144x256, .f32⟩
  | 78 => ⟨S_, .f32⟩
  | 79 => ⟨S262144x256, .f32⟩
  | 80 => ⟨S262144x256, .f32⟩
  | 81 => ⟨S262144x256, .f32⟩
  | 82 => ⟨S1x256, .f32⟩
  | 83 => ⟨S262144x256, .f32⟩
  | 84 => ⟨S262144x256, .f32⟩
  | 85 => ⟨S_, .f32⟩
  | 86 => ⟨S262144x256, .f32⟩
  | 87 => ⟨S262144x256, .f32⟩
  | 88 => ⟨S262144x256, .f32⟩
  | 89 => ⟨S1x256, .f32⟩
  | 90 => ⟨S262144x256, .f32⟩
  | 91 => ⟨S262144x256, .f32⟩
  | 92 => ⟨S_, .f32⟩
  | 93 => ⟨S262144x256, .f32⟩
  | 94 => ⟨S262144x256, .f32⟩
  | 95 => ⟨S262144x256, .f32⟩
  | 96 => ⟨S1x256, .f32⟩
  | 97 => ⟨S262144x256, .f32⟩
  | 98 => ⟨S262144x256, .f32⟩
  | 99 => ⟨S_, .f32⟩
  | 100 => ⟨S262144x256, .f32⟩
  | 101 => ⟨S262144x256, .f32⟩
  | 102 => ⟨S64x4096x256, .f32⟩
  | 103 => ⟨S_, .f32⟩
  | 104 => ⟨S64x256, .f32⟩
  | 105 => ⟨S_, .f32⟩
  | 106 => ⟨S64x256, .f32⟩
  | 107 => ⟨S64x256, .f32⟩
  | 108 => ⟨S64x256, .f32⟩
  | 109 => ⟨S1x256, .f32⟩
  | 110 => ⟨S64x256, .f32⟩
  | 111 => ⟨S64x256, .f32⟩
  | 112 => ⟨S_, .f32⟩
  | 113 => ⟨S64x256, .f32⟩
  | 114 => ⟨S64x256, .f32⟩
  | 115 => ⟨S64x256, .f32⟩
  | 116 => ⟨S1x256, .f32⟩
  | 117 => ⟨S64x256, .f32⟩
  | 118 => ⟨S64x256, .f32⟩
  | 119 => ⟨S_, .f32⟩
  | 120 => ⟨S64x256, .f32⟩
  | 121 => ⟨S64x256, .f32⟩
  | 122 => ⟨S64x2, .f32⟩
  | 123 => ⟨S1x2, .f32⟩
  | 124 => ⟨S64x2, .f32⟩
  | 125 => ⟨S64x2, .f32⟩
  | 126 => ⟨S_, .f32⟩
  | 127 => ⟨S64, .f32⟩
  | _ => ⟨S64x64x8x8, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x2, .f32⟩
  | 5 => ⟨S64x2, .f32⟩
  | 6 => ⟨S64x2, .f32⟩
  | 7 => ⟨S_, .f32⟩
  | 8 => ⟨S64, .f32⟩
  | 9 => ⟨S64x1, .f32⟩
  | 10 => ⟨S64x1, .f32⟩
  | 11 => ⟨S64x2, .f32⟩
  | 12 => ⟨S64x2, .f32⟩
  | _ => ⟨S64x64x8x8, .f32⟩

abbrev hbmTy (i : Nat) : BufTy := match i / 128 with
  | 0 => hbmTy0_0 i
  | 1 => hbmTy0_1 i
  | _ => ⟨S64x64x8x8, .f32⟩

abbrev bufTy : (tb : Table) → Fin (tcTables nBuf tb) → BufTy
  | .hbm, ⟨i, _⟩ => hbmTy i
  | _, _ => ⟨S64x64x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_call2_cst : Ref sig .tc := ⟨.hbm, 78, rfl⟩
abbrev main_call2_v0 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call3_cst : Ref sig .tc := ⟨.hbm, 85, rfl⟩
abbrev main_call3_v0 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_call4_cst : Ref sig .tc := ⟨.hbm, 92, rfl⟩
abbrev main_call4_v0 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call5_cst : Ref sig .tc := ⟨.hbm, 99, rfl⟩
abbrev main_call5_v0 : Ref sig .tc := ⟨.hbm, 100, rfl⟩
abbrev main_v39 : Ref sig .tc := ⟨.hbm, 101, rfl⟩
abbrev main_v40 : Ref sig .tc := ⟨.hbm, 102, rfl⟩
abbrev main_cst : Ref sig .tc := ⟨.hbm, 103, rfl⟩
abbrev main_v41 : Ref sig .tc := ⟨.hbm, 104, rfl⟩
abbrev main_cst_1 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call6_cst : Ref sig .tc := ⟨.hbm, 112, rfl⟩
abbrev main_call6_v0 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_call7_cst : Ref sig .tc := ⟨.hbm, 119, rfl⟩
abbrev main_call7_v0 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call8_cst : Ref sig .tc := ⟨.hbm, 126, rfl⟩
abbrev main_call8_v0 : Ref sig .tc := ⟨.hbm, 127, rfl⟩
abbrev main_call8_cst_0 : Ref sig .tc := ⟨.hbm, 128, rfl⟩
abbrev main_call8_v1 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_v5 : Ref sig .tc := ⟨.hbm, 133, rfl⟩
abbrev main_call8_v6 : Ref sig .tc := ⟨.hbm, 134, rfl⟩
abbrev main_call8_cst_1 : Ref sig .tc := ⟨.hbm, 135, rfl⟩
abbrev main_call8_v7 : Ref sig .tc := ⟨.hbm, 136, rfl⟩
abbrev main_call8_v8 : Ref sig .tc := ⟨.hbm, 137, rfl⟩
abbrev main_call8_v9 : Ref sig .tc := ⟨.hbm, 138, rfl⟩
abbrev main_call8_v10 : Ref sig .tc := ⟨.hbm, 139, rfl⟩
abbrev main_v58 : Ref sig .tc := ⟨.hbm, 140, rfl⟩

abbrev nD : Nat := 1
abbrev τ : Topo := Topo.v7x

variable {F : FTy → Type} [FloatOps F]

class Facts₀ : Prop where
  shapeCasts_S64x64x8x8_S64x64x64 : S64x64x8x8.ShapeCasts S64x64x64
  bcast_S_S64 : S_.BroadcastsInDim S64 (![] : Fin 0 → Fin S64.rank)
  bcast_S64_S1x64_1 : S64.BroadcastsInDim S1x64 (![1] : Fin 1 → Fin S1x64.rank)
  concatenates_S1x64_S1x64_S2x64_d0 : Shape.Concatenates [S1x64, S1x64] S2x64 0
  bcast_S2x64_S64x2x64_1_2 : S2x64.BroadcastsInDim S64x2x64 (![1, 2] : Fin 2 → Fin S64x2x64.rank)
  concatenates_S64x64x64_S64x2x64_S64x66x64_d1 : Shape.Concatenates [S64x64x64, S64x2x64] S64x66x64 1
  transposes_S64x66x64_S64x64x66_0_2_1 : S64x66x64.Transposes [0, 2, 1] S64x64x66
  bcast_S64x64x66_S64x64x1x66_0_1_3 : S64x64x66.BroadcastsInDim S64x64x1x66 (![0, 1, 3] : Fin 3 → Fin S64x64x1x66.rank)
  bcast_S64x64x1x66_S64x64x64x66_0_1_2_3 : S64x64x1x66.BroadcastsInDim S64x64x64x66 (![0, 1, 2, 3] : Fin 4 → Fin S64x64x64x66.rank)
  bcast_S64x64x66_S64x1x64x66_0_2_3 : S64x64x66.BroadcastsInDim S64x1x64x66 (![0, 2, 3] : Fin 3 → Fin S64x1x64x66.rank)
  bcast_S64x1x64x66_S64x64x64x66_0_1_2_3 : S64x1x64x66.BroadcastsInDim S64x64x64x66 (![0, 1, 2, 3] : Fin 4 → Fin S64x64x64x66.rank)
  bcast_S64x256_S64x1x1x256_0_3 : S64x256.BroadcastsInDim S64x1x1x256 (![0, 3] : Fin 2 → Fin S64x1x1x256.rank)
  bcast_S64x1x1x256_S64x64x64x256_0_1_2_3 : S64x1x1x256.BroadcastsInDim S64x64x64x256 (![0, 1, 2, 3] : Fin 4 → Fin S64x64x64x256.rank)
  concatenates_S64x64x64x66_S64x64x64x66_S64x64x64x256_S64x64x64x388_d3 : Shape.Concatenates [S64x64x64x66, S64x64x64x66, S64x64x64x256] S64x64x64x388 3
  shapeCasts_S64x64x64x388_S64x4096x388 : S64x64x64x388.ShapeCasts S64x4096x388
  shapeCasts_S64x4096x388_S262144x388 : S64x4096x388.ShapeCasts S262144x388
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  shapeCasts_S262144x256_S64x4096x256 : S262144x256.ShapeCasts S64x4096x256
  reducesTo_S64x4096x256_S64x256_d1 : S64x4096x256.ReducesTo [1] S64x256
  h_S_ : 0 < S_.numel
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S262144x388_S388x256_S262144x256_1_0_0_1_n_n_wf : DotDims.WF S262144x388 S388x256 S262144x256 [1] [0] [0] [1] [] []
  dot_S262144x256_S256x256_S262144x256_1_0_0_1_n_n_wf : DotDims.WF S262144x256 S256x256 S262144x256 [1] [0] [0] [1] [] []
  dot_S64x256_S256x256_S64x256_1_0_0_1_n_n_wf : DotDims.WF S64x256 S256x256 S64x256 [1] [0] [0] [1] [] []
  dot_S64x256_S256x2_S64x2_1_0_0_1_n_n_wf : DotDims.WF S64x256 S256x2 S64x2 [1] [0] [0] [1] [] []

variable [Facts₀]

def dot_S262144x388_S388x256_S262144x256_1_0_0_1_n_n : DotDims S262144x388 S388x256 S262144x256 where
  lhsContracting := [1]
  rhsContracting := [0]
  lhsNonContracting := [0]
  rhsNonContracting := [1]
  lhsBatch := []
  rhsBatch := []
  wf := dot_S262144x388_S388x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.KernelBlockTable.lean ====
/- Twelve of the kernel's input windows have one block, the whole array, at every grid point: the two selector
  matrices and the weights and biases. For each, the block's index map is zero on every axis at every point (decided
  over the 64 points), so an entry of the block is the same entry of the array as the region finds it.
-/
import proofs.«166647_j42898133353091_2_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Window 2 (the first selector matrix): its block index is zero on every axis at every point. -/
theorem idx_w2 : ∀ t : Fin cfg0.N, win0_2.index t (0 : Fin 2) = 0 ∧ win0_2.index t (1 : Fin 2) = 0 :=
  (by decide +kernel : ∀ t : Fin grid0.N, _)

/-- So an entry of window 2's block at any point is that entry of the first selector matrix as the region finds it. -/
theorem iblk2_apply (c : Dev nD) (t : Fin cfg0.N) (y0 : Fin 4096) (y1 : Fin 64) :
    (iblk m c 2 t : Vec Ideal S4096x64 .bf16) (ix2 y0 y1) = V m c main_v26 (ix2 y0 y1) := by
  unfold iblk
  rw [View.read_apply]
  show V m c main_v26 _ = V m c main_v26 _
  congr 1
  funext a
  apply Fin.ext
  match a with
  | ⟨0, _⟩ => show win0_2.index t (0 : Fin 2) * 4096 + 1 * y0.val = y0.val; rw [(idx_w2 t).1]; omega
  | ⟨1, _⟩ => show win0_2.index t (1 : Fin 2) * 64 + 1 * y1.val = y1.val; rw [(idx_w2 t).2]; omega

/-- Window 3 (the second selector matrix): its block index is zero on every axis at every point. -/
theorem idx_w3 : ∀ t : Fin cfg0.N, win0_3.index t (0 : Fin 2) = 0 ∧ win0_3.index t (1 : Fin 2) = 0 :=
  (by decide +kernel : ∀ t : Fin grid0.N, _)

/-- So an entry of window 3's block at any point is that entry of the second selector matrix as the region finds it. -/
theorem iblk3_apply (c : Dev nD) (t : Fin cfg0.N) (y0 : Fin 4096) (y1 : Fin 64) :
    (iblk m c 3 t : Vec Ideal S4096x64 .bf16) (ix2 y0 y1) = V m c main_v27 (ix2 y0 y1) := by
  unfold iblk
  rw [View.read_apply]
  show V m c main_v27 _ = V m c main_v27 _
  congr 1
  funext a
  apply Fin.ext
  match a with
  | ⟨0, _⟩ => show win0_3.index t (0 : Fin 2) * 4096 + 1 * y0.val = y0.val; rw [(idx_w3 t).1]; omega
  | ⟨1, _⟩ => show win0_3.index t (1 : Fin 2) * 64 + 1 * y1.val = y1.val; rw [(idx_w3 t).2]; omega

/-- Window 4 (the first layer's weights that meet object i): its block index is zero on every axis at every point. -/
theorem idx_w4 : ∀ t : Fin cfg0.N, win0_4.index t (0 : Fin 2) = 0 ∧ win0_4.index t (1 : Fin 2) = 0 :=
  (by decide +kernel : ∀ t : Fin grid0.N, _)

/-- So an entry of window 4's block at any point is that entry of the first layer's weights that meet object i as the region finds it. -/
theorem iblk4_apply (c : Dev nD) (t : Fin cfg0.N) (y0 : Fin 66) (y1 : Fin 256) :
    (iblk m c 4 t : Vec Ideal S66x256 .bf16) (ix2 y0 y1) = V m c main_v15 (ix2 y0 y1) := by
  unfold iblk
  rw [View.read_apply]
  show V m c main_v15 _ = V m c main_v15 _
  congr 1
  funext a
  apply Fin.ext
  match a with
  | ⟨0, _⟩ => show win0_4.index t (0 : Fin 2) * 66 + 1 * y0.val = y0.val; rw [(idx_w4 t).1]; omega
  | ⟨1, _⟩ => show win0_4.index t (1 : Fin 2) * 256 + 1 * y1.val = y1.val; rw [(idx_w4 t).2]; omega

/-- Window 5 (the first layer's weights that meet object j): its block index is zero on every axis at every point. -/
theorem idx_w5 : ∀ t : Fin cfg0.N, win0_5.index t (0 : Fin 2) = 0 ∧ win0_5.index t (1 : Fin 2) = 0 :=
  (by decide +kernel : ∀ t : Fin grid0.N, _)

/-- So an entry of window 5's block at any point is that entry of the first layer's weights that meet object j as the region finds it. -/
theorem iblk5_apply (c : Dev nD) (t : Fin cfg0.N) (y0 : Fin 66) (y1 : Fin 256) :
    (iblk m c 5 t : Vec Ideal S66x256 .bf16) (ix2 y0 y1) = V m c main_v17 (ix2 y0 y1) := by
  unfold iblk
  rw [View.read_apply]
  show V m c main_v17 _ = V m c main_v17 _
  congr 1
  funext a
  apply Fin.ext
  match a with
  | ⟨0, _⟩ => show win0_5.index t (0 : Fin 2) * 66 + 1 * y0.val = y0.val; rw [(idx_w5 t).1]; omega
  | ⟨1, _⟩ => show win0_5.index t (1 : Fin 2) * 256 + 1 * y1.val = y1.val; rw [(idx_w5 t).2]; omega

/-- Window 6 (the first layer's weights that meet the question): its block index is zero on every axis at every point. -/
theorem idx_w6 : ∀ t : Fin cfg0.N, win0_6.index t (0 : Fin 2) = 0 ∧ win0_6.index t (1 : Fin 2) = 0 :=
  (by decide +kernel : ∀ t : Fin grid0.N, _)

/-- So an entry of window 6's block at any point is that entry of the first layer's weights that meet the question as the region finds it. -/
theorem iblk6_apply (c : Dev nD) (t : Fin cfg0.N) (y0 : Fin 256) (y1 : Fin 256) :
    (iblk m c 6 t : Vec Ideal S256x256 .bf16) (ix2 y0 y1) = V m c main_v19 (ix2 y0 y1) := by
  unfold iblk
  rw [View.read_apply]
  show V m c main_v19 _ = V m c main_v19 _
  congr 1
  funext a
  apply Fin.ext
  match a with
  | ⟨0, _⟩ => show win0_6.index t (0 : Fin 2) * 256 + 1 * y0.val = y0.val; rw [(idx_w6 t).1]; omega
  | ⟨1, _⟩ => show win0_6.index t (1 : Fin 2) * 256 + 1 * y1.val = y1.val; rw [(idx_w6 t).2]; omega

/-- Window 7 (the first layer's bias): its block index is zero on every axis at every point. -/
theorem idx_w7 : ∀ t : Fin cfg0.N, win0_7.index t (0 : Fin 1) = 0 :=
  (by decide +kernel : ∀ t : Fin grid0.N, _)

/-- So an entry of window 7's block at any point is that entry of the first layer's bias as the region finds it. -/
theorem iblk7_apply (c : Dev nD) (t : Fin cfg0.N) (y0 : Fin 256) :
    (iblk m c 7 t : Vec Ideal S256 .f32) (ix1 y0) = V m c main_arg3 (ix1 y0) := by
  unfold iblk
  rw [View.read_apply]
  show V m c main_arg3 _ = V m c main_arg3 _
  congr 1
  funext a
  apply Fin.ext
  match a with
  | ⟨0, _⟩ => show win0_7.index t (0 : Fin 1) * 256 + 1 * y0.val = y0.val; rw [idx_w7 t]; omega

/-- Window 8 (the second layer's weights): its block index is zero on every axis at every point. -/
theorem idx_w8 : ∀ t : Fin cfg0.N, win0_8.index t (0 : Fin 2) = 0 ∧ win0_8.index t (1 : Fin 2) = 0 :=
  (by decide +kernel : ∀ t : Fin grid0.N, _)

/-- So an entry of window 8's block at any point is that entry of the second layer's weights as the region finds it. -/
theorem iblk8_apply (c : Dev nD) (t : Fin cfg0.N) (y0 : Fin 256) (y1 : Fin 256) :
    (iblk m c 8 t : Vec Ideal S256x256 .bf16) (ix2 y0 y1) = V m c main_v20 (ix2 y0 y1) := by
  unfold iblk
  rw [View.read_apply]
  show V m c main_v20 _ = V m c main_v20 _
  congr 1
  funext a
  apply Fin.ext
  match a with
  | ⟨0, _⟩ => show win0_8.index t (0 : Fin 2) * 256 + 1 * y0.val = y0.val; rw [(idx_w8 t).1]; omega
  | ⟨1, _⟩ => show win0_8.index t (1 : Fin 2) * 256 + 1 * y1.val = y1.val; rw [(idx_w8 t).2]; omega

/-- Window 9 (the second layer's bias): its block index is zero on every axis at every point. -/
theorem idx_w9 : ∀ t : Fin cfg0.N, win0_9.index t (0 : Fin 1) = 0 :=
  (by decide +kernel : ∀ t : Fin grid0.N, _)

/-- So an entry of window 9's block at any point is that entry of the second layer's bias as the region finds it. -/
theorem iblk9_apply (c : Dev nD) (t : Fin cfg0.N) (y0 : Fin 256) :
    (iblk m c 9 t : Vec Ideal S256 .f32) (ix1 y0) = V m c main_arg5 (ix1 y0) := by
  unfold iblk
  rw [View.read_apply]
  show V m c main_arg5 _ = V m c main_arg5 _
  congr 1
  funext a
  apply Fin.ext
  match a with
  | ⟨0, _⟩ => show win0_9.index t (0 : Fin 1) * 256 + 1 * y0.val = y0.val; rw [idx_w9 t]; omega

/-- Window 10 (the third layer's weights): its block index is zero on every axis at every point. -/
theorem idx_w10 : ∀ t : Fin cfg0.N, win0_10.index t (0 : Fin 2) = 0 ∧ win0_10.index t (1 : Fin 2) = 0 :=
  (by decide +kernel : ∀ t : Fin grid0.N, _)

/-- So an entry of window 10's block at any point is that entry of the third layer's weights as the region finds it. -/
theorem iblk10_apply (c : Dev nD) (t : Fin cfg0.N) (y0 : Fin 256) (y1 : Fin 256) :
    (iblk m c 10 t : Vec Ideal S256x256 .bf16) (ix2 y0 y1) = V m c main_v21 (ix2 y0 y1) := by
  unfold iblk
  rw [View.read_apply]
  show V m c main_v21 _ = V m c main_v21 _
  congr 1
  funext a
  apply Fin.ext
  match a with
  | ⟨0, _⟩ => show win0_10.index t (0 : Fin 2) * 256 + 1 * y0.val = y0.val; rw [(idx_w10 t).1]; omega
  | ⟨1, _⟩ => show win0_10.index t (1 : Fin 2) * 256 + 1 * y1.val = y1.val; rw [(idx_w10 t).2]; omega

/-- Window 11 (the third layer's bias): its block index is zero on every axis at every point. -/
theorem idx_w11 : ∀ t : Fin cfg0.N, win0_11.index t (0 : Fin 1) = 0 :=
  (by decide +kernel : ∀ t : Fin grid0.N, _)

/-- So an entry of window 11's block at any point is that entry of the third layer's bias as the region finds it. -/
theorem iblk11_apply (c : Dev nD) (t : Fin cfg0.N) (y0 : Fin 256) :
    (iblk m c 11 t : Vec Ideal S256 .f32) (ix1 y0) = V m c main_arg7 (ix1 y0) := by
  unfold iblk
  rw [View.read_apply]
  show V m c main_arg7 _ = V m c main_arg7 _
  congr 1
  funext a
  apply Fin.ext
  match a with
  | ⟨0, _⟩ => show win0_11.index t (0 : Fin 1) * 256 + 1 * y0.val = y0.val; rw [idx_w11 t]; omega

/-- Window 12 (the fourth layer's weights): its block index is zero on every axis at every point. -/
theorem idx_w12 : ∀ t : Fin cfg0.N, win0_12.index t (0 : Fin 2) = 0 ∧ win0_12.index t (1 : Fin 2) = 0 :=
  (by decide +kernel : ∀ t : Fin grid0.N, _)

/-- So an entry of window 12's block at any point is that entry of the fourth layer's weights as the region finds it. -/
theorem iblk12_apply (c : Dev nD) (t : Fin cfg0.N) (y0 : Fin 256) (y1 : Fin 256) :
    (iblk m c 12 t : Vec Ideal S256x256 .bf16) (ix2 y0 y1) = V m c main_v22 (ix2 y0 y1) := by
  unfold iblk
  rw [View.read_apply]
  show V m c main_v22 _ = V m c main_v22 _
  congr 1
  funext a
  apply Fin.ext
  match a with
  | ⟨0, _⟩ => show win0_12.index t (0 : Fin 2) * 256 + 1 * y0.val = y0.val; rw [(idx_w12 t).1]; omega
  | ⟨1, _⟩ => show win0_12.index t (1 : Fin 2) * 256 + 1 * y1.val = y1.val; rw [(idx_w12 t).2]; omega

/-- Window 13 (the fourth layer's bias): its block index is zero on every axis at every point. -/
theorem idx_w13 : ∀ t : Fin cfg0.N, win0_13.index t (0 : Fin 1) = 0 :=
  (by decide +kernel : ∀ t : Fin grid0.N, _)

/-- So an entry of window 13's block at any point is that entry of the fourth layer's bias as the region finds it. -/
theorem iblk13_apply (c : Dev nD) (t : Fin cfg0.N) (y0 : Fin 256) :
    (iblk m c 13 t : Vec Ideal S256 .f32) (ix1 y0) = V m c main_arg9 (ix1 y0) := by
  unfold iblk
  rw [View.read_apply]
  show V m c main_arg9 _ = V m c main_arg9 _
  congr 1
  funext a
  apply Fin.ext
  match a with
  | ⟨0, _⟩ => show win0_13.index t (0 : Fin 1) * 256 + 1 * y0.val = y0.val; rw [idx_w13 t]; omega

end Cert.KernelIdeal.KValue

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Spec.lean ====
/-
  The relation network's context vector as ONE function of its arguments, on the extended reals.

  An image is 64 objects (the cells of an 8 × 8 feature map), each a vector of 66 numbers (64 channels and the
  cell's two coordinates). For every ordered pair (i, j) of objects the network forms the row
  [object i | object j | question] of 66 + 66 + 256 = 388 numbers, sends it through four dense layers with a
  rectifier after each, and the context is the mean over the 64 · 64 = 4096 pairs. Pair number p is (p / 64, p % 64).

  The first layer is linear in the row before its rectifier, so the sum over the 388 entries splits into the part
  that reads object i, the part that reads object j and the part that reads the question (`dense_pairRow`): only
  the commutative-monoid laws of addition are used, which hold at the infinities too. A row of a 0/1 selector matrix
  picks one summand (`sum_oneHot_mul`): `0 * x = 0` and `1 * x = x` for every extended real.
-/
import Idealize.ShloMosaic.PureOps.Ideal.Laws
import Idealize.ShloMosaic.Lib.ValueIdx

noncomputable section

open scoped BigOperators

namespace RelationNet

open Idealize.ShloMosaic

/-- The value of the f32 word `0x00000000`: the rectifier's floor. Both programs write the same word, so it is
    carried as the word's value and never evaluated. -/
abbrev zeroW : EReal := Ideal.ofBits .f32 0x00000000#32
/-- The value of the f32 word `0x45800000` (4096.0): the divisor of the mean, the same word in both programs. -/
abbrev pairsW : EReal := Ideal.ofBits .f32 0x45800000#32

/-- One dense layer and its rectifier on one row: `g ↦ max (Σ_k h k · W k g + b g) 0`. -/
def dense {K G : ℕ} (W : Fin K → Fin G → EReal) (b : Fin G → EReal) (h : Fin K → EReal) : Fin G → EReal :=
  fun g => max ((∑ k : Fin K, h k * W k g) + b g) zeroW

/-- The row of a pair: object i's 66 numbers, then object j's, then the question's 256. -/
def pairRow (xi xj : Fin 66 → EReal) (q : Fin 256 → EReal) : Fin 388 → EReal :=
  fun k => if h : k.val < 66 then xi ⟨k.val, h⟩
    else if h2 : k.val < 132 then xj ⟨k.val - 66, by omega⟩
    else q ⟨k.val - 132, by have := k.isLt; omega⟩

/-- Layers two to four on one row of 256 numbers. -/
def upper (W2 : Fin 256 → Fin 256 → EReal) (b2 : Fin 256 → EReal) (W3 : Fin 256 → Fin 256 → EReal) (b3 : Fin 256 → EReal)
    (W4 : Fin 256 → Fin 256 → EReal) (b4 : Fin 256 → EReal) (h1 : Fin 256 → EReal) : Fin 256 → EReal :=
  dense W4 b4 (dense W3 b3 (dense W2 b2 h1))

/-- Object number `p / 64` of pair `p`. -/
def fstOf (p : Fin 4096) : Fin 64 := ⟨p.val / 64, by have := p.isLt; omega⟩
/-- Object number `p % 64` of pair `p`. -/
def sndOf (p : Fin 4096) : Fin 64 := ⟨p.val % 64, by omega⟩

/-- The context of one image: the mean over the 4096 ordered pairs of the four-layer network's output on the
    pair's row. `X o d` is number `d` of object `o`, `q` the question. -/
def context (X : Fin 64 → Fin 66 → EReal) (q : Fin 256 → EReal)
    (W1 : Fin 388 → Fin 256 → EReal) (b1 : Fin 256 → EReal) (W2 : Fin 256 → Fin 256 → EReal) (b2 : Fin 256 → EReal)
    (W3 : Fin 256 → Fin 256 → EReal) (b3 : Fin 256 → EReal) (W4 : Fin 256 → Fin 256 → EReal) (b4 : Fin 256 → EReal) :
    Fin 256 → EReal :=
  fun g => Ideal.div (∑ p : Fin 4096, upper W2 b2 W3 b3 W4 b4 (dense W1 b1 (pairRow (X (fstOf p)) (X (sndOf p)) q)) g) pairsW

/-- The first layer with its sum split in three: the rows 0–65 of `W1` meet object i, the rows 66–131 object j,
    the rows 132–387 the question. -/
def firstSplit (W1 : Fin 388 → Fin 256 → EReal) (b1 : Fin 256 → EReal) (xi xj : Fin 66 → EReal) (q : Fin 256 → EReal) :
    Fin 256 → EReal :=
  fun g => max (((∑ d : Fin 66, xi d * W1 ⟨d.val, by omega⟩ g) + (∑ d : Fin 66, xj d * W1 ⟨66 + d.val, by omega⟩ g))
    + ((∑ k : Fin 256, q k * W1 ⟨132 + k.val, by omega⟩ g) + b1 g)) zeroW

end RelationNet

end
-- ==== Proof.KernelSpec.lean ====
/-
  The kernel's arrangement of the first layer, and its context of one image.

  The kernel never forms a pair's row of 388 numbers. It multiplies the 64 objects once by the rows 0–65 of the first
  weights (`proj X Wi`) and once by the rows 66–131 (`proj X Wj`), multiplies the question by the rows 132–387 and adds
  the bias (`quesBias`), and brings the two projections to the 4096 pairs by two 4096 × 64 selector matrices: row `p` of
  the first selects object `p / 64`, row `p` of the second object `p % 64`. `selectedRow` is what that gives on one
  pair, `blockContext` the mean over the pairs of the upper layers on it.
-/
import proofs.«166647_j42898133353091_2_alg».proof.Proof.Spec

noncomputable section

open scoped BigOperators

namespace RelationNet

open Idealize.ShloMosaic

/-- The 64 objects multiplied by a 66 × 256 block of weights. -/
def proj (X : Fin 64 → Fin 66 → EReal) (W : Fin 66 → Fin 256 → EReal) : Fin 64 → Fin 256 → EReal :=
  fun j g => ∑ d : Fin 66, X j d * W d g

/-- The question multiplied by its 256 × 256 block of weights, with the first layer's bias. -/
def quesBias (q : Fin 256 → EReal) (Wq : Fin 256 → Fin 256 → EReal) (b1 : Fin 256 → EReal) : Fin 256 → EReal :=
  fun g => (∑ k : Fin 256, q k * Wq k g) + b1 g

/-- The first layer on one pair as the kernel computes it: a selector row times each projection, the question's
    part, the rectifier. -/
def selectedRow (ei ej : Fin 64 → EReal) (A B : Fin 64 → Fin 256 → EReal) (qb : Fin 256 → EReal) : Fin 256 → EReal :=
  fun g => max (((∑ j : Fin 64, ei j * A j g) + (∑ j : Fin 64, ej j * B j g)) + qb g) zeroW

/-- One image's context as the kernel computes it from its blocks. -/
def blockContext (Ei Ej : Fin 4096 → Fin 64 → EReal) (X : Fin 64 → Fin 66 → EReal) (q : Fin 256 → EReal)
    (Wi Wj : Fin 66 → Fin 256 → EReal) (Wq : Fin 256 → Fin 256 → EReal) (b1 : Fin 256 → EReal)
    (W2 : Fin 256 → Fin 256 → EReal) (b2 : Fin 256 → EReal) (W3 : Fin 256 → Fin 256 → EReal) (b3 : Fin 256 → EReal)
    (W4 : Fin 256 → Fin 256 → EReal) (b4 : Fin 256 → EReal) : Fin 256 → EReal :=
  fun g => Ideal.div (∑ p : Fin 4096,
    upper W2 b2 W3 b3 W4 b4 (selectedRow (Ei p) (Ej p) (proj X Wi) (proj X Wj) (quesBias q Wq b1)) g) pairsW

end RelationNet

end
-- ==== Proof.KernelPayload.lean ====
/-
  The kernel body's stored value, read at an index.

  The body computes on whole blocks: the 64 × 66 objects of one image, the question, the two 4096 × 64 selector
  matrices and the weights. Its one store writes a 1 × 1 × 256 block. Entry `g` of that block is stated here as
  `RelationNet.blockContext` of the loaded blocks, over variables for the blocks: nothing here knows which array a
  block was cut from.
-/
import proofs.«166647_j42898133353091_2_alg».proof.Proof.Gen.KernelIdeal.Skeleton
import proofs.«166647_j42898133353091_2_alg».proof.Proof.LibDot
import proofs.«166647_j42898133353091_2_alg».proof.Proof.KernelSpec
import Idealize.ShloMosaic.Lib.ValueLayout
import Idealize.ShloMosaic.Lib.Pipeline.Value

noncomputable section

open scoped BigOperators

namespace Cert.KernelIdeal.KValue

open Cert.KernelIdeal Cert.KernelIdeal.Gen Idealize.ShloMosaic Idealize.ShloMosaic.ValueIdx RelationNet

/-- One of the kernel's layers two to four at an entry: on pair `p` it is `RelationNet.dense` of that pair's previous
    row. The product into the zero accumulator is the plain sum, the bias read from its one-row cast and broadcast
    down the rows is the bias at the column, the rounding of the previous row to the narrower format is the identity
    on extended reals, and the rectifier's floor is the zero word's value. -/
theorem klayer_apply (H : FVec Ideal S4096x256 .f32) (w : FVec Ideal S256x256 .bf16) (b : FVec Ideal S256 .f32) (p : Fin 4096) (g : Fin 256)
    (e1 : FTy.bf16.bits < FTy.f32.bits) (e2 : S256x256.ShapeCasts S256x256) (e3 : S256.ShapeCasts S1x256) (e4 : S1x256.Broadcasts S4096x256) :
    maximumf (addf (matmul dot_S4096x256_S256x256_S4096x256_1_0_0_1_n_n none (truncf .bf16 H e1)
        (shapeCast S256x256 w e2) (constant S4096x256 .f32 0x00000000#32))
      (broadcastTo S4096x256 (shapeCast S1x256 b e3) e4))
      (broadcast S4096x256 (Scalar.ofBits .f32 0x00000000#32)) (ix2 p g)
    = dense (fun k g' => w (ix2 k g')) (fun g' => b (ix1 g')) (fun k => H (ix2 p k)) g := by
  refine congrArg₂ max (congrArg₂ (· + ·) ?_ ?_) rfl
  · refine (Ideal.matmul_constant_zero_apply dot_S4096x256_S256x256_S4096x256_1_0_0_1_n_n none (truncf .bf16 H e1) (shapeCast S256x256 w e2) (ix2 p g)).trans ?_
    refine (PlainDot.sum_eq _ rfl rfl rfl rfl rfl rfl _ _ p g).trans ?_
    rw [shapeCast_self]
    rfl
  · refine (broadcastTo_1b_ab_apply _ e4 p g).trans ?_
    exact shapeCast_a_1a_apply b e3 0 g

/-- A plain product into the zero accumulator, read at an index. -/
theorem kdot_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ φ₁) (r : FVec Ideal ⟨2, ![K, N]⟩ φ₂) (a : Fin M) (b : Fin N) :
    matmul D none l r (constant ⟨2, ![M, N]⟩ .f32 0x00000000#32) (ix2 a b) = ∑ k : Fin K, l (ix2 a k) * r (ix2 k b) :=
  (Ideal.matmul_constant_zero_apply D none l r (ix2 a b)).trans (PlainDot.sum_eq D h1 h2 h3 h4 h5 h6 l r a b)

/-- The row index that the sum over the 4096 rows inserts at column `g` is `(p, g)`. -/
theorem lift_rows (h : S4096x256.Reduces [0] S256) (g : Fin 256) (p : Fin 4096) : h.lift (ix1 g) p = ix2 p g := by
  funext d
  match d with
  | ⟨0, _⟩ => exact Fin.ext rfl
  | ⟨1, _⟩ => exact Fin.ext rfl

set_option maxHeartbeats 1000000 in
/-- What the body stores for one image, at column `g` of its one row: `RelationNet.blockContext` of the blocks it
    loaded — the mean over the 4096 pairs (the sum over the rows, divided by the word 4096.0) of the upper layers on
    the first layer's row, that row being the two selector rows times the two projections of the objects plus the
    question's part. Each operation is read at its index, outermost first. -/
theorem payload_apply (x0 : Vec Ideal S1x64x66 .bf16) (x1 : Vec Ideal S1x1x256 .bf16) (x2 : Vec Ideal S4096x64 .bf16) (x3 : Vec Ideal S4096x64 .bf16)
    (x4 : Vec Ideal S66x256 .bf16) (x5 : Vec Ideal S66x256 .bf16) (x6 : Vec Ideal S256x256 .bf16) (x7 : Vec Ideal S256 .f32)
    (x8 : Vec Ideal S256x256 .bf16) (x9 : Vec Ideal S256 .f32) (x10 : Vec Ideal S256x256 .bf16) (x11 : Vec Ideal S256 .f32)
    (x12 : Vec Ideal S256x256 .bf16) (x13 : Vec Ideal S256 .f32) (g : Fin 256) :
    k0_pay1 (k0_pay2 x0 x1 x2 x3 x4 x5 x6 x7 x8) x9 x10 x11 x12 x13 (ix3 (0 : Fin 1) (0 : Fin 1) g)
      = blockContext (fun p j => x2 (ix2 p j)) (fun p j => x3 (ix2 p j)) (fun o d => x0 (ix3 (0 : Fin 1) o d)) (fun k => x1 (ix3 (0 : Fin 1) (0 : Fin 1) k))
          (fun d g' => x4 (ix2 d g')) (fun d g' => x5 (ix2 d g')) (fun k g' => x6 (ix2 k g')) (fun g' => x7 (ix1 g'))
          (fun k g' => x8 (ix2 k g')) (fun g' => x9 (ix1 g')) (fun k g' => x10 (ix2 k g')) (fun g' => x11 (ix1 g'))
          (fun k g' => x12 (ix2 k g')) (fun g' => x13 (ix1 g')) g := by
  dsimp only [Gen.k0_pay1, Gen.k0_pay2]
  refine (shapeCast_ab_1ab_apply _ _ 0 0 g).trans ?_
  unfold blockContext
  refine congrArg₂ Ideal.div ?_ rfl
  refine (shapeCast_a_1a_apply _ _ 0 g).trans ?_
  refine (Ideal.multiReduction_add_single _ _ _ _ _ (ix1 g)).trans ?_
  refine Finset.sum_congr rfl ?_
  intro (p : Fin 4096) _
  rw [lift_rows _ g p]
  refine (klayer_apply _ _ _ p g _ _ _ _).trans ?_
  unfold upper
  refine congrArg (fun h => dense _ _ h g) (funext fun k3 => ?_)
  refine (klayer_apply _ _ _ p k3 _ _ _ _).trans ?_
  refine congrArg (fun h => dense _ _ h k3) (funext fun k2 => ?_)
  refine (klayer_apply _ _ _ p k2 _ _ _ _).trans ?_
  refine congrArg (fun h => dense _ _ h k2) (funext fun k1 => ?_)
  unfold selectedRow
  refine congrArg₂ max (congrArg₂ (· + ·) (congrArg₂ (· + ·) ?_ ?_) ?_) rfl
  · refine (kdot_apply _ rfl rfl rfl rfl rfl rfl _ _ p k1).trans ?_
    refine Finset.sum_congr rfl fun j _ => congrArg₂ (· * ·) ?_ ?_
    · rw [shapeCast_self]
    · refine (kdot_apply _ rfl rfl rfl rfl rfl rfl _ _ j k1).trans ?_
      refine Finset.sum_congr rfl fun d _ => congrArg₂ (· * ·) ?_ ?_
      · exact shapeCast_1ab_ab_apply _ _ j d
      · rw [shapeCast_self]
  · refine (kdot_apply _ rfl rfl rfl rfl rfl rfl _ _ p k1).trans ?_
    refine Finset.sum_congr rfl fun j _ => congrArg₂ (· * ·) ?_ ?_
    · rw [shapeCast_self]
    · refine (kdot_apply _ rfl rfl rfl rfl rfl rfl _ _ j k1).trans ?_
      refine Finset.sum_congr rfl fun d _ => congrArg₂ (· * ·) ?_ ?_
      · exact shapeCast_1ab_ab_apply _ _ j d
      · rw [shapeCast_self]
  · refine (broadcastTo_1b_ab_apply _ _ p k1).trans ?_
    unfold quesBias
    refine congrArg₂ (· + ·) ?_ (shapeCast_a_1a_apply _ _ 0 k1)
    refine (kdot_apply _ rfl rfl rfl rfl rfl rfl _ _ 0 k1).trans ?_
    refine Finset.sum_congr rfl fun k _ => congrArg₂ (· * ·) ?_ ?_
    · exact shapeCast_1ab_ab_apply _ _ 0 k
    · rw [shapeCast_self]

end Cert.KernelIdeal.KValue

end
-- ==== Proof.KernelBlocks.lean ====
/-
  The kernel's result array after the run.

  The grid has one point per image. At point `t` the body sees image `t`'s objects and question and the whole selector
  matrices, weights and biases, and writes row `(t, 0, ·)` of the result array [64, 1, 256]. The 64 blocks cover the
  array, so after the run it is `contextArray`: at `(n, 0, g)` the context of image `n` at column `g`, a function of
  the arrays as the region finds them.
-/
import proofs.«166647_j42898133353091_2_alg».proof.Proof.KernelBlockTable
import proofs.«166647_j42898133353091_2_alg».proof.Proof.KernelPayload

noncomputable section

namespace Cert.KernelIdeal.KValue

open Cert.KernelIdeal Cert.KernelIdeal.Gen Idealize.ShloMosaic Idealize.ShloMosaic.TcCoe Idealize.SL.Sem Idealize.ShloMosaic.ValueIdx RelationNet
open Idealize.ShloMosaic.Pipeline (Dat)

variable (m : (ℓ : Loc nD τ sig) → Buf (Elt Ideal) ℓ) (ρ : Dev nD → PrngReg)

/-- The three windows that move with the grid — the objects, the question and the result — are at block `t` on their
    leading axis and at block zero on the others, at every point `t` (decided over the 64 points). -/
theorem idx_moving : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- The grid point as an image number. -/
def imageOf (t : Fin cfg0.N) : Fin 64 := ⟨t.val, by have h := t.isLt; have hN : cfg0.N = 64 := N_0; omega⟩

/-- The objects' block at point `t` is image `t`'s 64 × 66 table. -/
theorem iblk0_apply (c : Dev nD) (t : Fin cfg0.N) (u : Fin 1) (o : Fin 64) (d : Fin 66) :
    (iblk m c 0 t : Vec Ideal S1x64x66 .bf16) (ix3 u o d) = V m c main_v11 (ix3 (imageOf t) o d) := by
  obtain ⟨h0, h1, h2, -⟩ := idx_moving t
  have hu : u.val = 0 := by omega
  unfold iblk
  rw [View.read_apply]
  show V m c main_v11 _ = V m c main_v11 _
  congr 1
  funext a
  apply Fin.ext
  match a with
  | ⟨0, _⟩ => show win0_0.index t (0 : Fin 3) * 1 + 1 * u.val = t.val; rw [h0, hu]; omega
  | ⟨1, _⟩ => show win0_0.index t (1 : Fin 3) * 64 + 1 * o.val = o.val; rw [h1]; omega
  | ⟨2, _⟩ => show win0_0.index t (2 : Fin 3) * 66 + 1 * d.val = d.val; rw [h2]; omega

/-- The question's block at point `t` is image `t`'s question. -/
theorem iblk1_apply (c : Dev nD) (t : Fin cfg0.N) (u v : Fin 1) (k : Fin 256) :
    (iblk m c 1 t : Vec Ideal S1x1x256 .bf16) (ix3 u v k) = V m c main_v13 (ix3 (imageOf t) (0 : Fin 1) k) := by
  obtain ⟨-, -, -, h0, h1, h2, -⟩ := idx_moving t
  have hu : u.val = 0 := by omega
  have hv : v.val = 0 := by omega
  unfold iblk
  rw [View.read_apply]
  show V m c main_v13 _ = V m c main_v13 _
  congr 1
  funext a
  apply Fin.ext
  match a with
  | ⟨0, _⟩ => show win0_1.index t (0 : Fin 3) * 1 + 1 * u.val = t.val; rw [h0, hu]; omega
  | ⟨1, _⟩ => show win0_1.index t (1 : Fin 3) * 1 + 1 * v.val = 0; rw [h1, hv]
  | ⟨2, _⟩ => show win0_1.index t (2 : Fin 3) * 256 + 1 * k.val = k.val; rw [h2]; omega

/-- The kernel's result array [64, 1, 256]: entry (n, 0, g) is the context of image n at column g. -/
def contextArray (c : Dev nD) : S64x1x256.Idx → EReal := fun i =>
  blockContext (fun p j => V m c main_v26 (ix2 p j)) (fun p j => V m c main_v27 (ix2 p j))
    (fun o d => V m c main_v11 (ix3 (⟨(i 0).val, (i 0).isLt⟩ : Fin 64) o d))
    (fun k => V m c main_v13 (ix3 (⟨(i 0).val, (i 0).isLt⟩ : Fin 64) (0 : Fin 1) k))
    (fun d g => V m c main_v15 (ix2 d g)) (fun d g => V m c main_v17 (ix2 d g)) (fun k g => V m c main_v19 (ix2 k g))
    (fun g => V m c main_arg3 (ix1 g)) (fun k g => V m c main_v20 (ix2 k g)) (fun g => V m c main_arg5 (ix1 g))
    (fun k g => V m c main_v21 (ix2 k g)) (fun g => V m c main_arg7 (ix1 g)) (fun k g => V m c main_v22 (ix2 k g))
    (fun g => V m c main_arg9 (ix1 g)) ⟨(i 2).val, (i 2).isLt⟩

/-- The zero offsets of the body's whole-block accesses, at each rank. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the context array: the body's one store covers its block, the stored
    value at column `g` is `RelationNet.blockContext` of the loaded blocks (the payload read at an index), each loaded
    block is the array it was cut from read at image `t` or whole, and block `t` of the result array is row `(t, 0, ·)`. -/
theorem flushed_eq (c : Dev nD) (t : Fin cfg0.N) :
    (dats m 0 c).flushed 14 t = ((cfg0.win 14).blk t).view.read (Elt Ideal) (contextArray m c) := by
  show (cfg0.win 14).cut (grid0.coords t) ((dats m 0 c).after 14 t) = _
  rw [after0_14]
  unfold out0_14
  rw [View.canon_unit_zero hz3]
  simp only [View.ld_unit_zero (S := S1x64x66) hz3, View.ld_unit_zero (S := S1x1x256) hz3, View.ld_unit_zero (S := S4096x64) hz2,
    View.ld_unit_zero (S := S66x256) hz2, View.ld_unit_zero (S := S256x256) hz2, View.ld_unit_zero (S := S256) hz1]
  refine funext fun (y : S1x1x256.Idx) => ?_
  obtain ⟨u, v, g, rfl⟩ : ∃ (u : Fin 1) (v : Fin 1) (g : Fin 256), y = ix3 u v g := ⟨y 0, y 1, y 2, eq_ix3 y⟩
  obtain rfl : u = 0 := Subsingleton.elim _ _
  obtain rfl : v = 0 := Subsingleton.elim _ _
  rw [View.read_apply]
  show k0_pay1 (k0_pay2 (iblk m c 0 t) (iblk m c 1 t) (iblk m c 2 t) (iblk m c 3 t) (iblk m c 4 t) (iblk m c 5 t)
          (iblk m c 6 t) (iblk m c 7 t) (iblk m c 8 t))
        (iblk m c 9 t) (iblk m c 10 t) (iblk m c 11 t) (iblk m c 12 t) (iblk m c 13 t) (ix3 (0 : Fin 1) (0 : Fin 1) g) = _
  rw [payload_apply]
  have hemb : ((View.whole main_v28).slice ((win0 14).rect t)).emb (ix3 (0 : Fin 1) (0 : Fin 1) g) = (ix3 (imageOf t) (0 : Fin 1) g : S64x1x256.Idx) := by
    obtain ⟨-, -, -, -, -, -, h0, h1, h2⟩ := idx_moving t
    funext a
    apply Fin.ext
    match a with
    | ⟨0, _⟩ => show win0_14.index t (0 : Fin 3) * 1 + 1 * 0 = t.val; rw [h0]; omega
    | ⟨1, _⟩ => show win0_14.index t (1 : Fin 3) * 1 + 1 * 0 = 0; rw [h1]
    | ⟨2, _⟩ => show win0_14.index t (2 : Fin 3) * 256 + 1 * g.val = g.val; rw [h2]; omega
  show _ = contextArray m c (((View.whole main_v28).slice ((win0 14).rect t)).emb (ix3 (0 : Fin 1) (0 : Fin 1) g))
  rw [hemb]
  simp only [iblk0_apply, iblk1_apply, iblk2_apply, iblk3_apply, iblk4_apply, iblk5_apply, iblk6_apply, iblk7_apply, iblk8_apply,
    iblk9_apply, iblk10_apply, iblk11_apply, iblk12_apply, iblk13_apply]
  rfl

/-- Every entry `(n, 0, g)` of the result array lies in the block of point `n`, which writes back. -/
theorem covered (i : S64x1x256.Idx) : ∃ t : Fin cfg0.N, (cfg0.win 14).flush t = true ∧ i ∈ ((cfg0.win 14).blk t).view.set := by
  have hN : cfg0.N = 64 := N_0
  have h0 : (i 0).val < 64 := (i 0).isLt
  have h1 : (i 1).val < 1 := (i 1).isLt
  have h2 : (i 2).val < 256 := (i 2).isLt
  obtain ⟨t, ht⟩ : ∃ t : Fin cfg0.N, t.val = (i 0).val := ⟨⟨(i 0).val, by rw [hN]; exact h0⟩, rfl⟩
  refine ⟨t, flush0_14 t, ?_⟩
  obtain ⟨-, -, -, -, -, -, e0, e1, e2⟩ := idx_moving t
  show i ∈ ((View.whole main_v28).slice (win0_14.rect t)).set
  rw [View.set_slice_whole, Rect.mem_set_unit]
  intro a
  match a with
  | ⟨0, _⟩ => show win0_14.index t (0 : Fin 3) * 1 ≤ (i 0).val ∧ (i 0).val < win0_14.index t (0 : Fin 3) * 1 + 1; rw [e0]; omega
  | ⟨1, _⟩ => show win0_14.index t (1 : Fin 3) * 1 ≤ (i 1).val ∧ (i 1).val < win0_14.index t (1 : Fin 3) * 1 + 1; rw [e1]; omega
  | ⟨2, _⟩ => show win0_14.index t (2 : Fin 3) * 256 ≤ (i 2).val ∧ (i 2).val < win0_14.index t (2 : Fin 3) * 256 + 256; rw [e2]; omega

/-- So the kernel's result array ends at the context array. -/
theorem final (c : Dev nD) : (dats m 0 c).arrAt 14 cfg0.N = contextArray m c :=
  (dats m 0 c).arrAt_eq_of_cover 14 (contextArray m c) (fun t _ => flushed_eq m c t) (covered)

end Cert.KernelIdeal.KValue

end
-- ==== Proof.RefShared.lean ====
/-
  The two stretches of the reference that both programs run by the same operations, as pure functions of arrays,
  in the reference program's own spelling.

  `objects` builds the object table [64, 64, 66] of all images from the feature maps [64, 64, 8, 8]: the 64 cells of
  a map become 64 objects with the map's 64 channels, and each object gets its cell's row number p / 8 and column
  number p % 8 (as floats) appended as channels 64 and 65. The row and column numbers are computed in 32-bit
  integers from the index vector 0 … 63 by a floored division and a floored remainder, each spelt out from the
  truncating operation and a sign correction.

  `tail` is the small network after the context: two dense layers with a rectifier, a third dense layer to two
  numbers per image, and the logarithm of the softmax over those two, computed as x - max - log (Σ exp (x - max)).
-/
import proofs.«166647_j42898133353091_2_alg».proof.ReferenceIdeal

noncomputable section

namespace Cert.ReferenceIdeal.Shared

open Cert.ReferenceIdeal Idealize.ShloMosaic

variable {F : FTy → Type} [FloatOps F] [Facts]
open Facts₀ Facts

/-- The object table of all images: the feature maps with their last two axes flattened to the 64 cells, the cells'
    row numbers `p / 8` and column numbers `p % 8` (floored division and remainder of the index vector by the word
    8, converted to floats) joined below the 64 channels, and the channel axis moved last. -/
def objects (img : FVec F S64x64x8x8 .f32) : FVec F S64x64x66 .f32 :=
  have v0 : FVec F S64x64x64 .f32 := shapeCast S64x64x64 img shapeCasts_S64x64x8x8_S64x64x64
  have v1 : (⟨S64, .i32⟩ : BufTy).Contents (Elt F) := iotaInDim S64 32 0
  have c : (⟨S_, .i32⟩ : BufTy).Contents (Elt F) := constantI S_ 32 8#32
  -- the floored quotient of v1 by c: the truncated quotient, less one where the signs differ and the remainder is not zero
  have q0 : (⟨S_, .i32⟩ : BufTy).Contents (Elt F) := id c
  have q1 : (⟨S64, .i32⟩ : BufTy).Contents (Elt F) := broadcastInDim S64 ![] bcast_S_S64 q0
  have q2 : (⟨S64, .i32⟩ : BufTy).Contents (Elt F) := Host.divsi v1 q1
  have q3 : (⟨S64, .i32⟩ : BufTy).Contents (Elt F) := signi v1
  have q4 : (⟨S_, .i32⟩ : BufTy).Contents (Elt F) := signi q0
  have q5 : (⟨S64, .i32⟩ : BufTy).Contents (Elt F) := broadcastInDim S64 ![] bcast_S_S64 q4
  have q6 : (⟨S64, .i1⟩ : BufTy).Contents (Elt F) := cmpi .ne q3 q5
  have q7 : (⟨S64, .i32⟩ : BufTy).Contents (Elt F) := broadcastInDim S64 ![] bcast_S_S64 q0
  have q8 : (⟨S64, .i32⟩ : BufTy).Contents (Elt F) := Host.remsi v1 q7
  have qc : (⟨S_, .i32⟩ : BufTy).Contents (Elt F) := constantI S_ 32 0#32
  have q9 : (⟨S64, .i32⟩ : BufTy).Contents (Elt F) := broadcastInDim S64 ![] bcast_S_S64 qc
  have q10 : (⟨S64, .i1⟩ : BufTy).Contents (Elt F) := cmpi .ne q8 q9
  have q11 : (⟨S64, .i1⟩ : BufTy).Contents (Elt F) := andi q6 q10
  have qc_0 : (⟨S_, .i32⟩ : BufTy).Contents (Elt F) := constantI S_ 32 1#32
  have q12 : (⟨S64, .i32⟩ : BufTy).Contents (Elt F) := broadcastInDim S64 ![] bcast_S_S64 qc_0
  have q13 : (⟨S64, .i32⟩ : BufTy).Contents (Elt F) := subi q2 q12
  have v2 : (⟨S64, .i32⟩ : BufTy).Contents (Elt F) := select q11 q13 q2
  have c_0 : (⟨S_, .i32⟩ : BufTy).Contents (Elt F) := constantI S_ 32 8#32
  -- the floored remainder of v1 by c_0: the truncated remainder, plus the divisor where it is not zero and its sign is not the divisor's
  have r0 : (⟨S_, .i32⟩ : BufTy).Contents (Elt F) := id c_0
  have rc : (⟨S_, .i32⟩ : BufTy).Contents (Elt F) := constantI S_ 32 0#32
  have r1 : (⟨S_, .i1⟩ : BufTy).Contents (Elt F) := cmpi .eq r0 rc
  have rc_0 : (⟨S_, .i32⟩ : BufTy).Contents (Elt F) := constantI S_ 32 1#32
  have r2 : (⟨S_, .i32⟩ : BufTy).Contents (Elt F) := select r1 rc_0 r0
  have r3 : (⟨S64, .i32⟩ : BufTy).Contents (Elt F) := broadcastInDim S64 ![] bcast_S_S64 r2
  have r4 : (⟨S64, .i32⟩ : BufTy).Contents (Elt F) := Host.remsi v1 r3
  have rc_1 : (⟨S_, .i32⟩ : BufTy).Contents (Elt F) := constantI S_ 32 0#32
  have r5 : (⟨S64, .i32⟩ : BufTy).Contents (Elt F) := broadcastInDim S64 ![] bcast_S_S64 rc_1
  have r6 : (⟨S64, .i1⟩ : BufTy).Contents (Elt F) := cmpi .ne r4 r5
  have rc_2 : (⟨S_, .i32⟩ : BufTy).Contents (Elt F) := constantI S_ 32 0#32
  have r7 : (⟨S64, .i32⟩ : BufTy).Contents (Elt F) := broadcastInDim S64 ![] bcast_S_S64 rc_2
  have r8 : (⟨S64, .i1⟩ : BufTy).Contents (Elt F) := cmpi .slt r4 r7
  have rc_3 : (⟨S_, .i32⟩ : BufTy).Contents (Elt F) := constantI S_ 32 0#32
  have r9 : (⟨S_, .i1⟩ : BufTy).Contents (Elt F) := cmpi .slt r2 rc_3
  have r10 : (⟨S64, .i1⟩ : BufTy).Contents (Elt F) := broadcastInDim S64 ![] bcast_S_S64 r9
  have r11 : (⟨S64, .i1⟩ : BufTy).Contents (Elt F) := cmpi .ne r8 r10
  have r12 : (⟨S64, .i1⟩ : BufTy).Contents (Elt F) := andi r11 r6
  have r13 : (⟨S64, .i32⟩ : BufTy).Contents (Elt F) := broadcastInDim S64 ![] bcast_S_S64 r2
  have r14 : (⟨S64, .i32⟩ : BufTy).Contents (Elt F) := addi r4 r13
  have v3 : (⟨S64, .i32⟩ : BufTy).Contents (Elt F) := select r12 r14 r4
  have v4 : (⟨S1x64, .i32⟩ : BufTy).Contents (Elt F) := broadcastInDim S1x64 ![1] bcast_S64_S1x64_1 v2
  have v5 : (⟨S1x64, .i32⟩ : BufTy).Contents (Elt F) := broadcastInDim S1x64 ![1] bcast_S64_S1x64_1 v3
  have v6 : (⟨S2x64, .i32⟩ : BufTy).Contents (Elt F) := concatenate S2x64 0 [⟨S1x64, v4⟩, ⟨S1x64, v5⟩] concatenates_S1x64_S1x64_S2x64_d0
  have v7 : FVec F S2x64 .f32 := sitofp .f32 v6
  have v8 : FVec F S64x2x64 .f32 := broadcastInDim S64x2x64 ![1, 2] bcast_S2x64_S64x2x64_1_2 v7
  have v9 : FVec F S64x66x64 .f32 := concatenate S64x66x64 1 [⟨S64x64x64, v0⟩, ⟨S64x2x64, v8⟩] concatenates_S64x64x64_S64x2x64_S64x66x64_d1
  have v10 : FVec F S64x64x66 .f32 := transpose S64x64x66 [0, 2, 1] v9 transposes_S64x66x64_S64x64x66_0_2_1
  v10

/-- The result [64, 2] from the context [64, 256] and the three last layers' weights: two dense layers of 256 with a
    rectifier, a dense layer to 2 numbers, and the logarithm of the softmax along those 2. -/
def tail (ctx : FVec F S64x256 .f32) (w1 : FVec F S256x256 .f32) (c1 : FVec F S256 .f32) (w2 : FVec F S256x256 .f32)
    (c2 : FVec F S256 .f32) (w3 : FVec F S256x2 .f32) (c3 : FVec F S2 .f32) : FVec F S64x2 .f32 :=
  have v44 : FVec F S64x256 .f32 := Host.dotGeneral dot_S64x256_S256x256_S64x256_1_0_0_1_n_n none ctx w1
  have v45 : FVec F S1x256 .f32 := broadcastInDim S1x256 ![1] bcast_S256_S1x256_1 c1
  have v46 : FVec F S64x256 .f32 := broadcastInDim S64x256 ![0, 1] bcast_S1x256_S64x256_0_1 v45
  have v47 : FVec F S64x256 .f32 := addf v44 v46
  have a_cst : FVec F S_ .f32 := constant S_ .f32 0x00000000#32
  have a_0 : FVec F S64x256 .f32 := broadcastInDim S64x256 ![] bcast_S_S64x256 a_cst
  have v48 : FVec F S64x256 .f32 := maximumf v47 a_0
  have v49 : FVec F S64x256 .f32 := Host.dotGeneral dot_S64x256_S256x256_S64x256_1_0_0_1_n_n none v48 w2
  have v50 : FVec F S1x256 .f32 := broadcastInDim S1x256 ![1] bcast_S256_S1x256_1 c2
  have v51 : FVec F S64x256 .f32 := broadcastInDim S64x256 ![0, 1] bcast_S1x256_S64x256_0_1 v50
  have v52 : FVec F S64x256 .f32 := addf v49 v51
  have b_cst : FVec F S_ .f32 := constant S_ .f32 0x00000000#32
  have b_0 : FVec F S64x256 .f32 := broadcastInDim S64x256 ![] bcast_S_S64x256 b_cst
  have v53 : FVec F S64x256 .f32 := maximumf v52 b_0
  have v54 : FVec F S64x2 .f32 := Host.dotGeneral dot_S64x256_S256x2_S64x2_1_0_0_1_n_n none v53 w3
  have v55 : FVec F S1x2 .f32 := broadcastInDim S1x2 ![1] bcast_S2_S1x2_1 c3
  have v56 : FVec F S64x2 .f32 := broadcastInDim S64x2 ![0, 1] bcast_S1x2_S64x2_0_1 v55
  have v57 : FVec F S64x2 .f32 := addf v54 v56
  -- the logarithm of the softmax of v57 along its last axis
  have s_cst : FVec F S_ .f32 := constant S_ .f32 0xFF800000#32
  have s0 : FVec F S64 .f32 := Host.reduce FloatOps.maximumf v57 s_cst reducesTo_S64x2_S64_d1 h_S_
  have s_cst_0 : FVec F S_ .f32 := constant S_ .f32 0xFF800000#32
  have s1 : FVec F S64 .f32 := broadcastInDim S64 ![] bcast_S_S64 s_cst_0
  have s2 : FVec F S64 .f32 := maximumf s1 s0
  have s3 : FVec F S64x1 .f32 := broadcastInDim S64x1 ![0] bcast_S64_S64x1_0 s2
  have s4 : FVec F S64x2 .f32 := broadcastInDim S64x2 ![0, 1] bcast_S64x1_S64x2_0_1 s3
  have s5 : FVec F S64x2 .f32 := subf v57 s4
  have s6 : FVec F S64x2 .f32 := Host.exp s5
  have s_cst_1 : FVec F S_ .f32 := constant S_ .f32 0x00000000#32
  have s7 : FVec F S64 .f32 := Host.reduceAdd s6 s_cst_1 reducesTo_S64x2_S64_d1 h_S_
  have s8 : FVec F S64x1 .f32 := broadcastInDim S64x1 ![0] bcast_S64_S64x1_0 s7
  have s9 : FVec F S64x1 .f32 := Host.log s8
  have s10 : FVec F S64x2 .f32 := broadcastInDim S64x2 ![0, 1] bcast_S64x1_S64x2_0_1 s9
  have v58 : FVec F S64x2 .f32 := subf s5 s10
  v58

end Cert.ReferenceIdeal.Shared

end
-- ==== Proof.KernelTail.lean ====
/-
  The operations after the region: the small network on the context and the logarithm of the softmax.

  Both programs run the same operations there. Read as one function of the contents they start from, they are the
  shared `tail` applied to the region's result array regrouped from [64, 1, 256] to [64, 256] and to the last six
  arguments; nothing here looks inside `tail`.
-/
import proofs.«166647_j42898133353091_2_alg».proof.Proof.Gen.KernelIdeal.Frame
import proofs.«166647_j42898133353091_2_alg».proof.Proof.RefShared
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

set_option maxHeartbeats 2000000 in
/-- The operations after the region, from any contents: the result is the shared tail of the region's array, regrouped
    to [64, 256], and the last six arguments. -/
theorem tail_fold (W : Valuation τ sig (Elt F)) :
    (after (List.flatten [hostOps1 (F := F), hostOps1_1, hostOps1_2, hostOps1_3, hostOps1_4, hostOps1_5]) W (Proc.devRef .tc main_v44) : FVec F S64x2 .f32)
      = Cert.ReferenceIdeal.Shared.tail (F := F) (shapeCast S64x256 (W (Proc.devRef .tc main_v28)) shapeCasts_S64x1x256_S64x256)
          (W (Proc.devRef .tc main_arg10)) (W (Proc.devRef .tc main_arg11)) (W (Proc.devRef .tc main_arg12))
          (W (Proc.devRef .tc main_arg13)) (W (Proc.devRef .tc main_arg14)) (W (Proc.devRef .tc main_arg15)) := by
  simp only [Gen.hostOps1, Gen.hostOps1_1, Gen.hostOps1_2, Gen.hostOps1_3, Gen.hostOps1_4, Gen.hostOps1_5,
    List.flatten_cons, List.flatten_nil, List.append_nil, List.cons_append, List.nil_append]
  after_results_simp
  simp only [cast_eq]
  rfl

end Cert.KernelIdeal.KValue

end
-- ==== Proof.KernelStretches.lean ====
/-
  The host operations before the region, in three stretches.

  Before its one region the kernel's program runs, on the host, first the operations that compute the cells' row and
  column numbers, then a middle stretch of layout operations (the object table, the question regrouped, the row blocks
  of the first weights, the other weights rounded, the pair numbers 0 … 4095), then the operations that build the two
  selector matrices. The contents at the region's entry are the three stretches run in order from the launch contents,
  and a reference that a stretch does not write keeps its contents through it.
-/
import proofs.«166647_j42898133353091_2_alg».proof.Proof.Gen.KernelIdeal.Frame
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

/-- The operations before the middle stretch: the cells' row and column numbers. -/
abbrev opsPre : List (HloOp τ sig (Elt F)) := hostOps0 ++ (hostOps0_1 ++ (hostOps0_2 ++ hostOps0_3))
/-- The operations after the middle stretch: the two selector matrices. -/
abbrev opsPost : List (HloOp τ sig (Elt F)) := hostOps0_5 ++ (hostOps0_6 ++ (hostOps0_7 ++ (hostOps0_8 ++ hostOps0_9)))

variable (m : (ℓ : Loc nD τ sig) → Buf (Elt F) ℓ)

/-- The contents at the region's entry are the three stretches run in order from the launch contents. -/
theorem V0_split (c : Dev nD) :
    V0 m c = after opsPost (after hostOps0_4 (after opsPre (fun b => m (c, b)))) := by
  show after (List.flatten [hostOps0, hostOps0_1, hostOps0_2, hostOps0_3, hostOps0_4, hostOps0_5, hostOps0_6, hostOps0_7, hostOps0_8, hostOps0_9]) _ = _
  simp only [List.flatten_cons, List.flatten_nil, List.append_nil]
  rw [show (hostOps0 (F := F)) ++ (hostOps0_1 ++ (hostOps0_2 ++ (hostOps0_3 ++ (hostOps0_4 ++ (hostOps0_5 ++ (hostOps0_6 ++ (hostOps0_7 ++ (hostOps0_8 ++ hostOps0_9))))))))
      = opsPre ++ (hostOps0_4 ++ opsPost) from by simp only [opsPre, opsPost, List.append_assoc]]
  rw [StableHlo.after_append, StableHlo.after_append]

/-- Closes `after opsPre W r = W r` or `after opsPost W r = W r` for a literal reference `r` that none of the stretch's
    operations writes: each operation's one written reference differs from `r`. -/
macro "stretch_keeps" : tactic =>
  `(tactic| (refine StableHlo.after_of_forall_not_mem _ _ (List.forall_iff_forall_mem.mp ?_)
             simp only [opsPre, opsPost, hostOps0, hostOps0_1, hostOps0_2, hostOps0_3, hostOps0_5, hostOps0_6, hostOps0_7, hostOps0_8, hostOps0_9,
               List.cons_append, List.nil_append, List.Forall, StableHlo.nullary_writes, StableHlo.unary_writes, StableHlo.binary_writes,
               StableHlo.ternary_writes, StableHlo.quaternary_writes, StableHlo.reshape_writes, StableHlo.binaryIndexed_writes, Finset.mem_singleton]
             repeat' apply And.intro
             all_goals exact StableHlo.devRef_ne_of_ne (by decide)))

end Cert.KernelIdeal.KValue

end
-- ==== Proof.KernelArrayTable.lean ====
/- Seven of the arrays the region reads are written by the middle stretch from one argument by layout operations
  and a rounding: the question and the weights. For each: the last stretch does not write it, the middle stretch writes
  it as stated from contents that the first stretch does not change at the argument, so the region finds it as that
  function of the argument as launched.
-/
import proofs.«166647_j42898133353091_2_alg».proof.Proof.KernelStretches

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

/-- The first stretch does not write argument 0. -/
theorem pre_arg0 (W : Valuation τ sig (Elt F)) : after (opsPre (F := F)) W (Proc.devRef .tc main_arg0) = W (Proc.devRef .tc main_arg0) := by stretch_keeps
/-- The first stretch does not write argument 1. -/
theorem pre_arg1 (W : Valuation τ sig (Elt F)) : after (opsPre (F := F)) W (Proc.devRef .tc main_arg1) = W (Proc.devRef .tc main_arg1) := by stretch_keeps
/-- The first stretch does not write argument 2. -/
theorem pre_arg2 (W : Valuation τ sig (Elt F)) : after (opsPre (F := F)) W (Proc.devRef .tc main_arg2) = W (Proc.devRef .tc main_arg2) := by stretch_keeps
/-- The first stretch does not write argument 4. -/
theorem pre_arg4 (W : Valuation τ sig (Elt F)) : after (opsPre (F := F)) W (Proc.devRef .tc main_arg4) = W (Proc.devRef .tc main_arg4) := by stretch_keeps
/-- The first stretch does not write argument 6. -/
theorem pre_arg6 (W : Valuation τ sig (Elt F)) : after (opsPre (F := F)) W (Proc.devRef .tc main_arg6) = W (Proc.devRef .tc main_arg6) := by stretch_keeps
/-- The first stretch does not write argument 8. -/
theorem pre_arg8 (W : Valuation τ sig (Elt F)) : after (opsPre (F := F)) W (Proc.devRef .tc main_arg8) = W (Proc.devRef .tc main_arg8) := by stretch_keeps

variable (m : (ℓ : Loc nD τ sig) → Buf (Elt F) ℓ)

/-- The last stretch does not write this array. -/
theorem post_v13 (W : Valuation τ sig (Elt F)) : after (opsPost (F := F)) W (Proc.devRef .tc main_v13) = W (Proc.devRef .tc main_v13) := by stretch_keeps
/-- The middle stretch writes it from the contents it starts from. -/
theorem mid_v13 (W : Valuation τ sig (Elt F)) :
    (after (hostOps0_4 (F := F)) W (Proc.devRef .tc main_v13) : FVec F S64x1x256 .bf16) = shapeCast S64x1x256 (truncf .bf16 (W (Proc.devRef .tc main_arg1) : FVec F S64x256 .f32) bitsLt_bf16_f32) shapeCasts_S64x256_S64x1x256 := by
  simp only [Gen.hostOps0_4]
  after_results
  rfl
/-- The question array: the argument, rounded to the narrower format and regrouped to [64, 1, 256]. -/
theorem V_ques (c : Dev nD) : (V m c main_v13 : FVec F S64x1x256 .bf16) = shapeCast S64x1x256 (truncf .bf16 (m ((c : Thread nD τ).loc main_arg1) : FVec F S64x256 .f32) bitsLt_bf16_f32) shapeCasts_S64x256_S64x1x256 := by
  show V0 m c (Proc.devRef .tc main_v13) = _
  rw [V0_split, post_v13, mid_v13, pre_arg1]

/-- The last stretch does not write this array. -/
theorem post_v15 (W : Valuation τ sig (Elt F)) : after (opsPost (F := F)) W (Proc.devRef .tc main_v15) = W (Proc.devRef .tc main_v15) := by stretch_keeps
/-- The middle stretch writes it from the contents it starts from. -/
theorem mid_v15 (W : Valuation τ sig (Elt F)) :
    (after (hostOps0_4 (F := F)) W (Proc.devRef .tc main_v15) : FVec F S66x256 .bf16) = truncf .bf16 (extractStridedSlice S66x256 ![0, 0] (W (Proc.devRef .tc main_arg2) : FVec F S388x256 .f32) slices_S388x256_S66x256_0_0) bitsLt_bf16_f32 := by
  simp only [Gen.hostOps0_4]
  after_results
/-- The first weights' rows 0–65, rounded. -/
theorem V_w1i (c : Dev nD) : (V m c main_v15 : FVec F S66x256 .bf16) = truncf .bf16 (extractStridedSlice S66x256 ![0, 0] (m ((c : Thread nD τ).loc main_arg2) : FVec F S388x256 .f32) slices_S388x256_S66x256_0_0) bitsLt_bf16_f32 := by
  show V0 m c (Proc.devRef .tc main_v15) = _
  rw [V0_split, post_v15, mid_v15, pre_arg2]

/-- The last stretch does not write this array. -/
theorem post_v17 (W : Valuation τ sig (Elt F)) : after (opsPost (F := F)) W (Proc.devRef .tc main_v17) = W (Proc.devRef .tc main_v17) := by stretch_keeps
/-- The middle stretch writes it from the contents it starts from. -/
theorem mid_v17 (W : Valuation τ sig (Elt F)) :
    (after (hostOps0_4 (F := F)) W (Proc.devRef .tc main_v17) : FVec F S66x256 .bf16) = truncf .bf16 (extractStridedSlice S66x256 ![66, 0] (W (Proc.devRef .tc main_arg2) : FVec F S388x256 .f32) slices_S388x256_S66x256_66_0) bitsLt_bf16_f32 := by
  simp only [Gen.hostOps0_4]
  after_results
/-- The first weights' rows 66–131, rounded. -/
theorem V_w1j (c : Dev nD) : (V m c main_v17 : FVec F S66x256 .bf16) = truncf .bf16 (extractStridedSlice S66x256 ![66, 0] (m ((c : Thread nD τ).loc main_arg2) : FVec F S388x256 .f32) slices_S388x256_S66x256_66_0) bitsLt_bf16_f32 := by
  show V0 m c (Proc.devRef .tc main_v17) = _
  rw [V0_split, post_v17, mid_v17, pre_arg2]

/-- The last stretch does not write this array. -/
theorem post_v19 (W : Valuation τ sig (Elt F)) : after (opsPost (F := F)) W (Proc.devRef .tc main_v19) = W (Proc.devRef .tc main_v19) := by stretch_keeps
/-- The middle stretch writes it from the contents it starts from. -/
theorem mid_v19 (W : Valuation τ sig (Elt F)) :
    (after (hostOps0_4 (F := F)) W (Proc.devRef .tc main_v19) : FVec F S256x256 .bf16) = truncf .bf16 (extractStridedSlice S256x256 ![132, 0] (W (Proc.devRef .tc main_arg2) : FVec F S388x256 .f32) slices_S388x256_S256x256_132_0) bitsLt_bf16_f32 := by
  simp only [Gen.hostOps0_4]
  after_results
/-- The first weights' rows 132–387, rounded. -/
theorem V_w1q (c : Dev nD) : (V m c main_v19 : FVec F S256x256 .bf16) = truncf .bf16 (extractStridedSlice S256x256 ![132, 0] (m ((c : Thread nD τ).loc main_arg2) : FVec F S388x256 .f32) slices_S388x256_S256x256_132_0) bitsLt_bf16_f32 := by
  show V0 m c (Proc.devRef .tc main_v19) = _
  rw [V0_split, post_v19, mid_v19, pre_arg2]

/-- The last stretch does not write this array. -/
theorem post_v20 (W : Valuation τ sig (Elt F)) : after (opsPost (F := F)) W (Proc.devRef .tc main_v20) = W (Proc.devRef .tc main_v20) := by stretch_keeps
/-- The middle stretch writes it from the contents it starts from. -/
theorem mid_v20 (W : Valuation τ sig (Elt F)) :
    (after (hostOps0_4 (F := F)) W (Proc.devRef .tc main_v20) : FVec F S256x256 .bf16) = truncf .bf16 (W (Proc.devRef .tc main_arg4) : FVec F S256x256 .f32) bitsLt_bf16_f32 := by
  simp only [Gen.hostOps0_4]
  after_results
/-- The second layer's weights, rounded. -/
theorem V_w2 (c : Dev nD) : (V m c main_v20 : FVec F S256x256 .bf16) = truncf .bf16 (m ((c : Thread nD τ).loc main_arg4) : FVec F S256x256 .f32) bitsLt_bf16_f32 := by
  show V0 m c (Proc.devRef .tc main_v20) = _
  rw [V0_split, post_v20, mid_v20, pre_arg4]

/-- The last stretch does not write this array. -/
theorem post_v21 (W : Valuation τ sig (Elt F)) : after (opsPost (F := F)) W (Proc.devRef .tc main_v21) = W (Proc.devRef .tc main_v21) := by stretch_keeps
/-- The middle stretch writes it from the contents it starts from. -/
theorem mid_v21 (W : Valuation τ sig (Elt F)) :
    (after (hostOps0_4 (F := F)) W (Proc.devRef .tc main_v21) : FVec F S256x256 .bf16) = truncf .bf16 (W (Proc.devRef .tc main_arg6) : FVec F S256x256 .f32) bitsLt_bf16_f32 := by
  simp only [Gen.hostOps0_4]
  after_results
/-- The third layer's weights, rounded. -/
theorem V_w3 (c : Dev nD) : (V m c main_v21 : FVec F S256x256 .bf16) = truncf .bf16 (m ((c : Thread nD τ).loc main_arg6) : FVec F S256x256 .f32) bitsLt_bf16_f32 := by
  show V0 m c (Proc.devRef .tc main_v21) = _
  rw [V0_split, post_v21, mid_v21, pre_arg6]

/-- The last stretch does not write this array. -/
theorem post_v22 (W : Valuation τ sig (Elt F)) : after (opsPost (F := F)) W (Proc.devRef .tc main_v22) = W (Proc.devRef .tc main_v22) := by stretch_keeps
/-- The middle stretch writes it from the contents it starts from. -/
theorem mid_v22 (W : Valuation τ sig (Elt F)) :
    (after (hostOps0_4 (F := F)) W (Proc.devRef .tc main_v22) : FVec F S256x256 .bf16) = truncf .bf16 (W (Proc.devRef .tc main_arg8) : FVec F S256x256 .f32) bitsLt_bf16_f32 := by
  simp only [Gen.hostOps0_4]
  after_results
/-- The fourth layer's weights, rounded. -/
theorem V_w4 (c : Dev nD) : (V m c main_v22 : FVec F S256x256 .bf16) = truncf .bf16 (m ((c : Thread nD τ).loc main_arg8) : FVec F S256x256 .f32) bitsLt_bf16_f32 := by
  show V0 m c (Proc.devRef .tc main_v22) = _
  rw [V0_split, post_v22, mid_v22, pre_arg8]

end Cert.KernelIdeal.KValue

end
-- ==== Proof.KernelSelectors.lean ====
/-
  The kernel's two selector matrices.

  Before its grid the kernel builds two 4096 × 64 matrices of zeros and ones: row `p` of the first has its one in
  column `p / 64`, row `p` of the second in column `p % 64`, so that a product with an image's 64 × 66 object table
  picks, for each of the 4096 ordered pairs, the first and the second object of the pair. The column numbers are
  computed in 32-bit integers from the index vector 0 … 4095 by a floored division and a floored remainder by the word
  64, each spelt out from the truncating operation and a sign correction; the matrix compares the column number,
  broadcast along the row, with the column index 0 … 63 and converts the bit to a number.

  `quotients`, `remainders` and `selector` are those computations as pure functions of arrays, one line per operation
  of the program, the calls inlined. Every integer operation acts entry by entry, so entry `p` of an index vector is
  one closed word expression in the word of `p` (`quotWord`, `remWord`); that it is the word of `p / 64`, respectively
  `p % 64`, for the 4096 values of `p` is a finite check (`quotWord_eq`, `remWord_eq`). The words of two numbers below
  2³² are equal exactly when the numbers are, and a bit converted to a number is `1` or `0`.
-/
import proofs.«166647_j42898133353091_2_alg».proof.Proof.Gen.KernelIdeal
import proofs.«166647_j42898133353091_2_alg».proof.Proof.Spec
import Idealize.ShloMosaic.Lib.ValueIdx
import Idealize.ShloMosaic.Lib.Pipeline.Value

noncomputable section

namespace Cert.KernelIdeal.Selectors

open Cert.KernelIdeal Idealize.ShloMosaic Idealize.ShloMosaic.ValueIdx

variable {F : FTy → Type} [FloatOps F] [Facts]
open Facts₀ Facts

/-- The floored quotients of 0 … 4095 by the word 64: the truncated quotient, less one where the dividend's sign is
    not the divisor's and the remainder is not zero. -/
def quotients : (⟨S4096, .i32⟩ : BufTy).Contents (Elt F) :=
  have v23 : (⟨S4096, .i32⟩ : BufTy).Contents (Elt F) := iotaInDim S4096 32 0
  have c : (⟨S_, .i32⟩ : BufTy).Contents (Elt F) := constantI S_ 32 64#32
  have q0 : (⟨S_, .i32⟩ : BufTy).Contents (Elt F) := id c
  have q1 : (⟨S4096, .i32⟩ : BufTy).Contents (Elt F) := broadcastInDim S4096 ![] bcast_S_S4096 q0
  have q2 : (⟨S4096, .i32⟩ : BufTy).Contents (Elt F) := Host.divsi v23 q1
  have q3 : (⟨S4096, .i32⟩ : BufTy).Contents (Elt F) := signi v23
  have q4 : (⟨S_, .i32⟩ : BufTy).Contents (Elt F) := signi q0
  have q5 : (⟨S4096, .i32⟩ : BufTy).Contents (Elt F) := broadcastInDim S4096 ![] bcast_S_S4096 q4
  have q6 : (⟨S4096, .i1⟩ : BufTy).Contents (Elt F) := cmpi .ne q3 q5
  have q7 : (⟨S4096, .i32⟩ : BufTy).Contents (Elt F) := broadcastInDim S4096 ![] bcast_S_S4096 q0
  have q8 : (⟨S4096, .i32⟩ : BufTy).Contents (Elt F) := Host.remsi v23 q7
  have qc : (⟨S_, .i32⟩ : BufTy).Contents (Elt F) := constantI S_ 32 0#32
  have q9 : (⟨S4096, .i32⟩ : BufTy).Contents (Elt F) := broadcastInDim S4096 ![] bcast_S_S4096 qc
  have q10 : (⟨S4096, .i1⟩ : BufTy).Contents (Elt F) := cmpi .ne q8 q9
  have q11 : (⟨S4096, .i1⟩ : BufTy).Contents (Elt F) := andi q6 q10
  have qc_0 : (⟨S_, .i32⟩ : BufTy).Contents (Elt F) := constantI S_ 32 1#32
  have q12 : (⟨S4096, .i32⟩ : BufTy).Contents (Elt F) := broadcastInDim S4096 ![] bcast_S_S4096 qc_0
  have q13 : (⟨S4096, .i32⟩ : BufTy).Contents (Elt F) := subi q2 q12
  have v24 : (⟨S4096, .i32⟩ : BufTy).Contents (Elt F) := select q11 q13 q2
  v24

/-- The floored remainders of 0 … 4095 by the word 64: the truncated remainder, plus the divisor where it is not zero
    and its sign is not the divisor's. -/
def remainders : (⟨S4096, .i32⟩ : BufTy).Contents (Elt F) :=
  have v23 : (⟨S4096, .i32⟩ : BufTy).Contents (Elt F) := iotaInDim S4096 32 0
  have c : (⟨S_, .i32⟩ : BufTy).Contents (Elt F) := constantI S_ 32 64#32
  have r0 : (⟨S_, .i32⟩ : BufTy).Contents (Elt F) := id c
  have rc : (⟨S_, .i32⟩ : BufTy).Contents (Elt F) := constantI S_ 32 0#32
  have r1 : (⟨S_, .i1⟩ : BufTy).Contents (Elt F) := cmpi .eq r0 rc
  have rc_0 : (⟨S_, .i32⟩ : BufTy).Contents (Elt F) := constantI S_ 32 1#32
  have r2 : (⟨S_, .i32⟩ : BufTy).Contents (Elt F) := select r1 rc_0 r0
  have r3 : (⟨S4096, .i32⟩ : BufTy).Contents (Elt F) := broadcastInDim S4096 ![] bcast_S_S4096 r2
  have r4 : (⟨S4096, .i32⟩ : BufTy).Contents (Elt F) := Host.remsi v23 r3
  have rc_1 : (⟨S_, .i32⟩ : BufTy).Contents (Elt F) := constantI S_ 32 0#32
  have r5 : (⟨S4096, .i32⟩ : BufTy).Contents (Elt F) := broadcastInDim S4096 ![] bcast_S_S4096 rc_1
  have r6 : (⟨S4096, .i1⟩ : BufTy).Contents (Elt F) := cmpi .ne r4 r5
  have rc_2 : (⟨S_, .i32⟩ : BufTy).Contents (Elt F) := constantI S_ 32 0#32
  have r7 : (⟨S4096, .i32⟩ : BufTy).Contents (Elt F) := broadcastInDim S4096 ![] bcast_S_S4096 rc_2
  have r8 : (⟨S4096, .i1⟩ : BufTy).Contents (Elt F) := cmpi .slt r4 r7
  have rc_3 : (⟨S_, .i32⟩ : BufTy).Contents (Elt F) := constantI S_ 32 0#32
  have r9 : (⟨S_, .i1⟩ : BufTy).Contents (Elt F) := cmpi .slt r2 rc_3
  have r10 : (⟨S4096, .i1⟩ : BufTy).Contents (Elt F) := broadcastInDim S4096 ![] bcast_S_S4096 r9
  have r11 : (⟨S4096, .i1⟩ : BufTy).Contents (Elt F) := cmpi .ne r8 r10
  have r12 : (⟨S4096, .i1⟩ : BufTy).Contents (Elt F) := andi r11 r6
  have r13 : (⟨S4096, .i32⟩ : BufTy).Contents (Elt F) := broadcastInDim S4096 ![] bcast_S_S4096 r2
  have r14 : (⟨S4096, .i32⟩ : BufTy).Contents (Elt F) := addi r4 r13
  have v25 : (⟨S4096, .i32⟩ : BufTy).Contents (Elt F) := select r12 r14 r4
  v25

/-- The selector matrix of an index vector: entry `(p, j)` is the bit "entry `p` of the vector is `j`" as a number. -/
def selector (idx : (⟨S4096, .i32⟩ : BufTy).Contents (Elt F)) : FVec F S4096x64 .bf16 :=
  have v0 : (⟨S4096x1, .i32⟩ : BufTy).Contents (Elt F) := broadcastInDim S4096x1 ![0] bcast_S4096_S4096x1_0 idx
  have v1 : (⟨S1x64, .i32⟩ : BufTy).Contents (Elt F) := iotaInDim S1x64 32 1
  have v2 : (⟨S4096x64, .i32⟩ : BufTy).Contents (Elt F) := broadcastInDim S4096x64 ![0, 1] bcast_S4096x1_S4096x64_0_1 v0
  have v3 : (⟨S4096x64, .i32⟩ : BufTy).Contents (Elt F) := broadcastInDim S4096x64 ![0, 1] bcast_S1x64_S4096x64_0_1 v1
  have v4 : (⟨S4096x64, .i1⟩ : BufTy).Contents (Elt F) := cmpi .eq v2 v3
  have v5 : FVec F S4096x64 .bf16 := uitofp .bf16 v4
  v5

/-! ## The two index vectors as words

Every integer operation acts entry by entry, and a rank-0 constant broadcast is that constant everywhere, so entry `p`
of either vector is one closed expression in the word of `p`. -/

/-- The sign of a word: `0`, `-1` or `1`. -/
def sgnWord (x : BitVec 32) : BitVec 32 := if x = 0 then 0 else if x.msb then -1 else 1

/-- Entry `p` of `quotients` as a function of the word of `p`. -/
def quotWord (x : BitVec 32) : BitVec 32 :=
  Scalar.select
    (IntOp.andi (IntOp.cmpi .ne (sgnWord x) (sgnWord 64#32)) (IntOp.cmpi .ne (IntOp.remsi .host x 64#32) 0#32))
    (IntOp.subi (IntOp.divsi .host x 64#32) 1#32) (IntOp.divsi .host x 64#32)

/-- Entry `p` of `remainders` as a function of the word of `p`. -/
def remWord (x : BitVec 32) : BitVec 32 :=
  Scalar.select
    (IntOp.andi
      (IntOp.cmpi .ne (IntOp.cmpi .slt (IntOp.remsi .host x (Scalar.select (IntOp.cmpi .eq 64#32 0#32) 1#32 64#32)) 0#32)
        (IntOp.cmpi .slt (Scalar.select (IntOp.cmpi .eq 64#32 0#32) 1#32 64#32) 0#32))
      (IntOp.cmpi .ne (IntOp.remsi .host x (Scalar.select (IntOp.cmpi .eq 64#32 0#32) 1#32 64#32)) 0#32))
    (IntOp.addi (IntOp.remsi .host x (Scalar.select (IntOp.cmpi .eq 64#32 0#32) 1#32 64#32))
      (Scalar.select (IntOp.cmpi .eq 64#32 0#32) 1#32 64#32))
    (IntOp.remsi .host x (Scalar.select (IntOp.cmpi .eq 64#32 0#32) 1#32 64#32))

theorem quotients_apply (p : Fin 4096) : quotients (F := F) (ix1 p) = quotWord (BitVec.ofNat 32 p.val) := rfl

theorem remainders_apply (p : Fin 4096) : remainders (F := F) (ix1 p) = remWord (BitVec.ofNat 32 p.val) := rfl

/-- For the 4096 words below 4096 the floored quotient by 64 is the natural quotient: a finite check. -/
theorem quotWord_eq : ∀ n, n < 4096 → quotWord (BitVec.ofNat 32 n) = BitVec.ofNat 32 (n / 64) := by
  decide +kernel

/-- For the 4096 words below 4096 the floored remainder by 64 is the natural remainder: a finite check. -/
theorem remWord_eq : ∀ n, n < 4096 → remWord (BitVec.ofNat 32 n) = BitVec.ofNat 32 (n % 64) := by
  decide +kernel

/-! ## The selector read at an index -/

/-- Entry `(p, j)` of a selector: the index vector's entry `p` broadcast along the row, compared with the column
    number `j`, the bit converted to a number. -/
theorem selector_apply (idx : (⟨S4096, .i32⟩ : BufTy).Contents (Elt F)) (p : Fin 4096) (j : Fin 64) :
    selector (F := F) idx (ix2 p j) = FloatOps.uitofp .bf16 (IntOp.cmpi .eq (idx (ix1 p)) (BitVec.ofNat 32 j.val)) := by
  have h2 : broadcastInDim S4096x64 ![0, 1] bcast_S4096x1_S4096x64_0_1
      (broadcastInDim S4096x1 ![0] bcast_S4096_S4096x1_0 idx) (ix2 p j) = idx (ix1 p) := by
    refine (broadcastInDim_apply _ _ _ (ix2 p j) (ix2 p (0 : Fin 1)) ?_).trans ?_
    · intro a
      match a with
      | ⟨0, _⟩ => rfl
      | ⟨1, _⟩ => rfl
    exact broadcastInDim_apply _ _ idx (ix2 p (0 : Fin 1)) (ix1 p) (fun a => by
      match a with
      | ⟨0, _⟩ => rfl)
  have h3 : broadcastInDim S4096x64 ![0, 1] bcast_S1x64_S4096x64_0_1
      (iotaInDim S1x64 32 1 : (⟨S1x64, .i32⟩ : BufTy).Contents (Elt F)) (ix2 p j) = BitVec.ofNat 32 j.val := by
    refine (broadcastInDim_apply _ _ _ (ix2 p j) (ix2 (0 : Fin 1) j) ?_).trans rfl
    intro a
    match a with
    | ⟨0, _⟩ => rfl
    | ⟨1, _⟩ => rfl
  unfold selector
  show FloatOps.uitofp .bf16 (IntOp.cmpi .eq
      (broadcastInDim S4096x64 ![0, 1] bcast_S4096x1_S4096x64_0_1
        (broadcastInDim S4096x1 ![0] bcast_S4096_S4096x1_0 idx) (ix2 p j))
      (broadcastInDim S4096x64 ![0, 1] bcast_S1x64_S4096x64_0_1
        (iotaInDim S1x64 32 1 : (⟨S1x64, .i32⟩ : BufTy).Contents (Elt F)) (ix2 p j))) = _
  rw [h2, h3]

/-- The comparison of the words of two numbers below 2³² converted to a number: `1` if the numbers are equal, `0` if not. -/
theorem uitofp_cmpi_eq_ofNat (a b : Nat) (ha : a < 2 ^ 32) (hb : b < 2 ^ 32) :
    (FloatOps.uitofp (F := Ideal) .bf16 (IntOp.cmpi .eq (BitVec.ofNat 32 a) (BitVec.ofNat 32 b)) : EReal)
      = if a = b then 1 else 0 := by
  by_cases h : a = b
  · rw [if_pos h, IntOp.cmpi_eq.mpr (by rw [h])]
    show (((1#1 : BitVec 1).toNat : ℝ) : EReal) = 1
    simp
  · have hne : IntOp.cmpi .eq (BitVec.ofNat 32 a) (BitVec.ofNat 32 b) = 0#1 :=
      eq_zero_of_ne_one (fun h1 => h (by
        have := congrArg BitVec.toNat (IntOp.cmpi_eq.mp h1)
        rw [BitVec.toNat_ofNat, BitVec.toNat_ofNat, Nat.mod_eq_of_lt ha, Nat.mod_eq_of_lt hb] at this
        exact this))
    rw [if_neg h, hne]
    show (((0#1 : BitVec 1).toNat : ℝ) : EReal) = 0
    simp

/-- The selector of the quotients picks object `p / 64` of pair `p`. -/
theorem selector_quotients_apply (p : Fin 4096) (j : Fin 64) :
    selector (F := Ideal) quotients (ix2 p j) = if j = RelationNet.fstOf p then 1 else 0 := by
  rw [selector_apply, quotients_apply, quotWord_eq p.val p.isLt,
    uitofp_cmpi_eq_ofNat _ _ (by have := p.isLt; omega) (by have := j.isLt; omega)]
  by_cases h : j = RelationNet.fstOf p
  · rw [if_pos h, if_pos (by rw [h]; rfl)]
  · rw [if_neg h, if_neg (fun h' => h (Fin.ext h'.symm))]

/-- The selector of the remainders picks object `p % 64` of pair `p`. -/
theorem selector_remainders_apply (p : Fin 4096) (j : Fin 64) :
    selector (F := Ideal) remainders (ix2 p j) = if j = RelationNet.sndOf p then 1 else 0 := by
  rw [selector_apply, remainders_apply, remWord_eq p.val p.isLt,
    uitofp_cmpi_eq_ofNat _ _ (by have := p.isLt; omega) (by have := j.isLt; omega)]
  by_cases h : j = RelationNet.sndOf p
  · rw [if_pos h, if_pos (by rw [h]; rfl)]
  · rw [if_neg h, if_neg (fun h' => h (Fin.ext h'.symm))]

end Cert.KernelIdeal.Selectors

end
-- ==== Proof.KernelArrays.lean ====
/-
  The object table and the selector matrices as the region finds them.

  The object table is written by the first two stretches with the operations the reference also runs: it is the
  shared `objects` of the first argument, rounded to the narrower float format. The selector matrices are written by
  the last stretch from the pair numbers 0 … 4095 and the word 64 that the middle stretch leaves: they are the closed
  terms `selector quotients` and `selector remainders`, whose entries are read in `KernelSelectors`.
-/
import proofs.«166647_j42898133353091_2_alg».proof.Proof.KernelArrayTable
import proofs.«166647_j42898133353091_2_alg».proof.Proof.RefShared
import proofs.«166647_j42898133353091_2_alg».proof.Proof.KernelSelectors

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F] [Cert.ReferenceIdeal.Facts]

variable (m : (ℓ : Loc nD τ sig) → Buf (Elt F) ℓ)

/-- The middle stretch also writes the pair numbers 0 … 4095 and the word 64 that the selectors are built from. -/
theorem mid_v23 (W : Valuation τ sig (Elt F)) :
    (after (hostOps0_4 (F := F)) W (Proc.devRef .tc main_v23) : (⟨S4096, .i32⟩ : BufTy).Contents (Elt F)) = iotaInDim S4096 32 0 := by
  simp only [Gen.hostOps0_4]
  after_results
theorem mid_c1 (W : Valuation τ sig (Elt F)) :
    (after (hostOps0_4 (F := F)) W (Proc.devRef .tc main_c_1) : (⟨S_, .i32⟩ : BufTy).Contents (Elt F)) = constantI S_ 32 64#32 := by
  simp only [Gen.hostOps0_4]
  after_results

set_option maxHeartbeats 4000000 in
/-- The last stretch, from contents that hold the pair numbers and the word 64: the first selector matrix. -/
theorem post_sel_i (W : Valuation τ sig (Elt F))
    (h23 : (W (Proc.devRef .tc main_v23) : (⟨S4096, .i32⟩ : BufTy).Contents (Elt F)) = iotaInDim S4096 32 0)
    (hc : (W (Proc.devRef .tc main_c_1) : (⟨S_, .i32⟩ : BufTy).Contents (Elt F)) = constantI S_ 32 64#32) :
    (after (opsPost (F := F)) W (Proc.devRef .tc main_v26) : FVec F S4096x64 .bf16)
      = Cert.KernelIdeal.Selectors.selector Cert.KernelIdeal.Selectors.quotients := by
  simp only [opsPost, Gen.hostOps0_5, Gen.hostOps0_6, Gen.hostOps0_7, Gen.hostOps0_8, Gen.hostOps0_9, List.cons_append, List.nil_append]
  after_results_simp
  simp only [cast_eq]
  rw [h23, hc]
  rfl

set_option maxHeartbeats 4000000 in
/-- … and the second. -/
theorem post_sel_j (W : Valuation τ sig (Elt F))
    (h23 : (W (Proc.devRef .tc main_v23) : (⟨S4096, .i32⟩ : BufTy).Contents (Elt F)) = iotaInDim S4096 32 0) :
    (after (opsPost (F := F)) W (Proc.devRef .tc main_v27) : FVec F S4096x64 .bf16)
      = Cert.KernelIdeal.Selectors.selector Cert.KernelIdeal.Selectors.remainders := by
  simp only [opsPost, Gen.hostOps0_5, Gen.hostOps0_6, Gen.hostOps0_7, Gen.hostOps0_8, Gen.hostOps0_9, List.cons_append, List.nil_append]
  after_results_simp
  simp only [cast_eq]
  rw [h23]
  rfl

/-- The first selector matrix as the region finds it. -/
theorem V_sel_i (c : Dev nD) : (V m c main_v26 : FVec F S4096x64 .bf16) = Cert.KernelIdeal.Selectors.selector Cert.KernelIdeal.Selectors.quotients := by
  show V0 m c (Proc.devRef .tc main_v26) = _
  rw [V0_split]
  exact post_sel_i _ (mid_v23 _) (mid_c1 _)
/-- The second selector matrix as the region finds it. -/
theorem V_sel_j (c : Dev nD) : (V m c main_v27 : FVec F S4096x64 .bf16) = Cert.KernelIdeal.Selectors.selector Cert.KernelIdeal.Selectors.remainders := by
  show V0 m c (Proc.devRef .tc main_v27) = _
  rw [V0_split]
  exact post_sel_j _ (mid_v23 _)

theorem post_v11 (W : Valuation τ sig (Elt F)) : after (opsPost (F := F)) W (Proc.devRef .tc main_v11) = W (Proc.devRef .tc main_v11) := by stretch_keeps

set_option maxHeartbeats 4000000 in
/-- The first two stretches, from any contents: the object table is the shared `objects` of the first argument, rounded. -/
theorem objects_fold (W : Valuation τ sig (Elt F)) :
    (after (hostOps0_4 (F := F)) (after opsPre W) (Proc.devRef .tc main_v11) : FVec F S64x64x66 .bf16)
      = truncf .bf16 (Cert.ReferenceIdeal.Shared.objects (F := F) (W (Proc.devRef .tc main_arg0))) bitsLt_bf16_f32 := by
  rw [← StableHlo.after_append]
  simp only [opsPre, Gen.hostOps0, Gen.hostOps0_1, Gen.hostOps0_2, Gen.hostOps0_3, Gen.hostOps0_4, List.cons_append, List.nil_append]
  after_results
  simp only [cast_eq]
  rfl

/-- The object table as the region finds it. -/
theorem V_objects (c : Dev nD) :
    (V m c main_v11 : FVec F S64x64x66 .bf16)
      = truncf .bf16 (Cert.ReferenceIdeal.Shared.objects (F := F) (m ((c : Thread nD τ).loc main_arg0))) bitsLt_bf16_f32 := by
  show V0 m c (Proc.devRef .tc main_v11) = _
  rw [V0_split, post_v11]
  exact objects_fold _

end Cert.KernelIdeal.KValue

end
-- ==== Proof.SpecLaws.lean ====
/-
  Two laws of the specification on the extended reals.

  `dense_pairRow`: the first layer's sum over the 388 entries of a pair's row is the sum over object i's 66 entries,
  plus the sum over object j's 66, plus the sum over the question's 256. Only associativity and commutativity of
  addition are used, so the entries may be any extended reals, the infinities included.

  `sum_oneHot_mul`: a 0/1 selector row picks one summand, because `0 * x = 0` and `1 * x = x` for every extended real.
-/
import proofs.«166647_j42898133353091_2_alg».proof.Proof.Spec

noncomputable section

open scoped BigOperators

namespace RelationNet

/-- A sum over 388 = 66 + 66 + 256 indices, cut at 66 and at 132. -/
theorem sum_fin388_split (f : Fin 388 → EReal) :
    ∑ k : Fin 388, f k
      = ((∑ d : Fin 66, f ⟨d.val, by omega⟩) + (∑ d : Fin 66, f ⟨66 + d.val, by omega⟩))
        + (∑ k : Fin 256, f ⟨132 + k.val, by omega⟩) := by
  have e : 66 + (66 + 256) = 388 := by norm_num
  rw [← (finCongr e).sum_comp, Fin.sum_univ_add, Fin.sum_univ_add, ← add_assoc]
  exact congrArg₂ (· + ·)
    (congrArg₂ (· + ·)
      (Finset.sum_congr rfl fun d _ => congrArg f (Fin.ext (by simp)))
      (Finset.sum_congr rfl fun d _ => congrArg f (Fin.ext (by simp))))
    (Finset.sum_congr rfl fun k _ => congrArg f (Fin.ext (by simp; omega)))

/-- Entry `d < 66` of a pair's row is entry `d` of object i. -/
theorem pairRow_fst (xi xj : Fin 66 → EReal) (q : Fin 256 → EReal) (d : Fin 66) :
    pairRow xi xj q ⟨d.val, by omega⟩ = xi d := by
  unfold pairRow
  rw [dif_pos (show (⟨d.val, by omega⟩ : Fin 388).val < 66 from d.isLt)]

/-- Entry `66 + d` of a pair's row is entry `d` of object j. -/
theorem pairRow_snd (xi xj : Fin 66 → EReal) (q : Fin 256 → EReal) (d : Fin 66) :
    pairRow xi xj q ⟨66 + d.val, by omega⟩ = xj d := by
  unfold pairRow
  rw [dif_neg (show ¬ (⟨66 + d.val, by omega⟩ : Fin 388).val < 66 by simp),
    dif_pos (show (⟨66 + d.val, by omega⟩ : Fin 388).val < 132 by have := d.isLt; simp; omega)]
  exact congrArg xj (Fin.ext (by simp))

/-- Entry `132 + k` of a pair's row is entry `k` of the question. -/
theorem pairRow_thd (xi xj : Fin 66 → EReal) (q : Fin 256 → EReal) (k : Fin 256) :
    pairRow xi xj q ⟨132 + k.val, by omega⟩ = q k := by
  unfold pairRow
  rw [dif_neg (show ¬ (⟨132 + k.val, by omega⟩ : Fin 388).val < 66 by simp; omega),
    dif_neg (show ¬ (⟨132 + k.val, by omega⟩ : Fin 388).val < 132 by simp)]
  exact congrArg q (Fin.ext (by simp))

/-- The first layer on a pair's row, with its sum split in three. -/
theorem dense_pairRow (W1 : Fin 388 → Fin 256 → EReal) (b1 : Fin 256 → EReal) (xi xj : Fin 66 → EReal)
    (q : Fin 256 → EReal) : dense W1 b1 (pairRow xi xj q) = firstSplit W1 b1 xi xj q := by
  funext g
  unfold dense firstSplit
  congr 1
  rw [sum_fin388_split (fun k => pairRow xi xj q k * W1 k g), add_assoc]
  exact congrArg₂ (· + ·)
    (congrArg₂ (· + ·)
      (Finset.sum_congr rfl fun d _ => by rw [pairRow_fst])
      (Finset.sum_congr rfl fun d _ => by rw [pairRow_snd]))
    (congrArg (· + b1 g) (Finset.sum_congr rfl fun k _ => by rw [pairRow_thd]))

/-- A 0/1 selector row picks one summand. -/
theorem sum_oneHot_mul (e : Fin 64 → EReal) (a : Fin 64 → EReal) (i : Fin 64)
    (he : ∀ k, e k = if k = i then 1 else 0) : ∑ k : Fin 64, e k * a k = a i := by
  rw [Finset.sum_eq_single i]
  · rw [he i, if_pos rfl, one_mul]
  · intro k _ hk
    rw [he k, if_neg hk, zero_mul]
  · intro h
    exact absurd (Finset.mem_univ i) h

end RelationNet

end
-- ==== Proof.SpecBridge.lean ====
/-
  The kernel's arrangement computes the specified context.

  With 0/1 selector matrices whose row `p` marks object `p / 64` (the first) and object `p % 64` (the second), and with
  the three blocks of the first weights being its rows 0–65, 66–131 and 132–387, the first layer the kernel computes
  on pair `p` is the first layer on the pair's row: a selector row times a projection picks that projection's row
  (`sum_oneHot_mul`), and the three partial sums are the split of the sum over the row's 388 entries
  (`dense_pairRow`). The upper layers and the mean are the same text on both sides.
-/
import proofs.«166647_j42898133353091_2_alg».proof.Proof.SpecLaws
import proofs.«166647_j42898133353091_2_alg».proof.Proof.KernelSpec

noncomputable section

open scoped BigOperators

namespace RelationNet

open Idealize.ShloMosaic

/-- The kernel's first layer on a pair is the first layer on the pair's row. -/
theorem selectedRow_eq (ei ej : Fin 64 → EReal) (i j : Fin 64) (hei : ∀ k, ei k = if k = i then 1 else 0)
    (hej : ∀ k, ej k = if k = j then 1 else 0) (X : Fin 64 → Fin 66 → EReal) (q : Fin 256 → EReal)
    (W1 : Fin 388 → Fin 256 → EReal) (b1 : Fin 256 → EReal) :
    selectedRow ei ej (proj X fun d g => W1 ⟨d.val, by omega⟩ g) (proj X fun d g => W1 ⟨66 + d.val, by omega⟩ g)
        (quesBias q (fun k g => W1 ⟨132 + k.val, by omega⟩ g) b1)
      = dense W1 b1 (pairRow (X i) (X j) q) := by
  rw [dense_pairRow]
  funext g
  unfold selectedRow firstSplit
  rw [sum_oneHot_mul ei (fun k => proj X (fun d g => W1 ⟨d.val, by omega⟩ g) k g) i hei,
    sum_oneHot_mul ej (fun k => proj X (fun d g => W1 ⟨66 + d.val, by omega⟩ g) k g) j hej]
  rfl

/-- So the kernel's context of one image is the specified one. -/
theorem blockContext_eq_context (Ei Ej : Fin 4096 → Fin 64 → EReal)
    (hEi : ∀ p k, Ei p k = if k = fstOf p then 1 else 0) (hEj : ∀ p k, Ej p k = if k = sndOf p then 1 else 0)
    (X : Fin 64 → Fin 66 → EReal) (q : Fin 256 → EReal) (W1 : Fin 388 → Fin 256 → EReal) (b1 : Fin 256 → EReal)
    (W2 : Fin 256 → Fin 256 → EReal) (b2 : Fin 256 → EReal) (W3 : Fin 256 → Fin 256 → EReal) (b3 : Fin 256 → EReal)
    (W4 : Fin 256 → Fin 256 → EReal) (b4 : Fin 256 → EReal) :
    blockContext Ei Ej X q (fun d g => W1 ⟨d.val, by omega⟩ g) (fun d g => W1 ⟨66 + d.val, by omega⟩ g)
        (fun k g => W1 ⟨132 + k.val, by omega⟩ g) b1 W2 b2 W3 b3 W4 b4
      = context X q W1 b1 W2 b2 W3 b3 W4 b4 := by
  funext g
  unfold blockContext context
  refine congrArg₂ Ideal.div (Finset.sum_congr rfl fun p _ => ?_) rfl
  rw [selectedRow_eq (Ei p) (Ej p) (fstOf p) (sndOf p) (hEi p) (hEj p)]

end RelationNet

end
-- ==== Proof.RefStages.lean ====
/-
  The reference's three stages as pure functions of arrays, in the reference program's own spelling.

  `pairs` lays the 64 objects of every image out as the 262144 = 64 · 4096 rows [object i | object j | question];
  `layer` is one dense layer and its rectifier on all rows; `contextOf` is the four layers and the mean over each
  image's 4096 rows. The object table (the image's cells with their two coordinates appended) comes in as an
  argument: both programs build it by the same operations, and nothing here looks inside it.
-/
import proofs.«166647_j42898133353091_2_alg».proof.ReferenceIdeal

noncomputable section

namespace Cert.ReferenceIdeal.Stages

open Cert.ReferenceIdeal Idealize.ShloMosaic

variable {F : FTy → Type} [FloatOps F] [Facts]
open Facts₀ Facts

/-- The rows of all pairs of all images: `X` broadcast along the second object axis, `X` broadcast along the
    first, the question broadcast along both, joined on the last axis, and the three leading axes flattened. -/
def pairs (X : FVec F S64x64x66 .f32) (Q : FVec F S64x256 .f32) : FVec F S262144x388 .f32 :=
  have v11 : FVec F S64x64x1x66 .f32 := broadcastInDim S64x64x1x66 ![0, 1, 3] bcast_S64x64x66_S64x64x1x66_0_1_3 X
  have v12 : FVec F S64x64x64x66 .f32 := broadcastInDim S64x64x64x66 ![0, 1, 2, 3] bcast_S64x64x1x66_S64x64x64x66_0_1_2_3 v11
  have v13 : FVec F S64x1x64x66 .f32 := broadcastInDim S64x1x64x66 ![0, 2, 3] bcast_S64x64x66_S64x1x64x66_0_2_3 X
  have v14 : FVec F S64x64x64x66 .f32 := broadcastInDim S64x64x64x66 ![0, 1, 2, 3] bcast_S64x1x64x66_S64x64x64x66_0_1_2_3 v13
  have v15 : FVec F S64x1x1x256 .f32 := broadcastInDim S64x1x1x256 ![0, 3] bcast_S64x256_S64x1x1x256_0_3 Q
  have v16 : FVec F S64x64x64x256 .f32 := broadcastInDim S64x64x64x256 ![0, 1, 2, 3] bcast_S64x1x1x256_S64x64x64x256_0_1_2_3 v15
  have v17 : FVec F S64x64x64x388 .f32 := concatenate S64x64x64x388 3 [⟨S64x64x64x66, v12⟩, ⟨S64x64x64x66, v14⟩, ⟨S64x64x64x256, v16⟩] concatenates_S64x64x64x66_S64x64x64x66_S64x64x64x256_S64x64x64x388_d3
  have v18 : FVec F S64x4096x388 .f32 := shapeCast S64x4096x388 v17 shapeCasts_S64x64x64x388_S64x4096x388
  have v19 : FVec F S262144x388 .f32 := shapeCast S262144x388 v18 shapeCasts_S64x4096x388_S262144x388
  v19

/-- The rectifier on all rows: the maximum with the broadcast zero word. -/
def relu (x : FVec F S262144x256 .f32) : FVec F S262144x256 .f32 :=
  maximumf x (broadcastInDim S262144x256 ![] bcast_S_S262144x256 (constant S_ .f32 0x00000000#32))

/-- The first dense layer on all rows: the product with the 388 × 256 weights, the bias added to every row, the rectifier. -/
def layer1 (P : FVec F S262144x388 .f32) (W : FVec F S388x256 .f32) (b : FVec F S256 .f32) : FVec F S262144x256 .f32 :=
  relu (addf (Host.dotGeneral dot_S262144x388_S388x256_S262144x256_1_0_0_1_n_n none P W)
    (broadcastInDim S262144x256 ![0, 1] bcast_S1x256_S262144x256_0_1 (broadcastInDim S1x256 ![1] bcast_S256_S1x256_1 b)))

/-- A later dense layer on all rows, with 256 × 256 weights. -/
def layer (H : FVec F S262144x256 .f32) (W : FVec F S256x256 .f32) (b : FVec F S256 .f32) : FVec F S262144x256 .f32 :=
  relu (addf (Host.dotGeneral dot_S262144x256_S256x256_S262144x256_1_0_0_1_n_n none H W)
    (broadcastInDim S262144x256 ![0, 1] bcast_S1x256_S262144x256_0_1 (broadcastInDim S1x256 ![1] bcast_S256_S1x256_1 b)))

/-- The mean over each image's 4096 rows: the rows regrouped by image, summed from the zero word, divided by the
    broadcast word 4096.0. -/
def meanRows (H : FVec F S262144x256 .f32) : FVec F S64x256 .f32 :=
  Host.divf (Host.reduceAdd (shapeCast S64x4096x256 H shapeCasts_S262144x256_S64x4096x256) (constant S_ .f32 0x00000000#32)
      reducesTo_S64x4096x256_S64x256_d1 h_S_)
    (broadcastInDim S64x256 ![] bcast_S_S64x256 (constant S_ .f32 0x45800000#32))

/-- The reference's context array [64, 256] from the object table, the question and the four layers' weights. -/
def contextOf (X : FVec F S64x64x66 .f32) (Q : FVec F S64x256 .f32) (W1 : FVec F S388x256 .f32) (b1 : FVec F S256 .f32)
    (W2 : FVec F S256x256 .f32) (b2 : FVec F S256 .f32) (W3 : FVec F S256x256 .f32) (b3 : FVec F S256 .f32)
    (W4 : FVec F S256x256 .f32) (b4 : FVec F S256 .f32) : FVec F S64x256 .f32 :=
  meanRows (layer (layer (layer (layer1 (pairs X Q) W1 b1) W2 b2) W3 b3) W4 b4)

end Cert.ReferenceIdeal.Stages

end
-- ==== Proof.RefContext.lean ====
/-
  The reference's context array read at an index.

  The reference lays every image's 64 · 64 ordered pairs of objects out as 262144 rows of 388 numbers, sends all rows
  through four dense layers with a rectifier after each, regroups the rows by image and takes the mean over each
  image's 4096 rows. Read at one image `n` and one output column `g`, that array is the specification's context
  (`RelationNet.context`) of image `n` at `g`:
  • two row-major reshapes make flat row `n · 4096 + p` the pair `p = i · 64 + j` of image `n`, and the three
    broadcasts joined on the last axis make its 388 entries [object i | object j | question] (`pairs_apply`);
  • a product with one contracted axis is, at a row and a column, the sum over the contracted coordinate; the bias is
    broadcast to every row; the rectifier is the maximum with the zero word's value, which is kept as that word's
    value and not evaluated (`layer1_apply`, `layer_apply`);
  • the host's sum over the regrouped rows starts from the zero word's value, which is `0`, and the quotient is by the
    value of the word 4096.0, likewise kept as the word's value (`meanRows_apply`).
-/
import proofs.«166647_j42898133353091_2_alg».proof.Proof.RefStages
import proofs.«166647_j42898133353091_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Idealize.ShloMosaic Idealize.ShloMosaic.ValueIdx

variable [Facts]
open Facts₀ Facts

/-! ## The rows of all pairs, read at an index

Flat row `r = (n · 64 + i) · 64 + j` of the 262144 rows is the pair (i, j) of image `n`: the two reshapes keep the
row-major position. Its 388 entries are the three pieces of the concatenation along the last axis: entries 0–65 read
object i (the table broadcast along the second object axis), entries 66–131 object j (broadcast along the first), and
entries 132–387 the question (broadcast along both). -/

/-- Entries 0–65 of a pair's row are object i. -/
theorem pairs_fst (X : FVec Ideal S64x64x66 .f32) (Q : FVec Ideal S64x256 .f32) (n i j : Fin 64) (d : Fin 66)
    (r : Fin 262144) (hr : r.val = (n.val * 64 + i.val) * 64 + j.val) (k : Fin 388) (hk : k.val = d.val) :
    Stages.pairs (F := Ideal) X Q (ix2 r k) = X (ix3 n i d) := by
  unfold Stages.pairs
  refine (shapeCast_apply _ _ (ix2 r k) (ix3 n (⟨i.val * 64 + j.val, by omega⟩ : Fin 4096) k) ?_).trans ?_
  · rw [Shape.rowMajor_val_three, Shape.rowMajor_val_two]
    show (n.val * 4096 + (i.val * 64 + j.val)) * 388 + k.val = r.val * 388 + k.val
    omega
  refine (shapeCast_apply _ _ (ix3 n (⟨i.val * 64 + j.val, by omega⟩ : Fin 4096) k) (ix4 n i j k) ?_).trans ?_
  · rw [Shape.rowMajor_val_four, Shape.rowMajor_val_three]
    show ((n.val * 64 + i.val) * 64 + j.val) * 388 + k.val = (n.val * 4096 + (i.val * 64 + j.val)) * 388 + k.val
    omega
  refine (concatenate_apply_piece _ _ _ (ix4 n i j k) 0 (by show 0 < 3; omega) S64x64x64x66 _ rfl rfl 0 rfl (ix4 n i j d) ?_ ?_).trans ?_
  · intro b hb
    match b with
    | ⟨0, _⟩ => rfl
    | ⟨1, _⟩ => rfl
    | ⟨2, _⟩ => rfl
    | ⟨3, _⟩ => exact absurd (Fin.ext rfl) hb
  · show 0 + d.val = k.val
    omega
  refine (broadcastInDim_apply _ _ _ (ix4 n i j d) (ix4 n i (0 : Fin 1) d) ?_).trans ?_
  · intro a
    match a with
    | ⟨0, _⟩ => rfl
    | ⟨1, _⟩ => rfl
    | ⟨2, _⟩ => rfl
    | ⟨3, _⟩ => rfl
  exact broadcastInDim_apply _ _ X (ix4 n i (0 : Fin 1) d) (ix3 n i d) (fun a => by
    match a with
    | ⟨0, _⟩ => rfl
    | ⟨1, _⟩ => rfl
    | ⟨2, _⟩ => rfl)

/-- Entries 66–131 of a pair's row are object j. -/
theorem pairs_snd (X : FVec Ideal S64x64x66 .f32) (Q : FVec Ideal S64x256 .f32) (n i j : Fin 64) (d : Fin 66)
    (r : Fin 262144) (hr : r.val = (n.val * 64 + i.val) * 64 + j.val) (k : Fin 388) (hk : k.val = 66 + d.val) :
    Stages.pairs (F := Ideal) X Q (ix2 r k) = X (ix3 n j d) := by
  unfold Stages.pairs
  refine (shapeCast_apply _ _ (ix2 r k) (ix3 n (⟨i.val * 64 + j.val, by omega⟩ : Fin 4096) k) ?_).trans ?_
  · rw [Shape.rowMajor_val_three, Shape.rowMajor_val_two]
    show (n.val * 4096 + (i.val * 64 + j.val)) * 388 + k.val = r.val * 388 + k.val
    omega
  refine (shapeCast_apply _ _ (ix3 n (⟨i.val * 64 + j.val, by omega⟩ : Fin 4096) k) (ix4 n i j k) ?_).trans ?_
  · rw [Shape.rowMajor_val_four, Shape.rowMajor_val_three]
    show ((n.val * 64 + i.val) * 64 + j.val) * 388 + k.val = (n.val * 4096 + (i.val * 64 + j.val)) * 388 + k.val
    omega
  refine (concatenate_apply_piece _ _ _ (ix4 n i j k) 1 (by show 1 < 3; omega) S64x64x64x66 _ rfl rfl 66 rfl (ix4 n i j d) ?_ ?_).trans ?_
  · intro b hb
    match b with
    | ⟨0, _⟩ => rfl
    | ⟨1, _⟩ => rfl
    | ⟨2, _⟩ => rfl
    | ⟨3, _⟩ => exact absurd (Fin.ext rfl) hb
  · show 66 + d.val = k.val
    omega
  refine (broadcastInDim_apply _ _ _ (ix4 n i j d) (ix4 n (0 : Fin 1) j d) ?_).trans ?_
  · intro a
    match a with
    | ⟨0, _⟩ => rfl
    | ⟨1, _⟩ => rfl
    | ⟨2, _⟩ => rfl
    | ⟨3, _⟩ => rfl
  exact broadcastInDim_apply _ _ X (ix4 n (0 : Fin 1) j d) (ix3 n j d) (fun a => by
    match a with
    | ⟨0, _⟩ => rfl
    | ⟨1, _⟩ => rfl
    | ⟨2, _⟩ => rfl)

/-- Entries 132–387 of a pair's row are the question. -/
theorem pairs_thd (X : FVec Ideal S64x64x66 .f32) (Q : FVec Ideal S64x256 .f32) (n i j : Fin 64) (d : Fin 256)
    (r : Fin 262144) (hr : r.val = (n.val * 64 + i.val) * 64 + j.val) (k : Fin 388) (hk : k.val = 132 + d.val) :
    Stages.pairs (F := Ideal) X Q (ix2 r k) = Q (ix2 n d) := by
  unfold Stages.pairs
  refine (shapeCast_apply _ _ (ix2 r k) (ix3 n (⟨i.val * 64 + j.val, by omega⟩ : Fin 4096) k) ?_).trans ?_
  · rw [Shape.rowMajor_val_three, Shape.rowMajor_val_two]
    show (n.val * 4096 + (i.val * 64 + j.val)) * 388 + k.val = r.val * 388 + k.val
    omega
  refine (shapeCast_apply _ _ (ix3 n (⟨i.val * 64 + j.val, by omega⟩ : Fin 4096) k) (ix4 n i j k) ?_).trans ?_
  · rw [Shape.rowMajor_val_four, Shape.rowMajor_val_three]
    show ((n.val * 64 + i.val) * 64 + j.val) * 388 + k.val = (n.val * 4096 + (i.val * 64 + j.val)) * 388 + k.val
    omega
  refine (concatenate_apply_piece _ _ _ (ix4 n i j k) 2 (by show 2 < 3; omega) S64x64x64x256 _ rfl rfl 132 rfl (ix4 n i j d) ?_ ?_).trans ?_
  · intro b hb
    match b with
    | ⟨0, _⟩ => rfl
    | ⟨1, _⟩ => rfl
    | ⟨2, _⟩ => rfl
    | ⟨3, _⟩ => exact absurd (Fin.ext rfl) hb
  · show 132 + d.val = k.val
    omega
  refine (broadcastInDim_apply _ _ _ (ix4 n i j d) (ix4 n (0 : Fin 1) (0 : Fin 1) d) ?_).trans ?_
  · intro a
    match a with
    | ⟨0, _⟩ => rfl
    | ⟨1, _⟩ => rfl
    | ⟨2, _⟩ => rfl
    | ⟨3, _⟩ => rfl
  exact broadcastInDim_apply _ _ Q (ix4 n (0 : Fin 1) (0 : Fin 1) d) (ix2 n d) (fun a => by
    match a with
    | ⟨0, _⟩ => rfl
    | ⟨1, _⟩ => rfl)

/-- Row `(n · 64 + i) · 64 + j` of the pairs array is the row of the pair (i, j) of image `n`. -/
theorem pairs_apply (X : FVec Ideal S64x64x66 .f32) (Q : FVec Ideal S64x256 .f32) (n i j : Fin 64)
    (r : Fin 262144) (hr : r.val = (n.val * 64 + i.val) * 64 + j.val) (k : Fin 388) :
    Stages.pairs (F := Ideal) X Q (ix2 r k)
      = RelationNet.pairRow (fun d => X (ix3 n i d)) (fun d => X (ix3 n j d)) (fun k' => Q (ix2 n k')) k := by
  unfold RelationNet.pairRow
  by_cases h1 : k.val < 66
  · rw [dif_pos h1]
    exact pairs_fst X Q n i j ⟨k.val, h1⟩ r hr k rfl
  · rw [dif_neg h1]
    by_cases h2 : k.val < 132
    · rw [dif_pos h2]
      exact pairs_snd X Q n i j ⟨k.val - 66, by omega⟩ r hr k (by show k.val = 66 + (k.val - 66); omega)
    · rw [dif_neg h2]
      exact pairs_thd X Q n i j ⟨k.val - 132, by have := k.isLt; omega⟩ r hr k (by show k.val = 132 + (k.val - 132); omega)

/-! ## A dense layer, read at an index

The host's product with one contracted axis is, at row `r` and column `g`, the sum over the contracted coordinate of
the row's entry times the weight's; the bias is broadcast to every row; the rectifier is the maximum with the zero
word's value. So row `r` of a layer's output is `RelationNet.dense` of row `r` of its input. -/

/-- The first layer's product read at an index: the sum over the 388 entries of the row. -/
theorem dot388_apply (P : FVec Ideal S262144x388 .f32) (W : FVec Ideal S388x256 .f32) (r : Fin 262144) (g : Fin 256) :
    Host.dotGeneral (F := Ideal) dot_S262144x388_S388x256_S262144x256_1_0_0_1_n_n none P W (ix2 r g)
      = ∑ k : Fin 388, P (ix2 r k) * W (ix2 k g) := by
  show FloatOps.dotGeneral dot_S262144x388_S388x256_S262144x256_1_0_0_1_n_n none .single P W (ix2 r g) = _
  rw [Ideal.dotGeneral_apply,
    ← Equiv.sum_comp (contrEquiv1 dot_S262144x388_S388x256_S262144x256_1_0_0_1_n_n 388 rfl rfl).symm]
  refine Finset.sum_congr rfl fun k _ => ?_
  refine congrArg₂ (· * ·) (congrArg P (funext fun a => ?_)) (congrArg W (funext fun a => ?_))
  · match a with
    | ⟨0, _⟩ => exact Fin.ext rfl
    | ⟨1, _⟩ =>
      exact Fin.ext ((DotDims.lhsIdx_val_of_single _ rfl _ _).trans
        (contrEquiv1_symm_val dot_S262144x388_S388x256_S262144x256_1_0_0_1_n_n 388 rfl rfl k))
  · match a with
    | ⟨0, _⟩ =>
      exact Fin.ext ((DotDims.rhsIdx_val_of_single _ rfl _ _).trans
        (contrEquiv1_symm_val dot_S262144x388_S388x256_S262144x256_1_0_0_1_n_n 388 rfl rfl k))
    | ⟨1, _⟩ => exact Fin.ext rfl

/-- A later layer's product read at an index: the sum over the 256 entries of the row. -/
theorem dot256_apply (H : FVec Ideal S262144x256 .f32) (W : FVec Ideal S256x256 .f32) (r : Fin 262144) (g : Fin 256) :
    Host.dotGeneral (F := Ideal) dot_S262144x256_S256x256_S262144x256_1_0_0_1_n_n none H W (ix2 r g)
      = ∑ k : Fin 256, H (ix2 r k) * W (ix2 k g) := by
  show FloatOps.dotGeneral dot_S262144x256_S256x256_S262144x256_1_0_0_1_n_n none .single H W (ix2 r g) = _
  rw [Ideal.dotGeneral_apply,
    ← Equiv.sum_comp (contrEquiv1 dot_S262144x256_S256x256_S262144x256_1_0_0_1_n_n 256 rfl rfl).symm]
  refine Finset.sum_congr rfl fun k _ => ?_
  refine congrArg₂ (· * ·) (congrArg H (funext fun a => ?_)) (congrArg W (funext fun a => ?_))
  · match a with
    | ⟨0, _⟩ => exact Fin.ext rfl
    | ⟨1, _⟩ =>
      exact Fin.ext ((DotDims.lhsIdx_val_of_single _ rfl _ _).trans
        (contrEquiv1_symm_val dot_S262144x256_S256x256_S262144x256_1_0_0_1_n_n 256 rfl rfl k))
  · match a with
    | ⟨0, _⟩ =>
      exact Fin.ext ((DotDims.rhsIdx_val_of_single _ rfl _ _).trans
        (contrEquiv1_symm_val dot_S262144x256_S256x256_S262144x256_1_0_0_1_n_n 256 rfl rfl k))
    | ⟨1, _⟩ => exact Fin.ext rfl

/-- The bias broadcast to every row reads, at `(r, g)`, the bias at `g`. -/
theorem bias_apply (b : FVec Ideal S256 .f32) (r : Fin 262144) (g : Fin 256) :
    broadcastInDim S262144x256 ![0, 1] bcast_S1x256_S262144x256_0_1 (broadcastInDim S1x256 ![1] bcast_S256_S1x256_1 b) (ix2 r g)
      = b (ix1 g) := by
  refine (broadcastInDim_apply _ _ _ (ix2 r g) (ix2 (0 : Fin 1) g) ?_).trans ?_
  · intro a
    match a with
    | ⟨0, _⟩ => rfl
    | ⟨1, _⟩ => rfl
  exact broadcastInDim_apply _ _ b (ix2 (0 : Fin 1) g) (ix1 g) (fun a => by
    match a with
    | ⟨0, _⟩ => rfl)

/-- The rectifier read at an index: the maximum with the zero word's value. -/
theorem relu_apply (x : FVec Ideal S262144x256 .f32) (i : S262144x256.Idx) :
    Stages.relu (F := Ideal) x i = max (x i) RelationNet.zeroW := rfl

/-- Row `r` of the first layer's output is the dense layer on row `r` of its input. -/
theorem layer1_apply (P : FVec Ideal S262144x388 .f32) (W : FVec Ideal S388x256 .f32) (b : FVec Ideal S256 .f32)
    (r : Fin 262144) (g : Fin 256) :
    Stages.layer1 (F := Ideal) P W b (ix2 r g)
      = RelationNet.dense (fun k g' => W (ix2 k g')) (fun g' => b (ix1 g')) (fun k => P (ix2 r k)) g := by
  unfold Stages.layer1 RelationNet.dense
  rw [relu_apply, addf_apply, dot388_apply, bias_apply]

/-- Row `r` of a later layer's output is the dense layer on row `r` of its input. -/
theorem layer_apply (H : FVec Ideal S262144x256 .f32) (W : FVec Ideal S256x256 .f32) (b : FVec Ideal S256 .f32)
    (r : Fin 262144) (g : Fin 256) :
    Stages.layer (F := Ideal) H W b (ix2 r g)
      = RelationNet.dense (fun k g' => W (ix2 k g')) (fun g' => b (ix1 g')) (fun k => H (ix2 r k)) g := by
  unfold Stages.layer RelationNet.dense
  rw [relu_apply, addf_apply, dot256_apply, bias_apply]

/-! ## The mean over an image's rows

The rows regrouped by image keep their row-major position, so row `p` of image `n` is flat row `n · 4096 + p`; the
host's sum over the middle axis starts from the zero word's value, which is `0`, and the quotient is by the word
4096.0's value. -/

/-- The mean at `(n, g)`: the sum over the 4096 rows of image `n`, divided. -/
theorem meanRows_apply (H : FVec Ideal S262144x256 .f32) (n : Fin 64) (g : Fin 256) :
    Stages.meanRows (F := Ideal) H (ix2 n g)
      = Ideal.div (∑ p : Fin 4096, H (ix2 (⟨n.val * 4096 + p.val, by omega⟩ : Fin 262144) g)) RelationNet.pairsW := by
  unfold Stages.meanRows
  show Ideal.div (Ideal.hostReduceAdd reducesTo_S64x4096x256_S64x256_d1
      (shapeCast S64x4096x256 H shapeCasts_S262144x256_S64x4096x256) (Ideal.ofBits .f32 0x00000000#32) (ix2 n g))
    RelationNet.pairsW = _
  rw [Ideal.hostReduceAdd_single _ (by decide : S64x4096x256.Reduces [1] S64x256), Ideal.ofBits_zero_f32, zero_add]
  refine congrArg (Ideal.div · RelationNet.pairsW) (Finset.sum_congr rfl fun (p : Fin 4096) _ => ?_)
  refine shapeCast_apply H _ _ (ix2 (⟨n.val * 4096 + p.val, by omega⟩ : Fin 262144) g) ?_
  rw [Shape.rowMajor_val_two, Shape.rowMajor_val_three]
  rfl

/-! ## The context array, read at an index -/

/-- The reference's context at `(n, g)` is the specification's context of image `n` at `g`: flat row `n · 4096 + p`
    is pair `p = i · 64 + j` of image `n`, each layer acts row by row, and the mean is the sum over `p` divided. -/
theorem contextOf_apply (X : FVec Ideal S64x64x66 .f32) (Q : FVec Ideal S64x256 .f32) (W1 : FVec Ideal S388x256 .f32)
    (b1 : FVec Ideal S256 .f32) (W2 : FVec Ideal S256x256 .f32) (b2 : FVec Ideal S256 .f32) (W3 : FVec Ideal S256x256 .f32)
    (b3 : FVec Ideal S256 .f32) (W4 : FVec Ideal S256x256 .f32) (b4 : FVec Ideal S256 .f32) (n : Fin 64) (g : Fin 256) :
    Stages.contextOf (F := Ideal) X Q W1 b1 W2 b2 W3 b3 W4 b4 (ix2 n g)
      = RelationNet.context (fun o d => X (ix3 n o d)) (fun k => Q (ix2 n k)) (fun k g' => W1 (ix2 k g'))
          (fun g' => b1 (ix1 g')) (fun k g' => W2 (ix2 k g')) (fun g' => b2 (ix1 g')) (fun k g' => W3 (ix2 k g'))
          (fun g' => b3 (ix1 g')) (fun k g' => W4 (ix2 k g')) (fun g' => b4 (ix1 g')) g := by
  unfold Stages.contextOf RelationNet.context RelationNet.upper
  rw [meanRows_apply]
  refine congrArg (Ideal.div · RelationNet.pairsW) (Finset.sum_congr rfl fun p _ => ?_)
  rw [layer_apply]
  refine congrFun (congrArg (RelationNet.dense _ _) (funext fun k4 => ?_)) g
  rw [layer_apply]
  refine congrFun (congrArg (RelationNet.dense _ _) (funext fun k3 => ?_)) k4
  rw [layer_apply]
  refine congrFun (congrArg (RelationNet.dense _ _) (funext fun k2 => ?_)) k3
  rw [layer1_apply]
  refine congrFun (congrArg (RelationNet.dense _ _) (funext fun k1 => ?_)) k2
  exact pairs_apply X Q n (RelationNet.fstOf p) (RelationNet.sndOf p) _
    (by show n.val * 4096 + p.val = (n.val * 64 + p.val / 64) * 64 + p.val % 64; omega) k1

end Cert.ReferenceIdeal.RefValue

end
-- ==== Proof.KernelBridge.lean ====
/-
  The kernel's result array, regrouped, is the reference's context array.

  After the run the kernel's result array [64, 1, 256] holds, at `(n, 0, g)`, the kernel's arrangement of the context of
  image `n` (`RelationNet.blockContext`) of the arrays the region finds: the two selector matrices, the object table and
  the question narrowed to the short format, the first weights cut into its rows 0–65, 66–131 and 132–387, and the
  later weights, each narrowed. On the ideal values a narrowing of the format is the identity; the question's
  regrouping [64, 256] → [64, 1, 256] and the result's [64, 1, 256] → [64, 256] keep the row-major position; a cut along
  the rows from `o` reads row `o + d`; and the selector matrices are the 0/1 matrices of `p / 64` and `p % 64`. So the
  kernel's arrangement is the specified context (`RelationNet.blockContext_eq_context`), which is what the reference's
  context array reads at `(n, g)` (`contextOf_apply`).
-/
import proofs.«166647_j42898133353091_2_alg».proof.Proof.KernelBlocks
import proofs.«166647_j42898133353091_2_alg».proof.Proof.KernelArrayTable
import proofs.«166647_j42898133353091_2_alg».proof.Proof.KernelArrays
import proofs.«166647_j42898133353091_2_alg».proof.Proof.KernelSelectors
import proofs.«166647_j42898133353091_2_alg».proof.Proof.SpecBridge
import proofs.«166647_j42898133353091_2_alg».proof.Proof.RefContext
import proofs.«166647_j42898133353091_2_alg».proof.Proof.RefShared
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx RelationNet

variable [Cert.ReferenceIdeal.Facts]

/-! ## The kernel's arrangement on the arrays it is given

Over arbitrary arrays: the object table and the question read at image `n` (the question through its regrouping
[64, 256] → [64, 1, 256]), the first weights cut into its rows 0–65, 66–131 and 132–387, every narrowing of the format
the identity on the ideal values, and the two selector matrices the 0/1 matrices of `p / 64` and `p % 64`. Then the
kernel's context of image `n` is the reference's context array at row `n`. -/

theorem blockContext_arrays (Xt : FVec Ideal S64x64x66 .f32) (A1 : FVec Ideal S64x256 .f32) (A2 : FVec Ideal S388x256 .f32)
    (A3 : FVec Ideal S256 .f32) (A4 : FVec Ideal S256x256 .f32) (A5 : FVec Ideal S256 .f32) (A6 : FVec Ideal S256x256 .f32)
    (A7 : FVec Ideal S256 .f32) (A8 : FVec Ideal S256x256 .f32) (A9 : FVec Ideal S256 .f32) (n : Fin 64) (g : Fin 256) :
    blockContext (fun p j => Selectors.selector (F := Ideal) Selectors.quotients (ix2 p j))
        (fun p j => Selectors.selector (F := Ideal) Selectors.remainders (ix2 p j))
        (fun o d => (truncf .bf16 Xt bitsLt_bf16_f32 : FVec Ideal S64x64x66 .bf16) (ix3 n o d))
        (fun k => (shapeCast S64x1x256 (truncf .bf16 A1 bitsLt_bf16_f32 : FVec Ideal S64x256 .bf16) shapeCasts_S64x256_S64x1x256
          : FVec Ideal S64x1x256 .bf16) (ix3 n (0 : Fin 1) k))
        (fun d g' => (truncf .bf16 (extractStridedSlice S66x256 ![0, 0] A2 slices_S388x256_S66x256_0_0) bitsLt_bf16_f32
          : FVec Ideal S66x256 .bf16) (ix2 d g'))
        (fun d g' => (truncf .bf16 (extractStridedSlice S66x256 ![66, 0] A2 slices_S388x256_S66x256_66_0) bitsLt_bf16_f32
          : FVec Ideal S66x256 .bf16) (ix2 d g'))
        (fun k g' => (truncf .bf16 (extractStridedSlice S256x256 ![132, 0] A2 slices_S388x256_S256x256_132_0) bitsLt_bf16_f32
          : FVec Ideal S256x256 .bf16) (ix2 k g'))
        (fun g' => A3 (ix1 g')) (fun k g' => (truncf .bf16 A4 bitsLt_bf16_f32 : FVec Ideal S256x256 .bf16) (ix2 k g'))
        (fun g' => A5 (ix1 g')) (fun k g' => (truncf .bf16 A6 bitsLt_bf16_f32 : FVec Ideal S256x256 .bf16) (ix2 k g'))
        (fun g' => A7 (ix1 g')) (fun k g' => (truncf .bf16 A8 bitsLt_bf16_f32 : FVec Ideal S256x256 .bf16) (ix2 k g'))
        (fun g' => A9 (ix1 g')) g
      = Cert.ReferenceIdeal.Stages.contextOf (F := Ideal) Xt A1 A2 A3 A4 A5 A6 A7 A8 A9 (ix2 n g) := by
  rw [Cert.ReferenceIdeal.RefValue.contextOf_apply]
  have hq : (fun k : Fin 256 => (shapeCast S64x1x256 (truncf .bf16 A1 bitsLt_bf16_f32 : FVec Ideal S64x256 .bf16)
      shapeCasts_S64x256_S64x1x256 : FVec Ideal S64x1x256 .bf16) (ix3 n (0 : Fin 1) k)) = fun k => A1 (ix2 n k) := by
    funext k
    refine shapeCast_apply _ _ (ix3 n (0 : Fin 1) k) (ix2 n k) ?_
    rw [Shape.rowMajor_val_two, Shape.rowMajor_val_three]
    show n.val * 256 + k.val = (n.val * 1 + 0) * 256 + k.val
    omega
  have hwi : (fun (d : Fin 66) (g' : Fin 256) => (truncf .bf16 (extractStridedSlice S66x256 ![0, 0] A2 slices_S388x256_S66x256_0_0)
      bitsLt_bf16_f32 : FVec Ideal S66x256 .bf16) (ix2 d g')) = fun d g' => A2 (ix2 (⟨d.val, by omega⟩ : Fin 388) g') := by
    funext d g'
    exact slice2_axis0_apply 0 A2 slices_S388x256_S66x256_0_0 d g' ⟨d.val, by omega⟩ (Nat.zero_add _).symm
  have hwj : (fun (d : Fin 66) (g' : Fin 256) => (truncf .bf16 (extractStridedSlice S66x256 ![66, 0] A2 slices_S388x256_S66x256_66_0)
      bitsLt_bf16_f32 : FVec Ideal S66x256 .bf16) (ix2 d g')) = fun d g' => A2 (ix2 (⟨66 + d.val, by omega⟩ : Fin 388) g') := by
    funext d g'
    exact slice2_axis0_apply 66 A2 slices_S388x256_S66x256_66_0 d g' ⟨66 + d.val, by omega⟩ rfl
  have hwq : (fun (k : Fin 256) (g' : Fin 256) => (truncf .bf16 (extractStridedSlice S256x256 ![132, 0] A2 slices_S388x256_S256x256_132_0)
      bitsLt_bf16_f32 : FVec Ideal S256x256 .bf16) (ix2 k g')) = fun k g' => A2 (ix2 (⟨132 + k.val, by omega⟩ : Fin 388) g') := by
    funext k g'
    exact slice2_axis0_apply 132 A2 slices_S388x256_S256x256_132_0 k g' ⟨132 + k.val, by omega⟩ rfl
  rw [hq, hwi, hwj, hwq]
  exact congrFun (blockContext_eq_context (fun p j => Selectors.selector (F := Ideal) Selectors.quotients (ix2 p j))
    (fun p j => Selectors.selector (F := Ideal) Selectors.remainders (ix2 p j))
    (fun p k => Selectors.selector_quotients_apply p k) (fun p k => Selectors.selector_remainders_apply p k)
    (fun o d => Xt (ix3 n o d)) (fun k => A1 (ix2 n k)) (fun k g' => A2 (ix2 k g')) (fun g' => A3 (ix1 g'))
    (fun k g' => A4 (ix2 k g')) (fun g' => A5 (ix1 g')) (fun k g' => A6 (ix2 k g')) (fun g' => A7 (ix1 g'))
    (fun k g' => A8 (ix2 k g')) (fun g' => A9 (ix1 g'))) g

/-! ## The kernel's result array, regrouped, is the reference's context array -/

/-- The regrouping [64, 1, 256] → [64, 256] read at `(n, g)` is the operand at `(n, 0, g)`. -/
theorem shapeCast_n1g {α : Type} (x : S64x1x256.Idx → α) (n : Fin 64) (g : Fin 256) :
    shapeCast S64x256 x shapeCasts_S64x1x256_S64x256 (ix2 n g) = x (ix3 n (0 : Fin 1) g) := by
  refine shapeCast_apply x _ (ix2 n g) (ix3 n (0 : Fin 1) g) ?_
  rw [Shape.rowMajor_val_three, Shape.rowMajor_val_two]
  show (n.val * 1 + 0) * 256 + g.val = n.val * 256 + g.val
  omega

/-- The kernel's result array [64, 1, 256], regrouped to [64, 256], is the reference's context array of the object
    table built from the feature maps, the question and the four layers' weights and biases as launched. -/
theorem context_bridge (m : (ℓ : Loc nD τ sig) → Buf (Elt Ideal) ℓ) (c : Dev nD) :
    (shapeCast S64x256 (contextArray m c) shapeCasts_S64x1x256_S64x256 : FVec Ideal S64x256 .f32)
      = Cert.ReferenceIdeal.Stages.contextOf (F := Ideal)
          (Cert.ReferenceIdeal.Shared.objects (F := Ideal) (m ((c : Thread nD τ).loc main_arg0)))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  funext i
  obtain ⟨n, g, rfl⟩ : ∃ (n : Fin 64) (g : Fin 256), i = ix2 n g := ⟨i 0, i 1, eq_ix2 i⟩
  rw [shapeCast_n1g]
  unfold contextArray
  rw [V_sel_i (m := m) c, V_sel_j (m := m) c, V_objects (m := m) c, V_ques (m := m) c, V_w1i (m := m) c, V_w1j (m := m) c,
    V_w1q (m := m) c, V_w2 (m := m) c, V_w3 (m := m) c, V_w4 (m := m) c,
    V_main_arg3 m c, V_main_arg5 m c, V_main_arg7 m c, V_main_arg9 m c]
  exact blockContext_arrays _ _ _ _ _ _ _ _ _ _ n g

end Cert.KernelIdeal.KValue

end
-- ==== Proof.KernelRun.lean ====
/-
  The kernel's program run, with its result named.

  The generated frame run ends with every array of the pipeline at what the proof data computes and every other buffer
  as the operations after the region leave it. Read at the result buffer: those operations are the shared `tail` of
  the region's result array (regrouped) and the last six arguments; the result array is the context array, which
  regrouped is the reference's context array of the arguments; the arguments are as launched.
-/
import proofs.«166647_j42898133353091_2_alg».proof.Proof.KernelBlocks
import proofs.«166647_j42898133353091_2_alg».proof.Proof.KernelTail
import proofs.«166647_j42898133353091_2_alg».proof.Proof.KernelBridge

noncomputable section

namespace Cert.KernelIdeal.KValue

open Cert.KernelIdeal Cert.KernelIdeal.Gen Idealize.ShloMosaic Idealize.ShloMosaic.TcCoe Idealize.SL.Sem Idealize.ShloMosaic.ValueIdx RelationNet
open Idealize.ShloMosaic.Pipeline (Dat)

variable [Cert.ReferenceIdeal.Facts]

variable (m : (ℓ : Loc nD τ sig) → Buf (Elt Ideal) ℓ) (ρ : Dev nD → PrngReg)

/-- The result buffer after the run: the operations after the region applied to the region's arrays and the contents
    at its entry. The result array is the context array (the 64 blocks cover it), which regrouped is the reference's
    context array; the last six arguments are as launched; so the result is the shared tail of the reference's context. -/
theorem result_eq (c : Dev nD) :
    Pipeline.afterTail₀ cfgs (dats m) 0 (V0 m) [hostOps1, hostOps1_1, hostOps1_2, hostOps1_3, hostOps1_4, hostOps1_5] c main_v44
      = Cert.ReferenceIdeal.Shared.tail (F := Ideal)
          (Cert.ReferenceIdeal.Stages.contextOf (F := Ideal) (Cert.ReferenceIdeal.Shared.objects (F := Ideal) (m ((c : Thread nD τ).loc main_arg0)))
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9)))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) := by
  unfold Pipeline.afterTail₀
  refine (tail_fold _).trans ?_
  have harr : Pipeline.withArrays (cfgs 0).spec c (V0 m c) (fun w => (dats m 0 c).arrAt w (cfgs 0).N) (Proc.devRef .tc main_v28)
      = contextArray m c :=
    (Pipeline.withArrays_arr spec0 launch0.win.arr_inj c _ _ 14).trans (final m c)
  have h10 : Pipeline.withArrays (cfgs 0).spec c (V0 m c) (fun w => (dats m 0 c).arrAt w (cfgs 0).N) (Proc.devRef .tc main_arg10)
      = m ((c : Thread nD τ).loc main_arg10) :=
    (Pipeline.withArrays_of_ne _ c (V0 m c) _ main_arg10 (by exact (by decide : ∀ w, Pipeline.arrRef spec0 w ≠ main_arg10))).trans (V_main_arg10 m c)
  have h11 : Pipeline.withArrays (cfgs 0).spec c (V0 m c) (fun w => (dats m 0 c).arrAt w (cfgs 0).N) (Proc.devRef .tc main_arg11)
      = m ((c : Thread nD τ).loc main_arg11) :=
    (Pipeline.withArrays_of_ne _ c (V0 m c) _ main_arg11 (by exact (by decide : ∀ w, Pipeline.arrRef spec0 w ≠ main_arg11))).trans (V_main_arg11 m c)
  have h12 : Pipeline.withArrays (cfgs 0).spec c (V0 m c) (fun w => (dats m 0 c).arrAt w (cfgs 0).N) (Proc.devRef .tc main_arg12)
      = m ((c : Thread nD τ).loc main_arg12) :=
    (Pipeline.withArrays_of_ne _ c (V0 m c) _ main_arg12 (by exact (by decide : ∀ w, Pipeline.arrRef spec0 w ≠ main_arg12))).trans (V_main_arg12 m c)
  have h13 : Pipeline.withArrays (cfgs 0).spec c (V0 m c) (fun w => (dats m 0 c).arrAt w (cfgs 0).N) (Proc.devRef .tc main_arg13)
      = m ((c : Thread nD τ).loc main_arg13) :=
    (Pipeline.withArrays_of_ne _ c (V0 m c) _ main_arg13 (by exact (by decide : ∀ w, Pipeline.arrRef spec0 w ≠ main_arg13))).trans (V_main_arg13 m c)
  have h14 : Pipeline.withArrays (cfgs 0).spec c (V0 m c) (fun w => (dats m 0 c).arrAt w (cfgs 0).N) (Proc.devRef .tc main_arg14)
      = m ((c : Thread nD τ).loc main_arg14) :=
    (Pipeline.withArrays_of_ne _ c (V0 m c) _ main_arg14 (by exact (by decide : ∀ w, Pipeline.arrRef spec0 w ≠ main_arg14))).trans (V_main_arg14 m c)
  have h15 : Pipeline.withArrays (cfgs 0).spec c (V0 m c) (fun w => (dats m 0 c).arrAt w (cfgs 0).N) (Proc.devRef .tc main_arg15)
      = m ((c : Thread nD τ).loc main_arg15) :=
    (Pipeline.withArrays_of_ne _ c (V0 m c) _ main_arg15 (by exact (by decide : ∀ w, Pipeline.arrRef spec0 w ≠ main_arg15))).trans (V_main_arg15 m c)
  rw [harr, h10, h11, h12, h13, h14, h15, context_bridge m c]

/-- The kernel's program at the ideal values: every weakly fair execution terminates with the result at the shared
    tail of the reference's context of the arguments, and the arguments unchanged. -/
theorem run : θ_run defs (onTc (τ := τ) (main (F := Ideal))) ⟨m, fun _ => 0, ρ⟩ fun r => ∀ c : Dev nD,
      r.2.mem ((c : Thread nD τ).loc main_v44) = Cert.ReferenceIdeal.Shared.tail (F := Ideal)
          (Cert.ReferenceIdeal.Stages.contextOf (F := Ideal) (Cert.ReferenceIdeal.Shared.objects (F := Ideal) (m ((c : Thread nD τ).loc main_arg0)))
            (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9)))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨((h c).2 main_v44 (Pipeline.mem_restRefs_of main_v44 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 7).trans (((dats m 0 c).arrAt_in 7 rfl _).trans ((A_eq m c 7).trans (V_main_arg3 m c))),
      (((h c).2 main_arg4 (Pipeline.mem_restRefs_of main_arg4 (by decide) (by decide))).trans (W_main_arg4 m (dats m) c)),
      ((h c).1 9).trans (((dats m 0 c).arrAt_in 9 rfl _).trans ((A_eq m c 9).trans (V_main_arg5 m c))),
      (((h c).2 main_arg6 (Pipeline.mem_restRefs_of main_arg6 (by decide) (by decide))).trans (W_main_arg6 m (dats m) c)),
      ((h c).1 11).trans (((dats m 0 c).arrAt_in 11 rfl _).trans ((A_eq m c 11).trans (V_main_arg7 m c))),
      (((h c).2 main_arg8 (Pipeline.mem_restRefs_of main_arg8 (by decide) (by decide))).trans (W_main_arg8 m (dats m) c)),
      ((h c).1 13).trans (((dats m 0 c).arrAt_in 13 rfl _).trans ((A_eq m c 13).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩) (run_main m ρ)

end Cert.KernelIdeal.KValue

end
-- ==== Proof.RefOps.lean ====
/-
  The reference's @main as a list of its 125 host operations — the bodies of the functions it calls written out at
  the calls, over each call's record of buffers — in three consecutive stretches: the 49 that build the object table
  (`main_v10`), the 43 from there to the context (`main_v43`), and the 33 of the small network and the logarithm
  of the softmax after it (`main_v58`). @main is that straight line, so every fair execution terminates with each
  buffer at the fold of the operations' results over its launch contents.
-/
import proofs.«166647_j42898133353091_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The operations %0 … %10 with the calls of @floor_divide and @remainder between: from `main_arg0` to the object
    table `main_v10`. -/
abbrev opsA : List (HloOp τ sig (Elt F)) :=
  [ StableHlo.reshape main_arg0 main_v0 rfl shapeCasts_S64x64x8x8_S64x64x64,
    StableHlo.nullary main_v1 (iotaInDim S64 32 0),
    StableHlo.nullary main_c (constantI S_ 32 8#32),
    StableHlo.TRef.unary (.of main_c : StableHlo.TRef sig ⟨S_, .i32⟩) main_call0.v0 id,
    StableHlo.TRef.unary main_call0.v0 main_call0.v1 (broadcastInDim S64 ![] bcast_S_S64),
    StableHlo.TRef.binary (.of main_v1 : StableHlo.TRef sig ⟨S64, .i32⟩) main_call0.v1 main_call0.v2 Host.divsi,
    StableHlo.TRef.unary (.of main_v1 : StableHlo.TRef sig ⟨S64, .i32⟩) main_call0.v3 signi,
    StableHlo.TRef.unary main_call0.v0 main_call0.v4 signi,
    StableHlo.TRef.unary main_call0.v4 main_call0.v5 (broadcastInDim S64 ![] bcast_S_S64),
    StableHlo.TRef.binary main_call0.v3 main_call0.v5 main_call0.v6 (cmpi .ne),
    StableHlo.TRef.unary main_call0.v0 main_call0.v7 (broadcastInDim S64 ![] bcast_S_S64),
    StableHlo.TRef.binary (.of main_v1 : StableHlo.TRef sig ⟨S64, .i32⟩) main_call0.v7 main_call0.v8 Host.remsi,
    StableHlo.TRef.nullary main_call0.c (constantI S_ 32 0#32),
    StableHlo.TRef.unary main_call0.c main_call0.v9 (broadcastInDim S64 ![] bcast_S_S64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S64 ![] bcast_S_S64),
    StableHlo.TRef.binary main_call0.v2 main_call0.v12 main_call0.v13 subi,
    StableHlo.TRef.ternary main_call0.v11 main_call0.v13 main_call0.v2 main_call0.call0.v0 select,
    StableHlo.nullary main_c_0 (constantI S_ 32 8#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S64 ![] bcast_S_S64),
    StableHlo.TRef.binary (.of main_v1 : StableHlo.TRef sig ⟨S64, .i32⟩) main_call1.v3 main_call1.v4 Host.remsi,
    StableHlo.TRef.nullary main_call1.c_1 (constantI S_ 32 0#32),
    StableHlo.TRef.unary main_call1.c_1 main_call1.v5 (broadcastInDim S64 ![] bcast_S_S64),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S64 ![] bcast_S_S64),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S64 ![] bcast_S_S64),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S64 ![] bcast_S_S64),
    StableHlo.TRef.binary main_call1.v4 main_call1.v13 main_call1.v14 addi,
    StableHlo.TRef.ternary main_call1.v12 main_call1.v14 main_call1.v4 main_call1.v15 select,
    StableHlo.unary main_v2 main_v4 (broadcastInDim S1x64 ![1] bcast_S64_S1x64_1 : (⟨S64, .i32⟩ : BufTy).Contents (Elt F) → (⟨S1x64, .i32⟩ : BufTy).Contents (Elt F)),
    StableHlo.unary main_v3 main_v5 (broadcastInDim S1x64 ![1] bcast_S64_S1x64_1 : (⟨S64, .i32⟩ : BufTy).Contents (Elt F) → (⟨S1x64, .i32⟩ : BufTy).Contents (Elt F)),
    StableHlo.binary main_v4 main_v5 main_v6 ((fun a b => concatenate S2x64 0 [⟨S1x64, a⟩, ⟨S1x64, b⟩] concatenates_S1x64_S1x64_S2x64_d0) : (⟨S1x64, .i32⟩ : BufTy).Contents (Elt F) → (⟨S1x64, .i32⟩ : BufTy).Contents (Elt F) → (⟨S2x64, .i32⟩ : BufTy).Contents (Elt F)),
    StableHlo.unary main_v6 main_v7 (sitofp .f32 : (⟨S2x64, .i32⟩ : BufTy).Contents (Elt F) → (⟨S2x64, .f32⟩ : BufTy).Contents (Elt F)),
    StableHlo.unary main_v7 main_v8 (broadcastInDim S64x2x64 ![1, 2] bcast_S2x64_S64x2x64_1_2 : (⟨S2x64, .f32⟩ : BufTy).Contents (Elt F) → (⟨S64x2x64, .f32⟩ : BufTy).Contents (Elt F)),
    StableHlo.binary main_v0 main_v8 main_v9 ((fun a b => concatenate S64x66x64 1 [⟨S64x64x64, a⟩, ⟨S64x2x64, b⟩] concatenates_S64x64x64_S64x2x64_S64x66x64_d1) : (⟨S64x64x64, .f32⟩ : BufTy).Contents (Elt F) → (⟨S64x2x64, .f32⟩ : BufTy).Contents (Elt F) → (⟨S64x66x64, .f32⟩ : BufTy).Contents (Elt F)),
    StableHlo.unary main_v9 main_v10 ((transpose S64x64x66 [0, 2, 1] · transposes_S64x66x64_S64x64x66_0_2_1) : (⟨S64x66x64, .f32⟩ : BufTy).Contents (Elt F) → (⟨S64x64x66, .f32⟩ : BufTy).Contents (Elt F)) ]

/-- The operations %11 … %43 with the four calls of @relu: from the object table, the question and the four layers'
    weights to the context `main_v43`. -/
abbrev opsB : List (HloOp τ sig (Elt F)) :=
  [ StableHlo.unary main_v10 main_v11 (broadcastInDim S64x64x1x66 ![0, 1, 3] bcast_S64x64x66_S64x64x1x66_0_1_3 : (⟨S64x64x66, .f32⟩ : BufTy).Contents (Elt F) → (⟨S64x64x1x66, .f32⟩ : BufTy).Contents (Elt F)),
    StableHlo.unary main_v11 main_v12 (broadcastInDim S64x64x64x66 ![0, 1, 2, 3] bcast_S64x64x1x66_S64x64x64x66_0_1_2_3 : (⟨S64x64x1x66, .f32⟩ : BufTy).Contents (Elt F) → (⟨S64x64x64x66, .f32⟩ : BufTy).Contents (Elt F)),
    StableHlo.unary main_v10 main_v13 (broadcastInDim S64x1x64x66 ![0, 2, 3] bcast_S64x64x66_S64x1x64x66_0_2_3 : (⟨S64x64x66, .f32⟩ : BufTy).Contents (Elt F) → (⟨S64x1x64x66, .f32⟩ : BufTy).Contents (Elt F)),
    StableHlo.unary main_v13 main_v14 (broadcastInDim S64x64x64x66 ![0, 1, 2, 3] bcast_S64x1x64x66_S64x64x64x66_0_1_2_3 : (⟨S64x1x64x66, .f32⟩ : BufTy).Contents (Elt F) → (⟨S64x64x64x66, .f32⟩ : BufTy).Contents (Elt F)),
    StableHlo.unary main_arg1 main_v15 (broadcastInDim S64x1x1x256 ![0, 3] bcast_S64x256_S64x1x1x256_0_3 : (⟨S64x256, .f32⟩ : BufTy).Contents (Elt F) → (⟨S64x1x1x256, .f32⟩ : BufTy).Contents (Elt F)),
    StableHlo.unary main_v15 main_v16 (broadcastInDim S64x64x64x256 ![0, 1, 2, 3] bcast_S64x1x1x256_S64x64x64x256_0_1_2_3 : (⟨S64x1x1x256, .f32⟩ : BufTy).Contents (Elt F) → (⟨S64x64x64x256, .f32⟩ : BufTy).Contents (Elt F)),
    StableHlo.nary ![main_v12, main_v14, main_v16] main_v17 (fun u => concatenate S64x64x64x388 3 [⟨S64x64x64x66, u 0⟩, ⟨S64x64x64x66, u 1⟩, ⟨S64x64x64x256, u 2⟩] concatenates_S64x64x64x66_S64x64x64x66_S64x64x64x256_S64x64x64x388_d3),
    StableHlo.reshape main_v17 main_v18 rfl shapeCasts_S64x64x64x388_S64x4096x388,
    StableHlo.reshape main_v18 main_v19 rfl shapeCasts_S64x4096x388_S262144x388,
    StableHlo.binary main_v19 main_arg2 main_v20 ((fun l r => Host.dotGeneral dot_S262144x388_S388x256_S262144x256_1_0_0_1_n_n none l r) : (⟨S262144x388, .f32⟩ : BufTy).Contents (Elt F) → (⟨S388x256, .f32⟩ : BufTy).Contents (Elt F) → (⟨S262144x256, .f32⟩ : BufTy).Contents (Elt F)),
    StableHlo.unary main_arg3 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S262144x256 ![0, 1] bcast_S1x256_S262144x256_0_1 : (⟨S1x256, .f32⟩ : BufTy).Contents (Elt F) → (⟨S262144x256, .f32⟩ : BufTy).Contents (Elt F)),
    StableHlo.binary main_v20 main_v22 main_v23 (addf : (⟨S262144x256, .f32⟩ : BufTy).Contents (Elt F) → (⟨S262144x256, .f32⟩ : BufTy).Contents (Elt F) → (⟨S262144x256, .f32⟩ : BufTy).Contents (Elt F)),
    StableHlo.TRef.nullary main_call2.cst (constant S_ .f32 0x00000000#32),
    StableHlo.TRef.unary main_call2.cst main_call2.v0 (broadcastInDim S262144x256 ![] bcast_S_S262144x256),
    StableHlo.TRef.binary (.of main_v23 : StableHlo.TRef sig ⟨S262144x256, .f32⟩) main_call2.v0 main_call2.v1 maximumf,
    StableHlo.binary main_v24 main_arg4 main_v25 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.unary main_arg5 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S262144x256 ![0, 1] bcast_S1x256_S262144x256_0_1 : (⟨S1x256, .f32⟩ : BufTy).Contents (Elt F) → (⟨S262144x256, .f32⟩ : BufTy).Contents (Elt F)),
    StableHlo.binary main_v25 main_v27 main_v28 (addf : (⟨S262144x256, .f32⟩ : BufTy).Contents (Elt F) → (⟨S262144x256, .f32⟩ : BufTy).Contents (Elt F) → (⟨S262144x256, .f32⟩ : BufTy).Contents (Elt F)),
    StableHlo.TRef.nullary main_call3.cst (constant S_ .f32 0x00000000#32),
    StableHlo.TRef.unary main_call3.cst main_call3.v0 (broadcastInDim S262144x256 ![] bcast_S_S262144x256),
    StableHlo.TRef.binary (.of main_v28 : StableHlo.TRef sig ⟨S262144x256, .f32⟩) main_call3.v0 main_call3.v1 maximumf,
    StableHlo.binary main_v29 main_arg6 main_v30 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.unary main_arg7 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S262144x256 ![0, 1] bcast_S1x256_S262144x256_0_1 : (⟨S1x256, .f32⟩ : BufTy).Contents (Elt F) → (⟨S262144x256, .f32⟩ : BufTy).Contents (Elt F)),
    StableHlo.binary main_v30 main_v32 main_v33 (addf : (⟨S262144x256, .f32⟩ : BufTy).Contents (Elt F) → (⟨S262144x256, .f32⟩ : BufTy).Contents (Elt F) → (⟨S262144x256, .f32⟩ : BufTy).Contents (Elt F)),
    StableHlo.TRef.nullary main_call4.cst (constant S_ .f32 0x00000000#32),
    StableHlo.TRef.unary main_call4.cst main_call4.v0 (broadcastInDim S262144x256 ![] bcast_S_S262144x256),
    StableHlo.TRef.binary (.of main_v33 : StableHlo.TRef sig ⟨S262144x256, .f32⟩) main_call4.v0 main_call4.v1 maximumf,
    StableHlo.binary main_v34 main_arg8 main_v35 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.unary main_arg9 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S262144x256 ![0, 1] bcast_S1x256_S262144x256_0_1 : (⟨S1x256, .f32⟩ : BufTy).Contents (Elt F) → (⟨S262144x256, .f32⟩ : BufTy).Contents (Elt F)),
    StableHlo.binary main_v35 main_v37 main_v38 (addf : (⟨S262144x256, .f32⟩ : BufTy).Contents (Elt F) → (⟨S262144x256, .f32⟩ : BufTy).Contents (Elt F) → (⟨S262144x256, .f32⟩ : BufTy).Contents (Elt F)),
    StableHlo.TRef.nullary main_call5.cst (constant S_ .f32 0x00000000#32),
    StableHlo.TRef.unary main_call5.cst main_call5.v0 (broadcastInDim S262144x256 ![] bcast_S_S262144x256),
    StableHlo.TRef.binary (.of main_v38 : StableHlo.TRef sig ⟨S262144x256, .f32⟩) main_call5.v0 main_call5.v1 maximumf,
    StableHlo.reshape main_v39 main_v40 rfl shapeCasts_S262144x256_S64x4096x256,
    StableHlo.nullary main_cst (constant S_ .f32 0x00000000#32),
    StableHlo.binary main_v40 main_cst main_v41 ((fun x v => Host.reduceAdd x v reducesTo_S64x4096x256_S64x256_d1 h_S_) : (⟨S64x4096x256, .f32⟩ : BufTy).Contents (Elt F) → (⟨S_, .f32⟩ : BufTy).Contents (Elt F) → (⟨S64x256, .f32⟩ : BufTy).Contents (Elt F)),
    StableHlo.nullary main_cst_1 (constant S_ .f32 0x45800000#32),
    StableHlo.unary main_cst_1 main_v42 (broadcastInDim S64x256 ![] bcast_S_S64x256 : (⟨S_, .f32⟩ : BufTy).Contents (Elt F) → (⟨S64x256, .f32⟩ : BufTy).Contents (Elt F)),
    StableHlo.binary main_v41 main_v42 main_v43 (Host.divf : (⟨S64x256, .f32⟩ : BufTy).Contents (Elt F) → (⟨S64x256, .f32⟩ : BufTy).Contents (Elt F) → (⟨S64x256, .f32⟩ : BufTy).Contents (Elt F)) ]

/-- The operations %44 … %58 with the two calls of @relu_1 and the call of @log_softmax: from the context and the last
    three layers' weights to the result `main_v58`. -/
abbrev opsC : List (HloOp τ sig (Elt F)) :=
  [ StableHlo.binary main_v43 main_arg10 main_v44 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    StableHlo.unary main_arg11 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S64x256 ![0, 1] bcast_S1x256_S64x256_0_1 : (⟨S1x256, .f32⟩ : BufTy).Contents (Elt F) → (⟨S64x256, .f32⟩ : BufTy).Contents (Elt F)),
    StableHlo.binary main_v44 main_v46 main_v47 (addf : (⟨S64x256, .f32⟩ : BufTy).Contents (Elt F) → (⟨S64x256, .f32⟩ : BufTy).Contents (Elt F) → (⟨S64x256, .f32⟩ : BufTy).Contents (Elt F)),
    StableHlo.TRef.nullary main_call6.cst (constant S_ .f32 0x00000000#32),
    StableHlo.TRef.unary main_call6.cst main_call6.v0 (broadcastInDim S64x256 ![] bcast_S_S64x256),
    StableHlo.TRef.binary (.of main_v47 : StableHlo.TRef sig ⟨S64x256, .f32⟩) main_call6.v0 main_call6.v1 maximumf,
    StableHlo.binary main_v48 main_arg12 main_v49 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    StableHlo.unary main_arg13 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S64x256 ![0, 1] bcast_S1x256_S64x256_0_1 : (⟨S1x256, .f32⟩ : BufTy).Contents (Elt F) → (⟨S64x256, .f32⟩ : BufTy).Contents (Elt F)),
    StableHlo.binary main_v49 main_v51 main_v52 (addf : (⟨S64x256, .f32⟩ : BufTy).Contents (Elt F) → (⟨S64x256, .f32⟩ : BufTy).Contents (Elt F) → (⟨S64x256, .f32⟩ : BufTy).Contents (Elt F)),
    StableHlo.TRef.nullary main_call7.cst (constant S_ .f32 0x00000000#32),
    StableHlo.TRef.unary main_call7.cst main_call7.v0 (broadcastInDim S64x256 ![] bcast_S_S64x256),
    StableHlo.TRef.binary (.of main_v52 : StableHlo.TRef sig ⟨S64x256, .f32⟩) main_call7.v0 main_call7.v1 maximumf,
    StableHlo.binary main_v53 main_arg14 main_v54 ((fun l r => Host.dotGeneral dot_S64x256_S256x2_S64x2_1_0_0_1_n_n none l r) : (⟨S64x256, .f32⟩ : BufTy).Contents (Elt F) → (⟨S256x2, .f32⟩ : BufTy).Contents (Elt F) → (⟨S64x2, .f32⟩ : BufTy).Contents (Elt F)),
    StableHlo.unary main_arg15 main_v55 (broadcastInDim S1x2 ![1] bcast_S2_S1x2_1 : (⟨S2, .f32⟩ : BufTy).Contents (Elt F) → (⟨S1x2, .f32⟩ : BufTy).Contents (Elt F)),
    StableHlo.unary main_v55 main_v56 (broadcastInDim S64x2 ![0, 1] bcast_S1x2_S64x2_0_1 : (⟨S1x2, .f32⟩ : BufTy).Contents (Elt F) → (⟨S64x2, .f32⟩ : BufTy).Contents (Elt F)),
    StableHlo.binary main_v54 main_v56 main_v57 (addf : (⟨S64x2, .f32⟩ : BufTy).Contents (Elt F) → (⟨S64x2, .f32⟩ : BufTy).Contents (Elt F) → (⟨S64x2, .f32⟩ : BufTy).Contents (Elt F)),
    StableHlo.TRef.nullary main_call8.cst (constant S_ .f32 0xFF800000#32),
    StableHlo.TRef.binary (.of main_v57 : StableHlo.TRef sig ⟨S64x2, .f32⟩) main_call8.cst main_call8.v0 (fun x v => Host.reduce FloatOps.maximumf x v reducesTo_S64x2_S64_d1 h_S_),
    StableHlo.TRef.nullary main_call8.cst_0 (constant S_ .f32 0xFF800000#32),
    StableHlo.TRef.unary main_call8.cst_0 main_call8.v1 (broadcastInDim S64 ![] bcast_S_S64),
    StableHlo.TRef.binary main_call8.v1 main_call8.v0 main_call8.v2 maximumf,
    StableHlo.TRef.unary main_call8.v2 main_call8.v3 (broadcastInDim S64x1 ![0] bcast_S64_S64x1_0),
    StableHlo.TRef.unary main_call8.v3 main_call8.v4 (broadcastInDim S64x2 ![0, 1] bcast_S64x1_S64x2_0_1),
    StableHlo.TRef.binary (.of main_v57 : StableHlo.TRef sig ⟨S64x2, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S64x2_S64_d1 h_S_),
    StableHlo.TRef.unary main_call8.v7 main_call8.v8 (broadcastInDim S64x1 ![0] bcast_S64_S64x1_0),
    StableHlo.TRef.unary main_call8.v8 main_call8.v9 Host.log,
    StableHlo.TRef.unary main_call8.v9 main_call8.v10 (broadcastInDim S64x2 ![0, 1] bcast_S64x1_S64x2_0_1),
    StableHlo.TRef.binary main_call8.v5 main_call8.v10 main_call8.v11 subf ]

/-- @main's 125 operations, in order. -/
abbrev ops : List (HloOp τ sig (Elt F)) := opsA ++ opsB ++ opsC

theorem opsA_sub : (opsA : List (HloOp τ sig (Elt F))).Forall fun op => op.bufs ⊆ tcRefs τ sig :=
  ⟨reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub .., unary_bufs_sub .., unary_bufs_sub .., binary_bufs_sub .., unary_bufs_sub ..⟩

theorem opsB_sub : (opsB : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub .., reshape_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub .., nullary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp opsA_sub op h
      · exact List.forall_iff_forall_mem.mp opsB_sub op h
    · exact List.forall_iff_forall_mem.mp opsC_sub op h

theorem scopedRefs_eq : (Finset.univ.filter fun b : Ref sig .tc => b.isScoped) = ∅ := by decide
theorem scopedSems_eq : (Finset.univ.filter fun sm : SemLoc sig => sm.isScoped .tc) = ∅ := by decide

-- 125 binds re-associated: the rewrite under the chain recurses once per statement
set_option maxRecDepth 16384 in
set_option maxHeartbeats 4000000 in
/-- @main is that straight line: its two windows and the functions' definitions unfolded at their calls, both sides are
    one chain of steps once sequencing is reassociated. -/
theorem main_eq (c : Dev nD) : main (F := F) c = seq ops := by
  simp only [main, main_part0, main_part1, fn_floor_divide.body, fn_where.body, fn_remainder.body, fn_where_0.body,
    fn_relu.body, fn_relu_1.body, fn_log_softmax.body, ops, opsA, opsB, opsC, seq_append, seq, bind_assoc, pure_bind]

/-- At the compiled mesh, for any float values, from any memory with zero counters: every weakly fair execution of @main
    on the TensorCores terminates, and every final state has each TensorCore buffer at the operations' fold over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run read back through its three stretches. Each stretch's fold, from ANY contents, leaves its last
  buffer at the stretch's pure function of the buffers it reads and keeps every buffer it does not write: the object
  table is `Shared.objects` of the image, the context is `Stages.contextOf` of the object table, the question and the
  four layers' weights, the result is `Shared.tail` of the context and the last three layers' weights. Composed along
  the run: every fair execution of the reference ends with the result buffer at the composite of the three functions
  of the arguments' launch contents, and the sixteen arguments unchanged.
-/
import proofs.«166647_j42898133353091_2_alg».proof.Proof.RefOps
import proofs.«166647_j42898133353091_2_alg».proof.Proof.RefShared
import proofs.«166647_j42898133353091_2_alg».proof.Proof.RefStages

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## What each stretch writes, and so what it keeps -/

/-- The buffers that stretch `opsA`'s operations write. -/
abbrev opsA_W : List (Ref sig .tc) := [main_v0, main_v1, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v2, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v3, main_v4, main_v5, main_v6, main_v7, main_v8, main_v9, main_v10]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that stretch `opsA` does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h

/-- The buffers that stretch `opsB`'s operations write. -/
abbrev opsB_W : List (Ref sig .tc) := [main_v11, main_v12, main_v13, main_v14, main_v15, main_v16, main_v17, main_v18, main_v19, main_v20, main_v21, main_v22, main_v23, main_call2_cst, main_call2_v0, main_v24, main_v25, main_v26, main_v27, main_v28, main_call3_cst, main_call3_v0, main_v29, main_v30, main_v31, main_v32, main_v33, main_call4_cst, main_call4_v0, main_v34, main_v35, main_v36, main_v37, main_v38, main_call5_cst, main_call5_v0, main_v39, main_v40, main_cst, main_v41, main_cst_1, main_v42, main_v43]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that stretch `opsB` does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h

/-- The buffers that stretch `opsC`'s operations write. -/
abbrev opsC_W : List (Ref sig .tc) := [main_v44, main_v45, main_v46, main_v47, main_call6_cst, main_call6_v0, main_v48, main_v49, main_v50, main_v51, main_v52, main_call7_cst, main_call7_v0, main_v53, main_v54, main_v55, main_v56, main_v57, main_call8_cst, main_call8_v0, main_call8_cst_0, main_call8_v1, main_call8_v2, main_call8_v3, main_call8_v4, main_call8_v5, main_call8_v6, main_call8_cst_1, main_call8_v7, main_call8_v8, main_call8_v9, main_call8_v10, main_v58]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer that stretch `opsC` does not write keeps its contents through it. -/
theorem opsC_keep (W : Valuation τ sig (Elt F)) (r : Ref sig .tc) (h : r ∉ opsC_W) :
    after opsC W (Proc.devRef .tc r) = W (Proc.devRef .tc r) :=
  after_of_writes_sub opsC _ opsC_writes h

/-! ## Each stretch's last buffer -/

set_option maxRecDepth 8192 in
set_option maxHeartbeats 2000000 in
/-- After the first stretch, from any contents, the object table's buffer holds `Shared.objects` of the image's. -/
theorem objects_eq (W : Valuation τ sig (Elt F)) :
    after opsA W (main_v10 : DevRef τ sig) = Shared.objects (W (main_arg0 : DevRef τ sig)) := by
  after_results
  simp only [cast_eq]
  rfl

set_option maxRecDepth 8192 in
set_option maxHeartbeats 2000000 in
/-- After the second stretch, from any contents, the context's buffer holds `Stages.contextOf` of the object table's,
    the question's and the four layers' weights'. -/
theorem context_eq (W : Valuation τ sig (Elt F)) :
    after opsB W (main_v43 : DevRef τ sig)
      = Stages.contextOf (W (main_v10 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) := by
  after_results
  simp only [cast_eq]
  rfl

set_option maxRecDepth 8192 in
set_option maxHeartbeats 2000000 in
/-- After the third stretch, from any contents, the result's buffer holds `Shared.tail` of the context's and the last
    three layers' weights'. -/
theorem tail_eq (W : Valuation τ sig (Elt F)) :
    after opsC W (main_v58 : DevRef τ sig)
      = Shared.tail (W (main_v43 : DevRef τ sig)) (W (main_arg10 : DevRef τ sig)) (W (main_arg11 : DevRef τ sig)) (W (main_arg12 : DevRef τ sig)) (W (main_arg13 : DevRef τ sig)) (W (main_arg14 : DevRef τ sig)) (W (main_arg15 : DevRef τ sig)) := by
  after_results_simp
  simp only [cast_eq]
  rfl

/-! ## The whole line -/

/-- A buffer none of the three stretches writes keeps its contents through the whole line. -/
theorem ops_keep (V : Valuation τ sig (Elt F)) (r : Ref sig .tc) (hA : r ∉ opsA_W) (hB : r ∉ opsB_W) (hC : r ∉ opsC_W) :
    after ops V (Proc.devRef .tc r) = V (Proc.devRef .tc r) := by
  rw [show (ops : List (HloOp τ sig (Elt F))) = (opsA ++ opsB) ++ opsC from rfl, after_append, after_append,
    opsC_keep _ r hC, opsB_keep _ r hB, opsA_keep _ r hA]

/-- After the whole line, from any contents, the result's buffer holds the three functions composed, of the sixteen
    arguments' contents. -/
theorem out_eq (V : Valuation τ sig (Elt F)) :
    after ops V (main_v58 : DevRef τ sig)
      = Shared.tail (Stages.contextOf (Shared.objects (V (main_arg0 : DevRef τ sig))) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)))
          (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [show (ops : List (HloOp τ sig (Elt F))) = (opsA ++ opsB) ++ opsC from rfl, after_append, after_append, tail_eq, context_eq,
    objects_eq,
    opsB_keep _ main_arg10 (by decide), opsB_keep _ main_arg11 (by decide), opsB_keep _ main_arg12 (by decide), opsB_keep _ main_arg13 (by decide), opsB_keep _ main_arg14 (by decide), opsB_keep _ main_arg15 (by decide),
    opsA_keep _ main_arg1 (by decide), opsA_keep _ main_arg2 (by decide), opsA_keep _ main_arg3 (by decide), opsA_keep _ main_arg4 (by decide), opsA_keep _ main_arg5 (by decide), opsA_keep _ main_arg6 (by decide), opsA_keep _ main_arg7 (by decide), opsA_keep _ main_arg8 (by decide), opsA_keep _ main_arg9 (by decide), opsA_keep _ main_arg10 (by decide), opsA_keep _ main_arg11 (by decide), opsA_keep _ main_arg12 (by decide), opsA_keep _ main_arg13 (by decide), opsA_keep _ main_arg14 (by decide), opsA_keep _ main_arg15 (by decide)]

/-- At the compiled mesh, for any float values, from any memory with zero counters: every weakly fair execution of the
    reference terminates with the result at `Shared.tail` of `Stages.contextOf` of `Shared.objects` of the arguments'
    launch contents, and the sixteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
        = Shared.tail (Stages.contextOf (Shared.objects (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v58).trans (out_eq _),
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide)),
      (h c main_arg8).trans (ops_keep _ main_arg8 (by decide) (by decide) (by decide)),
      (h c main_arg9).trans (ops_keep _ main_arg9 (by decide) (by decide) (by decide)),
      (h c main_arg10).trans (ops_keep _ main_arg10 (by decide) (by decide) (by decide)),
      (h c main_arg11).trans (ops_keep _ main_arg11 (by decide) (by decide) (by decide)),
      (h c main_arg12).trans (ops_keep _ main_arg12 (by decide) (by decide) (by decide)),
      (h c main_arg13).trans (ops_keep _ main_arg13 (by decide) (by decide) (by decide)),
      (h c main_arg14).trans (ops_keep _ main_arg14 (by decide) (by decide) (by decide)),
      (h c main_arg15).trans (ops_keep _ main_arg15 (by decide) (by decide) (by decide))⟩)
    (run_fold m ρ)

end Cert.ReferenceIdeal.RefRun

end
-- ==== Proof.lean ====
/-
  A relation network's forward pass: the kernel against the plain reference, at the ideal values.

  Both programs turn each image's 8 × 8 feature map into 64 objects of 66 numbers (the 64 channels and the cell's row
  and column), send every ordered pair of objects, with the question, through four dense layers with rectifiers,
  average over the 4096 pairs, and finish with a small network and the logarithm of a softmax. The reference forms
  all 262144 pair rows of 388 numbers. The kernel never does: per image it multiplies the objects by the first
  weights' two object blocks once, brings the two projections to the pairs by two 0/1 selector matrices, and adds the
  question's part — the first layer's sum over 388 entries split in three. On the extended reals the two are one
  function: the split uses only that addition is associative and commutative, a selector row times a projection picks
  one row because `0 · x = 0` and `1 · x = x` for every extended real, and a change of float format is the identity.
  No finiteness of the inputs is used.

  The frames of the two kernel programs are the generated ones. The reference has no kernel, and its run is written
  out (`RefRun`): its frame is that run with the result dropped. The ideal pass rewrote nothing, so the kernel's
  idealization is preserved trivially. For the value claim both runs end at the SAME term — the shared tail of the
  reference's context array of the arguments — the kernel's by reading its result array block by block
  (`KernelBlocks`), the arrays its region finds (`KernelArrays`), the operations after the region (`KernelTail`) and
  the bridge to the reference's context (`KernelBridge`); the memories agree on the arguments.
-/
import proofs.«166647_j42898133353091_2_alg».proof.Defs
import proofs.«166647_j42898133353091_2_alg».proof.Proof.Gen.Kernel
import proofs.«166647_j42898133353091_2_alg».proof.Proof.Gen.Kernel.Frame
import proofs.«166647_j42898133353091_2_alg».proof.Proof.Gen.KernelIdeal
import proofs.«166647_j42898133353091_2_alg».proof.Proof.Gen.KernelIdeal.Frame
import proofs.«166647_j42898133353091_2_alg».proof.Proof.Gen.ReferenceIdeal
import proofs.«166647_j42898133353091_2_alg».proof.Proof.Gen.Pre_finite_inputs
import proofs.«166647_j42898133353091_2_alg».proof.Proof.KernelRun
import proofs.«166647_j42898133353091_2_alg».proof.Proof.RefRun
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (@Cert.ReferenceIdeal.RefRun.run Ideal _ Cert.ReferenceIdeal.Gen.facts m ρ)

/-- From memories that agree on the sixteen arguments both programs end with the same result: each run's result is
    the shared tail of the reference's context array of its own arguments, and the arguments are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, @Cert.KernelIdeal.KValue.run Cert.ReferenceIdeal.Gen.facts m ρ, ?_⟩
  refine (θ_run Cert.ReferenceIdeal.defs _ _).mono (fun _ h c => ⟨(h c).1.trans ?_, (h c).2⟩)
    (@Cert.ReferenceIdeal.RefRun.run Ideal _ Cert.ReferenceIdeal.Gen.facts m' ρ')
  obtain ⟨e0, e1, e2, e3, e4, e5, e6, e7, e8, e9, e10, e11, e12, e13, e14, e15⟩ := hagree c
  rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
